-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1000000 : Shape := ⟨2, ![32, 1000000]⟩
abbrev S1000000 : Shape := ⟨1, ![1000000]⟩
abbrev S_ : Shape := ⟨0, ![]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S32x1000000 .f32) (main_arg1 : FVec F S32x1000000 .f32) (main_arg2 : FVec F S1000000 .f32) : IVec S_ 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  let main_c : IVec S_ 1 := constantI S_ 1 1#1
  let main_v3 : IVec S_ 1 := (fun x v => Host.reduce IntOp.andi x v reducesTo_S32x1000000_S_d0_1 h_S_) main_v2 main_c
  let main_v4 : FVec F S32x1000000 .f32 := Host.absf main_arg1
  let main_cst_0 : FVec F S_ .f32 := constant S_ .f32 0x7F800000#32
  let main_v5 : FVec F S32x1000000 .f32 := broadcastInDim S32x1000000 ![] bcast_S_S32x1000000 main_cst_0
  let main_v6 : IVec S32x1000000 1 := cmpf .olt main_v4 main_v5
  let main_c_1 : IVec S_ 1 := constantI S_ 1 1#1
  let main_v7 : IVec S_ 1 := (fun x v => Host.reduce IntOp.andi x v reducesTo_S32x1000000_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S32x1000000 : Shape := ⟨2, ![32, 1000000]⟩
abbrev S1000000 : Shape := ⟨1, ![1000000]⟩
abbrev S1x1000000 : Shape := ⟨2, ![1, 1000000]⟩
abbrev S32x1 : Shape := ⟨2, ![32, 1]⟩
abbrev S32x73728 : Shape := ⟨2, ![32, 73728]⟩
abbrev S1x73728 : Shape := ⟨2, ![1, 73728]⟩
abbrev S32 : Shape := ⟨1, ![32]⟩
abbrev S32x131072 : Shape := ⟨2, ![32, 131072]⟩

abbrev nBuf : Space → Nat
  | .hbm => 7
  | .vmem => 16
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S1000000, .f32⟩
  | .hbm, ⟨3, _⟩ => ⟨S1x1000000, .f32⟩
  | .hbm, ⟨4, _⟩ => ⟨S32x1, .f32⟩
  | .hbm, ⟨5, _⟩ => ⟨S32x1000000, .bf16⟩
  | .hbm, ⟨6, _⟩ => ⟨S32x1000000, .f32⟩
  | .local _ .vmem, ⟨0, _⟩ => ⟨S32x73728, .f32⟩
  | .local _ .vmem, ⟨1, _⟩ => ⟨S32x73728, .f32⟩
  | .local _ .vmem, ⟨2, _⟩ => ⟨S32x73728, .f32⟩
  | .local _ .vmem, ⟨3, _⟩ => ⟨S32x73728, .f32⟩
  | .local _ .vmem, ⟨4, _⟩ => ⟨S1x73728, .f32⟩
  | .local _ .vmem, ⟨5, _⟩ => ⟨S1x73728, .f32⟩
  | .local _ .vmem, ⟨6, _⟩ => ⟨S32x1, .f32⟩
  | .local _ .vmem, ⟨7, _⟩ => ⟨S32x73728, .bf16⟩
  | .local _ .vmem, ⟨8, _⟩ => ⟨S32x73728, .bf16⟩
  | .local _ .vmem, ⟨9, _⟩ => ⟨S32x1, .f32⟩
  | .local _ .vmem, ⟨10, _⟩ => ⟨S1x73728, .f32⟩
  | .local _ .vmem, ⟨11, _⟩ => ⟨S32x131072, .bf16⟩
  | .local _ .vmem, ⟨12, _⟩ => ⟨S32x131072, .bf16⟩
  | .local _ .vmem, ⟨13, _⟩ => ⟨S32x1, .f32⟩
  | .local _ .vmem, ⟨14, _⟩ => ⟨S32x131072, .f32⟩
  | .local _ .vmem, ⟨15, _⟩ => ⟨S32x131072, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![14], ![false]⟩

def k0_cond3 (i : grid0.Coords) : BitVec 1 :=
  let arg0 : BitVec 32 := BitVec.ofNat 32 (i 0).val
  let c13_i32_17 : BitVec 32 := 13#32
  let v33 : BitVec 1 := Scalar.cmpi .eq arg0 c13_i32_17
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x73728 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x73728 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x73728 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x73728 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x131072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1000000_S1x1000000 : S1000000.ShapeCasts S1x1000000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x73728_S1x73728_0_0 : ∀ a, (![0, 0] : Fin 2 → Nat) a + S1x73728.size a ≤ S1x73728.size a
  h_S1x73728 : 0 < S1x73728.numel
  shapeCasts_S1x73728_S1x73728 : S1x73728.ShapeCasts S1x73728
  inb_S32x73728_S32x73728_0_0 : ∀ a, (![0, 0] : Fin 2 → Nat) a + S32x73728.size a ≤ S32x73728.size a
  h_S32x73728 : 0 < S32x73728.numel
  broadcasts_S1x73728_S32x73728 : S1x73728.Broadcasts S32x73728
  bitsLt_bf16_f32 : FTy.bits .bf16 < FTy.bits .f32
  packedbf16_S32x73728_S32x73728_0_0 : (Rect.unit (s := S32x73728) ![0, 0] S32x73728.size inb_S32x73728_S32x73728_0_0).PackedRows (EltTy.packing .bf16)
  reduces_S32x73728_S32 : S32x73728.Reduces [1] S32
  shapeCasts_S32_S32x1 : S32.ShapeCasts S32x1
  iota_S32x73728_d1_w32 : S32x73728.Iotas .tc 32 [1]
  inb_S32x131072_S32x131072_0_0 : ∀ a, (![0, 0] : Fin 2 → Nat) a + S32x131072.size a ≤ S32x131072.size a
  h_S32x131072 : 0 < S32x131072.numel
  shapeCasts_S32x131072_S32x131072 : S32x131072.ShapeCasts S32x131072
  broadcasts_S32x1_S32x131072 : S32x1.Broadcasts S32x131072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x73728.size a < S32x1000000.size a
  hwx0_0 : ∀ i : grid0.Coords, EltTy.bits .f32 = 32 ∨ (Rect.unit (s := S32x1000000) (fun a => cc0_transform_0 i a * S32x73728.size a) (fun a => (Pipeline.Clip.of (cc0_transform_0 i a) (S32x73728.size a) (S32x1000000.size a)).extent (S32x73728.size a)) fun a => Pipeline.Clip.inb (Pipeline.Clip.ok_of (hstart0_0 i a))).WholeWords (EltTy.packing .f32)
  hwxs0_0 : ∀ i : grid0.Coords, EltTy.bits .f32 = 32 ∨ (Rect.unit (s := S32x73728) (fun _ => 0) (fun a => (Pipeline.Clip.of (cc0_transform_0 i a) (S32x73728.size a) (S32x1000000.size a)).extent (S32x73728.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x73728.size a < S32x1000000.size a
  hwx0_1 : ∀ i : grid0.Coords, EltTy.bits .f32 = 32 ∨ (Rect.unit (s := S32x1000000) (fun a => cc0_transform_1 i a * S32x73728.size a) (fun a => (Pipeline.Clip.of (cc0_transform_1 i a) (S32x73728.size a) (S32x1000000.size a)).extent (S32x73728.size a)) fun a => Pipeline.Clip.inb (Pipeline.Clip.ok_of (hstart0_1 i a))).WholeWords (EltTy.packing .f32)
  hwxs0_1 : ∀ i : grid0.Coords, EltTy.bits .f32 = 32 ∨ (Rect.unit (s := S32x73728) (fun _ => 0) (fun a => (Pipeline.Clip.of (cc0_transform_1 i a) (S32x73728.size a) (S32x1000000.size a)).extent (S32x73728.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x73728.size a < S1x1000000.size a
  hwx0_2 : ∀ i : grid0.Coords, EltTy.bits .f32 = 32 ∨ (Rect.unit (s := S1x1000000) (fun a => cc0_transform_2 i a * S1x73728.size a) (fun a => (Pipeline.Clip.of (cc0_transform_2 i a) (S1x73728.size a) (S1x1000000.size a)).extent (S1x73728.size a)) fun a => Pipeline.Clip.inb (Pipeline.Clip.ok_of (hstart0_2 i a))).WholeWords (EltTy.packing .f32)
  hwxs0_2 : ∀ i : grid0.Coords, EltTy.bits .f32 = 32 ∨ (Rect.unit (s := S1x73728) (fun _ => 0) (fun a => (Pipeline.Clip.of (cc0_transform_2 i a) (S1x73728.size a) (S1x1000000.size a)).extent (S1x73728.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x73728.size a < S32x1000000.size a
  hwx0_4 : ∀ i : grid0.Coords, EltTy.bits .bf16 = 32 ∨ (Rect.unit (s := S32x1000000) (fun a => cc0_transform_4 i a * S32x73728.size a) (fun a => (Pipeline.Clip.of (cc0_transform_4 i a) (S32x73728.size a) (S32x1000000.size a)).extent (S32x73728.size a)) fun a => Pipeline.Clip.inb (Pipeline.Clip.ok_of (hstart0_4 i a))).WholeWords (EltTy.packing .bf16)
  hwxs0_4 : ∀ i : grid0.Coords, EltTy.bits .bf16 = 32 ∨ (Rect.unit (s := S32x73728) (fun _ => 0) (fun a => (Pipeline.Clip.of (cc0_transform_4 i a) (S32x73728.size a) (S32x1000000.size a)).extent (S32x73728.size a)) fun a => (Nat.zero_add _).trans_le (Pipeline.Clip.extent_le (Pipeline.Clip.ok_of (hstart0_4 i a)))).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S32x131072.size a < S32x1000000.size a
  hwx1_0 : ∀ i : grid1.Coords, EltTy.bits .bf16 = 32 ∨ (Rect.unit (s := S32x1000000) (fun a => cc1_transform_0 i a * S32x131072.size a) (fun a => (Pipeline.Clip.of (cc1_transform_0 i a) (S32x131072.size a) (S32x1000000.size a)).extent (S32x131072.size a)) fun a => Pipeline.Clip.inb (Pipeline.Clip.ok_of (hstart1_0 i a))).WholeWords (EltTy.packing .bf16)
  hwxs1_0 : ∀ i : grid1.Coords, EltTy.bits .bf16 = 32 ∨ (Rect.unit (s := S32x131072) (fun _ => 0) (fun a => (Pipeline.Clip.of (cc1_transform_0 i a) (S32x131072.size a) (S32x1000000.size a)).extent (S32x131072.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S32x131072.size a < S32x1000000.size a
  hwx1_2 : ∀ i : grid1.Coords, EltTy.bits .f32 = 32 ∨ (Rect.unit (s := S32x1000000) (fun a => cc1_transform_2 i a * S32x131072.size a) (fun a => (Pipeline.Clip.of (cc1_transform_2 i a) (S32x131072.size a) (S32x1000000.size a)).extent (S32x131072.size a)) fun a => Pipeline.Clip.inb (Pipeline.Clip.ok_of (hstart1_2 i a))).WholeWords (EltTy.packing .f32)
  hwxs1_2 : ∀ i : grid1.Coords, EltTy.bits .f32 = 32 ∨ (Rect.unit (s := S32x131072) (fun _ => 0) (fun a => (Pipeline.Clip.of (cc1_transform_2 i a) (S32x131072.size a) (S32x1000000.size a)).extent (S32x131072.size a)) fun a => (Nat.zero_add _).trans_le (Pipeline.Clip.extent_le (Pipeline.Clip.ok_of (hstart1_2 i a)))).WholeWords (EltTy.packing .f32)

variable [Facts₀]

abbrev win0_0 : Pipeline.Window sig grid0 :=
  Pipeline.Window.ofSpecClip (Memref.whole main_arg0) S32x73728.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S32x73728.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_call0_v0) S1x73728.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_call0_v1_0) S32x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_call0_v1_1) S32x73728.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun _ => false | ⟨_ + 5, h⟩ => absurd h (Nat.not_lt.2 (Nat.le_add_left _ _))

abbrev win1_0 : Pipeline.Window sig grid1 :=
  Pipeline.Window.ofSpecClip (Memref.whole main_call0_v1_1) S32x131072.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_call0_v1_0) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v0) S32x131072.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x1000000 : Shape := ⟨2, ![32, 1000000]⟩
abbrev S1000000 : Shape := ⟨1, ![1000000]⟩
abbrev S_ : Shape := ⟨0, ![]⟩
abbrev S1x1000000 : Shape := ⟨2, ![1, 1000000]⟩
abbrev S32 : Shape := ⟨1, ![32]⟩
abbrev S32x1 : Shape := ⟨2, ![32, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S1000000, .f32⟩
  | .hbm, ⟨3, _⟩ => ⟨S_, .f32⟩
  | .hbm, ⟨4, _⟩ => ⟨S1000000, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S_, .f32⟩
  | .hbm, ⟨9, _⟩ => ⟨S1000000, .f32⟩
  | .hbm, ⟨10, _⟩ => ⟨S1000000, .f32⟩
  | .hbm, ⟨11, _⟩ => ⟨S1000000, .f32⟩
  | .hbm, ⟨12, _⟩ => ⟨S1000000, .f32⟩
  | .hbm, ⟨13, _⟩ => ⟨S1x1000000, .f32⟩
  | .hbm, ⟨14, _⟩ => ⟨S32x1000000, .f32⟩
  | .hbm, ⟨15, _⟩ => ⟨S32x1000000, .f32⟩
  | .hbm, ⟨16, _⟩ => ⟨S_, .f32⟩
  | .hbm, ⟨17, _⟩ => ⟨S32x1000000, .f32⟩
  | .hbm, ⟨18, _⟩ => ⟨S32x1000000, .f32⟩
  | .hbm, ⟨19, _⟩ => ⟨S_, .f32⟩
  | .hbm, ⟨20, _⟩ => ⟨S32x1000000, .f32⟩
  | .hbm, ⟨21, _⟩ => ⟨S32x1000000, .f32⟩
  | .hbm, ⟨22, _⟩ => ⟨S32x1000000, .f32⟩
  | .hbm, ⟨23, _⟩ => ⟨S32x1000000, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32x1, .f32⟩
  | .hbm, ⟨30, _⟩ => ⟨S32x1000000, .f32⟩
  | .hbm, ⟨31, _⟩ => ⟨S32x1000000, .f32⟩
  | .hbm, ⟨32, _⟩ => ⟨S32x1000000, .f32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S32x1, .f32⟩
  | .hbm, ⟨37, _⟩ => ⟨S32x1000000, .f32⟩
  | .hbm, ⟨38, _⟩ => ⟨S32x1000000, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v17 : Ref sig .tc := ⟨.hbm, 38, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1x1000000_1 : S1000000.BroadcastsInDim S1x1000000 (![1] : Fin 1 → Fin S1x1000000.rank)
  bcast_S1x1000000_S32x1000000_0_1 : S1x1000000.BroadcastsInDim S32x1000000 (![0, 1] : Fin 2 → Fin S32x1000000.rank)
  bcast_S_S32x1000000 : S_.BroadcastsInDim S32x1000000 (![] : Fin 0 → Fin S32x1000000.rank)
  reducesTo_S32x1000000_S32_d1 : S32x1000000.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x1000000_0_1 : S32x1.BroadcastsInDim S32x1000000 (![0, 1] : Fin 2 → Fin S32x1000000.rank)

variable [Facts₀]

class Facts : Prop extends Facts₀ where

variable [Facts]
-- ==== Proof.BSumConds.lean ====
/-
  The first kernel's three branch conditions as propositions of the grid point, decided over the grid: the accumulator is
  reset at the first point, a whole block's row sums are added at every point but the last, and at the last point the
  columns past the array's end are masked out of the row sums and the logarithm of the total is stored.
-/
import proofs.«131931_g34385508171941_cont_8to1_b_261_19_alg».proof.Proof.Gen.Kernel.Launch
import proofs.«131931_g34385508171941_cont_8to1_b_261_19_alg».proof.Proof.Gen.Kernel.Skeleton
import proofs.«131931_g34385508171941_cont_8to1_b_261_19_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator is reset: the point is the first. -/
abbrev cInit (i : grid0.Coords) : Prop :=
  (Scalar.cmpi .ne (Scalar.extui (Scalar.cmpi .eq (BitVec.ofNat 32 (i 0).val) 0#32)) 0#32) = 1#1
/-- A whole block is summed: the point is not the last. -/
abbrev cFull (i : grid0.Coords) : Prop :=
  (Scalar.cmpi .ne (Scalar.extui (Scalar.cmpi .slt (BitVec.ofNat 32 (i 0).val) 13#32)) 0#32) = 1#1
/-- The masked tail is summed and the logarithm stored: the point is the last. -/
abbrev cTail (i : grid0.Coords) : Prop := k0_cond3 i = 1#1

theorem hInit : ∀ t : Fin cfg0.N, cInit (grid0.coords t) ↔ t.val = 0 :=
  (by decide +kernel : ∀ t : Fin grid0.N, cInit (grid0.coords t) ↔ t.val = 0)
theorem hFull : ∀ t : Fin cfg0.N, cFull (grid0.coords t) ↔ t.val < 13 :=
  (by decide +kernel : ∀ t : Fin grid0.N, cFull (grid0.coords t) ↔ t.val < 13)
theorem hTail : ∀ t : Fin cfg0.N, cTail (grid0.coords t) ↔ t.val = 13 :=
  (by decide +kernel : ∀ t : Fin grid0.N, cTail (grid0.coords t) ↔ t.val = 13)

/-- Views through which the contents of the first kernel's output and scratch buffers are stated (the choice of buffer does
    not matter: only the shape and element type are read). -/
abbrev VO4 : View sig .tc .vmem S32x1 .f32 := (Memref.whole cc0_stg3_0 : Memref sig .tc .vmem S32x1 .f32).view
abbrev VO5 : View sig .tc .vmem S32x73728 .bf16 := (Memref.whole cc0_stg4_0 : Memref sig .tc .vmem S32x73728 .bf16).view
abbrev VS6 : View sig .tc .vmem S32x1 .f32 := (Memref.whole cc0_scratch0 : Memref sig .tc .vmem S32x1 .f32).view
abbrev VS7 : View sig .tc .vmem S1x73728 .f32 := (Memref.whole cc0_scratch1 : Memref sig .tc .vmem S1x73728 .f32).view

end Cert.KBProof

end
-- ==== Proof.BSumRunA.lean ====
/-
  The first kernel's body at the first point: the accumulator is reset to zero, the column terms are written to their
  scratch row, the narrowed scores to the scores' buffer, and the block's row sums are added to the (zero) accumulator; the
  normalisers' buffer is not touched.
-/
import proofs.«131931_g34385508171941_cont_8to1_b_261_19_alg».proof.Proof.BSumConds

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the scores' buffer, the accumulator and the scratch row at the first point, with the
    proof that the body runs from whole buffers — the three inputs' at their blocks, the others at anything — to the
    continuation. -/
noncomputable def runA (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole)
    (hI : cInit i) (hF : cFull i) (hT : ¬cTail i)
    (x1 x2 : Vec F S32x73728 .f32) (x3 : Vec F S1x73728 .f32) (x4 : Vec F S32x1 .f32) :
    { L : List (View.Piece (Elt F) S32x73728 .bf16) × List (View.Piece (Elt F) S32x1 .f32) × List (View.Piece (Elt F) S1x73728 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ (∃ d, owns (c : Thread nD τ) a5 fullShare d)
            ∗ (∃ d, owns (c : Thread nD τ) a6 fullShare d) ∗ (∃ d, owns (c : Thread nD τ) a7 fullShare d)
            ∗ (iprop(owns (c : Thread nD τ) a1 fullShare x1 ∗ owns (c : Thread nD τ) a2 fullShare x2 ∗ owns (c : Thread nD τ) a3 fullShare x3
                ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__sum_kernel i a1 h1 a2 h2 a3 h3 a4 h4 a5 h5 a6 h6 a7 h7) K } := by
  refine ⟨(?_, ?_, ?_), fun E K => ?run⟩
  case run =>
    simp only [cc0__sum_kernel_eq_skeleton]; unfold cc0__sum_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h1.eq_unread hf1; obtain rfl := h2.eq_unread hf2; obtain rfl := h3.eq_unread hf3
    obtain rfl := h4.eq_unread hf4
    sl_exec (disch := first | exact hI | exact hF | exact hT)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.KBProof

end
-- ==== Proof.BSumRunB.lean ====
/-
  The first kernel's body at a point that is neither the first nor the last: the column terms are written to their scratch
  row, the narrowed scores to the scores' buffer, and the block's row sums are added to the accumulator the point before
  left; the normalisers' buffer is not touched.
-/
import proofs.«131931_g34385508171941_cont_8to1_b_261_19_alg».proof.Proof.BSumConds

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the scores' buffer, the accumulator and the scratch row at a middle point, with the
    proof that the body runs from whole buffers — the three inputs' at their blocks, the accumulator at what the point
    before left, the others at anything — to the continuation. -/
noncomputable def runB (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole)
    (hI : ¬cInit i) (hF : cFull i) (hT : ¬cTail i)
    (x1 x2 : Vec F S32x73728 .f32) (x3 : Vec F S1x73728 .f32) (x4 xo6 : Vec F S32x1 .f32) :
    { L : List (View.Piece (Elt F) S32x73728 .bf16) × List (View.Piece (Elt F) S32x1 .f32) × List (View.Piece (Elt F) S1x73728 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ (∃ d, owns (c : Thread nD τ) a5 fullShare d)
            ∗ owns (c : Thread nD τ) a6 fullShare xo6 ∗ (∃ d, owns (c : Thread nD τ) a7 fullShare d)
            ∗ (iprop(owns (c : Thread nD τ) a1 fullShare x1 ∗ owns (c : Thread nD τ) a2 fullShare x2 ∗ owns (c : Thread nD τ) a3 fullShare x3
                ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__sum_kernel i a1 h1 a2 h2 a3 h3 a4 h4 a5 h5 a6 h6 a7 h7) K } := by
  refine ⟨(?_, ?_, ?_), fun E K => ?run⟩
  case run =>
    simp only [cc0__sum_kernel_eq_skeleton]; unfold cc0__sum_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
    obtain rfl := h1.eq_unread hf1; obtain rfl := h2.eq_unread hf2; obtain rfl := h3.eq_unread hf3
    obtain rfl := h4.eq_unread hf4; obtain rfl := h6.eq_unread hf6
    sl_exec (disch := first | exact hI | exact hF | exact hT)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.KBProof

end
-- ==== Proof.BSumRunC.lean ====
/-
  The first kernel's body at the last point: the column terms are written to their scratch row, the narrowed scores to the
  scores' buffer, and the logarithm of the accumulator plus the block's row sums over the columns inside the array is stored
  to the normalisers' buffer; the accumulator is read, not written.
-/
import proofs.«131931_g34385508171941_cont_8to1_b_261_19_alg».proof.Proof.BSumConds

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the normalisers' buffer, the scores' buffer and the scratch row at the last point, with
    the proof that the body runs from whole buffers — the three inputs' at their blocks, the accumulator at what the point
    before left, the others at anything — to the continuation. -/
noncomputable def runC (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole)
    (hI : ¬cInit i) (hF : ¬cFull i) (hT : cTail i)
    (x1 x2 : Vec F S32x73728 .f32) (x3 : Vec F S1x73728 .f32) (xo6 : Vec F S32x1 .f32) :
    { L : List (View.Piece (Elt F) S32x1 .f32) × List (View.Piece (Elt F) S32x73728 .bf16) × List (View.Piece (Elt F) S1x73728 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ (∃ d, owns (c : Thread nD τ) a4 fullShare d) ∗ (∃ d, owns (c : Thread nD τ) a5 fullShare d)
            ∗ owns (c : Thread nD τ) a6 fullShare xo6 ∗ (∃ d, owns (c : Thread nD τ) a7 fullShare d)
            ∗ (iprop(owns (c : Thread nD τ) a1 fullShare x1 ∗ owns (c : Thread nD τ) a2 fullShare x2 ∗ owns (c : Thread nD τ) a3 fullShare x3
                ∗ (∃ f, a4.view.loc (c : Thread nD τ) ↦[a4.view.set]{fullShare} a4.view.writes (Elt F) f L.1)
                ∗ (∃ f, a5.view.loc (c : Thread nD τ) ↦[a5.view.set]{fullShare} a5.view.writes (Elt F) f L.2.1)
                ∗ owns (c : Thread nD τ) a6 fullShare xo6
                ∗ (∃ f, a7.view.loc (c : Thread nD τ) ↦[a7.view.set]{fullShare} a7.view.writes (Elt F) f L.2.2)) -∗ K ⟨⟩))
          ⊢ wp frame (wpE (defs₀ (F := F)) Variants.none c none) E (cc0__sum_kernel i a1 h1 a2 h2 a3 h3 a4 h4 a5 h5 a6 h6 a7 h7) K } := by
  refine ⟨(?_, ?_, ?_), fun E K => ?run⟩
  case run =>
    simp only [cc0__sum_kernel_eq_skeleton]; unfold cc0__sum_kernel_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, Hk⟩
    obtain rfl := h1.eq_unread hf1; obtain rfl := h2.eq_unread hf2; obtain rfl := h3.eq_unread hf3
    obtain rfl := h6.eq_unread hf6
    sl_exec (disch := first | exact hI | exact hF | exact hT)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; iexact H4
    isplitl [H5]
    · iexists _; iexact H5
    isplitl [H6]
    · iexists _; isplitr; · ipureintro; exact h6.read_unread _
      iexact H6
    iexists _; iexact H7

end Cert.KBProof

end
-- ==== Proof.BSumPieces.lean ====
/-
  What the first kernel's body leaves in each buffer it stores to, in each of its three cases, as the body's named payloads of
  the blocks it loaded: the narrowed scores, the accumulator, the normalisers.
-/
import proofs.«131931_g34385508171941_cont_8to1_b_261_19_alg».proof.Proof.BSumRunA
import proofs.«131931_g34385508171941_cont_8to1_b_261_19_alg».proof.Proof.BSumRunB
import proofs.«131931_g34385508171941_cont_8to1_b_261_19_alg».proof.Proof.BSumRunC
import Idealize.ShloMosaic.Lib.Pipeline.Value

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem zero2' : (![0, 0] : Fin 2 → Nat) = fun _ => 0 := funext fun a => by fin_cases a <;> rfl

/-- The scores' buffer after the first point: the pieces the body stored tile the block. -/
theorem coverA5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) (y : S32x73728.Idx) :
    ∃ pc ∈ (runA c i a1 h1 a2 h2 a3 h3 a4 h4 a5 h5 a6 h6 a7 h7 hI hF hT x1 x2 x3 x4).1.1, y ∈ pc.1.set :=
  View.cover_of_tiledL (runA c i a1 h1 a2 h2 a3 h3 a4 h4 a5 h5 a6 h6 a7 h7 hI hF hT x1 x2 x3 x4).1.1 S32x73728.size (by sl_kernel_rfl) y

/-- The block those pieces leave, read back over arbitrary prior contents. -/
def outA5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) : Vec F S32x73728 .bf16 :=
  VO5.read (Elt F) (VO5.writes (Elt F) VO5.junk (runA c i a1 h1 a2 h2 a3 h3 a4 h4 a5 h5 a6 h6 a7 h7 hI hF hT x1 x2 x3 x4).1.1)

/-- That block is the body's named payload of the blocks it loaded. -/
theorem outA5_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) :
    outA5 c i a1 h1 a2 h2 a3 h3 a4 h4 a5 h5 a6 h6 a7 h7 hI hF hT x1 x2 x3 x4 = k0_pay5 x1 (k0_pay3 x3) x2 := by
  unfold outA5
  rw [View.read_writes_eq_canon _ _ _ (coverA5 c i a1 h1 a2 h2 a3 h3 a4 h4 a5 h5 a6 h6 a7 h7 hI hF hT x1 x2 x3 x4)]
  unfold runA
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The accumulator after the first point: the pieces the body stored tile the block. -/
theorem coverA6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) (y : S32x1.Idx) :
    ∃ pc ∈ (runA c i a1 h1 a2 h2 a3 h3 a4 h4 a5 h5 a6 h6 a7 h7 hI hF hT x1 x2 x3 x4).1.2.1, y ∈ pc.1.set :=
  View.cover_of_tiledL (runA c i a1 h1 a2 h2 a3 h3 a4 h4 a5 h5 a6 h6 a7 h7 hI hF hT x1 x2 x3 x4).1.2.1 S32x1.size (by sl_kernel_rfl) y

/-- The block those pieces leave, read back over arbitrary prior contents. -/
def outA6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) : Vec F S32x1 .f32 :=
  VS6.read (Elt F) (VS6.writes (Elt F) VS6.junk (runA c i a1 h1 a2 h2 a3 h3 a4 h4 a5 h5 a6 h6 a7 h7 hI hF hT x1 x2 x3 x4).1.2.1)

/-- That block is the body's named payload of the blocks it loaded. -/
theorem outA6_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) :
    outA6 c i a1 h1 a2 h2 a3 h3 a4 h4 a5 h5 a6 h6 a7 h7 hI hF hT x1 x2 x3 x4 = k0_pay7 x1 (k0_pay3 x3) x2 (k0_pay2 (F := F)) := by
  unfold outA6
  rw [View.read_writes_eq_canon _ _ _ (coverA6 c i a1 h1 a2 h2 a3 h3 a4 h4 a5 h5 a6 h6 a7 h7 hI hF hT x1 x2 x3 x4)]
  unfold runA
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The scores' buffer after a middle point: the pieces the body stored tile the block. -/
theorem coverB5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) (y : S32x73728.Idx) :
    ∃ pc ∈ (runB c i a1 h1 a2 h2 a3 h3 a4 h4 a5 h5 a6 h6 a7 h7 hI hF hT x1 x2 x3 x4 xo6).1.1, y ∈ pc.1.set :=
  View.cover_of_tiledL (runB c i a1 h1 a2 h2 a3 h3 a4 h4 a5 h5 a6 h6 a7 h7 hI hF hT x1 x2 x3 x4 xo6).1.1 S32x73728.size (by sl_kernel_rfl) y

/-- The block those pieces leave, read back over arbitrary prior contents. -/
def outB5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) : Vec F S32x73728 .bf16 :=
  VO5.read (Elt F) (VO5.writes (Elt F) VO5.junk (runB c i a1 h1 a2 h2 a3 h3 a4 h4 a5 h5 a6 h6 a7 h7 hI hF hT x1 x2 x3 x4 xo6).1.1)

/-- That block is the body's named payload of the blocks it loaded. -/
theorem outB5_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) :
    outB5 c i a1 h1 a2 h2 a3 h3 a4 h4 a5 h5 a6 h6 a7 h7 hI hF hT x1 x2 x3 x4 xo6 = k0_pay5 x1 (k0_pay3 x3) x2 := by
  unfold outB5
  rw [View.read_writes_eq_canon _ _ _ (coverB5 c i a1 h1 a2 h2 a3 h3 a4 h4 a5 h5 a6 h6 a7 h7 hI hF hT x1 x2 x3 x4 xo6)]
  unfold runB
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The accumulator after a middle point: the pieces the body stored tile the block. -/
theorem coverB6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) (y : S32x1.Idx) :
    ∃ pc ∈ (runB c i a1 h1 a2 h2 a3 h3 a4 h4 a5 h5 a6 h6 a7 h7 hI hF hT x1 x2 x3 x4 xo6).1.2.1, y ∈ pc.1.set :=
  View.cover_of_tiledL (runB c i a1 h1 a2 h2 a3 h3 a4 h4 a5 h5 a6 h6 a7 h7 hI hF hT x1 x2 x3 x4 xo6).1.2.1 S32x1.size (by sl_kernel_rfl) y

/-- The block those pieces leave, read back over arbitrary prior contents. -/
def outB6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) : Vec F S32x1 .f32 :=
  VS6.read (Elt F) (VS6.writes (Elt F) VS6.junk (runB c i a1 h1 a2 h2 a3 h3 a4 h4 a5 h5 a6 h6 a7 h7 hI hF hT x1 x2 x3 x4 xo6).1.2.1)

/-- That block is the body's named payload of the blocks it loaded. -/
theorem outB6_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) :
    outB6 c i a1 h1 a2 h2 a3 h3 a4 h4 a5 h5 a6 h6 a7 h7 hI hF hT x1 x2 x3 x4 xo6 = k0_pay7 x1 (k0_pay3 x3) x2 xo6 := by
  unfold outB6
  rw [View.read_writes_eq_canon _ _ _ (coverB6 c i a1 h1 a2 h2 a3 h3 a4 h4 a5 h5 a6 h6 a7 h7 hI hF hT x1 x2 x3 x4 xo6)]
  unfold runB
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The normalisers' buffer after the last point: the pieces the body stored tile the block. -/
theorem coverC4 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) (y : S32x1.Idx) :
    ∃ pc ∈ (runC c i a1 h1 a2 h2 a3 h3 a4 h4 a5 h5 a6 h6 a7 h7 hI hF hT x1 x2 x3 xo6).1.1, y ∈ pc.1.set :=
  View.cover_of_tiledL (runC c i a1 h1 a2 h2 a3 h3 a4 h4 a5 h5 a6 h6 a7 h7 hI hF hT x1 x2 x3 xo6).1.1 S32x1.size (by sl_kernel_rfl) y

/-- The block those pieces leave, read back over arbitrary prior contents. -/
def outC4 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) : Vec F S32x1 .f32 :=
  VO4.read (Elt F) (VO4.writes (Elt F) VO4.junk (runC c i a1 h1 a2 h2 a3 h3 a4 h4 a5 h5 a6 h6 a7 h7 hI hF hT x1 x2 x3 xo6).1.1)

/-- That block is the body's named payload of the blocks it loaded. -/
theorem outC4_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) :
    outC4 c i a1 h1 a2 h2 a3 h3 a4 h4 a5 h5 a6 h6 a7 h7 hI hF hT x1 x2 x3 xo6 = k0_pay1 (BitVec.ofNat 32 (i 0).val) (k0_pay6 x1 (k0_pay3 x3) x2) xo6 := by
  unfold outC4
  rw [View.read_writes_eq_canon _ _ _ (coverC4 c i a1 h1 a2 h2 a3 h3 a4 h4 a5 h5 a6 h6 a7 h7 hI hF hT x1 x2 x3 xo6)]
  unfold runC
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The scores' buffer after the last point: the pieces the body stored tile the block. -/
theorem coverC5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) (y : S32x73728.Idx) :
    ∃ pc ∈ (runC c i a1 h1 a2 h2 a3 h3 a4 h4 a5 h5 a6 h6 a7 h7 hI hF hT x1 x2 x3 xo6).1.2.1, y ∈ pc.1.set :=
  View.cover_of_tiledL (runC c i a1 h1 a2 h2 a3 h3 a4 h4 a5 h5 a6 h6 a7 h7 hI hF hT x1 x2 x3 xo6).1.2.1 S32x73728.size (by sl_kernel_rfl) y

/-- The block those pieces leave, read back over arbitrary prior contents. -/
def outC5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) : Vec F S32x73728 .bf16 :=
  VO5.read (Elt F) (VO5.writes (Elt F) VO5.junk (runC c i a1 h1 a2 h2 a3 h3 a4 h4 a5 h5 a6 h6 a7 h7 hI hF hT x1 x2 x3 xo6).1.2.1)

/-- That block is the body's named payload of the blocks it loaded. -/
theorem outC5_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) :
    outC5 c i a1 h1 a2 h2 a3 h3 a4 h4 a5 h5 a6 h6 a7 h7 hI hF hT x1 x2 x3 xo6 = k0_pay5 x1 (k0_pay3 x3) x2 := by
  unfold outC5
  rw [View.read_writes_eq_canon _ _ _ (coverC5 c i a1 h1 a2 h2 a3 h3 a4 h4 a5 h5 a6 h6 a7 h7 hI hF hT x1 x2 x3 xo6)]
  unfold runC
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

end Cert.KBProof

end
-- ==== Proof.BSum0.lean ====
/-
  The first kernel region's proof data. At grid point t the kernel reads block t (73728 columns) of the logits, the mask and the
  uniform samples, writes the narrowed masked scores of that block, and carries in a scratch column the running row sums of the
  exponentials of the scores; at the last point, whose block overhangs the array's end, the columns past the end are left out of
  the sum and the logarithm of the total is written to the normalisers' column. The blocks are named with the part past the
  array's end filled with zeros; nothing that is written back or kept depends on that part.
-/
import proofs.«131931_g34385508171941_cont_8to1_b_261_19_alg».proof.Proof.BSumPieces
import Idealize.ShloMosaic.Lib.Pipeline.Frame

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The kernel's variants: none. -/
abbrev 𝒱z : Variants := Variants.none

/-! ## The blocks -/

/-- The logits' block at point `t`: its part inside the array, -/
def ib0 (c : Dev nD) (t : Fin cfg0.N) : (win0_0.xblock (grid0.coords t)).Idx → Elt F .f32 :=
  (win0_0.blk t).view.read (Elt F) (V c main_arg0)
/-- the mask's, -/
def ib1 (c : Dev nD) (t : Fin cfg0.N) : (win0_1.xblock (grid0.coords t)).Idx → Elt F .f32 :=
  (win0_1.blk t).view.read (Elt F) (V c main_arg1)
/-- the uniform samples'. -/
def ib2 (c : Dev nD) (t : Fin cfg0.N) : (win0_2.xblock (grid0.coords t)).Idx → Elt F .f32 :=
  (win0_2.blk t).view.read (Elt F) (V c main_call0_v0)

/-- The same three filled out to whole blocks with zeros. -/
def bl0 (c : Dev nD) (t : Fin cfg0.N) : Vec F S32x73728 .f32 :=
  win0_0.fill (grid0.coords t) (fun _ => Scalar.ofBits .f32 0#32) (ib0 V c t)
def bl1 (c : Dev nD) (t : Fin cfg0.N) : Vec F S32x73728 .f32 :=
  win0_1.fill (grid0.coords t) (fun _ => Scalar.ofBits .f32 0#32) (ib1 V c t)
def bl2 (c : Dev nD) (t : Fin cfg0.N) : Vec F S1x73728 .f32 :=
  win0_2.fill (grid0.coords t) (fun _ => Scalar.ofBits .f32 0#32) (ib2 V c t)

/-- The narrowed masked scores of block `t`. -/
def sc (c : Dev nD) (t : Fin cfg0.N) : Vec F S32x73728 .bf16 := k0_pay5 (bl0 V c t) (k0_pay3 (bl2 V c t)) (bl1 V c t)

/-- The running row sums after point `n`: reset and added to at the first point, added to at each later one. -/
def accAt (c : Dev nD) : ℕ → Vec F S32x1 .f32
  | 0 => k0_pay7 (bl0 V c t0_0) (k0_pay3 (bl2 V c t0_0)) (bl1 V c t0_0) (k0_pay2 (F := F))
  | n + 1 => if h : n + 1 < cfg0.N then k0_pay7 (bl0 V c ⟨n + 1, h⟩) (k0_pay3 (bl2 V c ⟨n + 1, h⟩)) (bl1 V c ⟨n + 1, h⟩) (accAt c n) else accAt c n

/-- The normalisers: the logarithm of the running sums after point 12 plus the last block's row sums over the columns inside the array. -/
def lse (c : Dev nD) : Vec F S32x1 .f32 :=
  k0_pay1 13#32 (k0_pay6 (bl0 V c t0_13) (k0_pay3 (bl2 V c t0_13)) (bl1 V c t0_13)) (accAt V c 12)

/-! ## The proof data -/

/-- The scratch accumulator holds the running sums of the points before (anything before the first point and after the last); the scratch row and the
    other region's staging buffers hold anything. -/
def Phi0 (c : Dev nD) (t : Fin (cfg0.N + 1)) : sProp 𝕄 :=
  iprop((∃ f : Buf (Elt F) ((c : Thread nD τ).loc cc0_scratch0), ⌜t.val = 0 ∨ t.val = 14 ∨ f = accAt V c (t.val - 1)⌝ ∗ (((c : Thread nD τ).loc cc0_scratch0) ↦{fullShare} f))
    ∗ (∃ f : Buf (Elt F) ((c : Thread nD τ).loc cc0_scratch1), ((c : Thread nD τ).loc cc0_scratch1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The first region's proof data on core `c`: the arrays as the region finds them; after the body the inputs' buffers at their
    blocks, the normalisers' at `lse`, the scores' at `sc`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => bl0 V c t
    | ⟨1, _⟩ => bl1 V c t
    | ⟨2, _⟩ => bl2 V c t
    | ⟨3, _⟩ => lse V c
    | ⟨4, _⟩ => sc V c t
  Φ t := Phi0 V c t
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = bl0 V c t := by dsimp only [dat0]
theorem after0_1 (c : Dev nD) (t : Fin cfg0.N) : (dat0 V c).after 1 t = bl1 V c t := by dsimp only [dat0]
theorem after0_2 (c : Dev nD) (t : Fin cfg0.N) : (dat0 V c).after 2 t = bl2 V c t := by dsimp only [dat0]
theorem after0_3 (c : Dev nD) (t : Fin cfg0.N) : (dat0 V c).after 3 t = lse V c := by dsimp only [dat0]
theorem after0_4 (c : Dev nD) (t : Fin cfg0.N) : (dat0 V c).after 4 t = sc V c t := by dsimp only [dat0]

/-! ## The schedule's facts, decided over the grid -/

/-- Before the last point no block overhangs the array: the transfers move whole blocks. -/
theorem noclip0 : ∀ t : Fin cfg0.N, t.val < 13 → ∀ a, (cfg0.win 0).clip (cfg0.grid.coords t) a = none :=
  (by decide +kernel : ∀ t : Fin grid0.N, t.val < 13 → ∀ a, win0_0.clip (grid0.coords t) a = none)
theorem noclip1 : ∀ t : Fin cfg0.N, t.val < 13 → ∀ a, (cfg0.win 1).clip (cfg0.grid.coords t) a = none :=
  (by decide +kernel : ∀ t : Fin grid0.N, t.val < 13 → ∀ a, win0_1.clip (grid0.coords t) a = none)
theorem noclip2 : ∀ t : Fin cfg0.N, t.val < 13 → ∀ a, (cfg0.win 2).clip (cfg0.grid.coords t) a = none :=
  (by decide +kernel : ∀ t : Fin grid0.N, t.val < 13 → ∀ a, win0_2.clip (grid0.coords t) a = none)
/-- A window's cuts are a function of its block index. -/
theorem clipfun0 : ∀ t t' : Fin cfg0.N, (cfg0.win 0).index t = (cfg0.win 0).index t' → (cfg0.win 0).clip (cfg0.grid.coords t) = (cfg0.win 0).clip (cfg0.grid.coords t') :=
  (by decide +kernel : ∀ t t' : Fin grid0.N, win0_0.index t = win0_0.index t' → win0_0.clip (grid0.coords t) = win0_0.clip (grid0.coords t'))
theorem clipfun1 : ∀ t t' : Fin cfg0.N, (cfg0.win 1).index t = (cfg0.win 1).index t' → (cfg0.win 1).clip (cfg0.grid.coords t) = (cfg0.win 1).clip (cfg0.grid.coords t') :=
  (by decide +kernel : ∀ t t' : Fin grid0.N, win0_1.index t = win0_1.index t' → win0_1.clip (grid0.coords t) = win0_1.clip (grid0.coords t'))
theorem clipfun2 : ∀ t t' : Fin cfg0.N, (cfg0.win 2).index t = (cfg0.win 2).index t' → (cfg0.win 2).clip (cfg0.grid.coords t) = (cfg0.win 2).clip (cfg0.grid.coords t') :=
  (by decide +kernel : ∀ t t' : Fin grid0.N, win0_2.index t = win0_2.index t' → win0_2.clip (grid0.coords t) = win0_2.clip (grid0.coords t'))
/-- The normalisers' window is idle at every point but the last. -/
theorem idle3 : ∀ t : Fin cfg0.N, cfg0.idle 3 (cfg0.grid.coords t) = decide (t.val ≠ 13) :=
  (by decide +kernel : ∀ t : Fin grid0.N, idle0 3 (grid0.coords t) = decide (t.val ≠ 13))

/-! ## What the body finds -/

/-- Each input's buffer holds its block, filled out past the array's end with what the buffer held. -/
theorem before0_0 (c : Dev nD) (t : Fin cfg0.N) (d) : (dat0 V c).before 0 t d = win0_0.fill (grid0.coords t) d (ib0 V c t) :=
  ((dat0 V c).before_in_eq_fetched 0 rfl (fun _ => rfl) clipfun0 (fun t => by rw [after0_0]; exact win0_0.cut_fill _ _ _) t d).trans
    (by unfold Dat.fetched Dat.blockOf ib0; dsimp only [dat0])
theorem before0_1 (c : Dev nD) (t : Fin cfg0.N) (d) : (dat0 V c).before 1 t d = win0_1.fill (grid0.coords t) d (ib1 V c t) :=
  ((dat0 V c).before_in_eq_fetched 1 rfl (fun _ => rfl) clipfun1 (fun t => by rw [after0_1]; exact win0_1.cut_fill _ _ _) t d).trans
    (by unfold Dat.fetched Dat.blockOf ib1; dsimp only [dat0])
theorem before0_2 (c : Dev nD) (t : Fin cfg0.N) (d) : (dat0 V c).before 2 t d = win0_2.fill (grid0.coords t) d (ib2 V c t) :=
  ((dat0 V c).before_in_eq_fetched 2 rfl (fun _ => rfl) clipfun2 (fun t => by rw [after0_2]; exact win0_2.cut_fill _ _ _) t d).trans
    (by unfold Dat.fetched Dat.blockOf ib2; dsimp only [dat0])

/-- Before the last point that is the whole block. -/
theorem before0_0_lt (c : Dev nD) (t : Fin cfg0.N) (ht : t.val < 13) (d) : (dat0 V c).before 0 t d = bl0 V c t := by
  rw [before0_0]; exact Pipeline.fill_of_clip_none (cfg := cfg0) 0 _ (noclip0 t ht) _ _ _
theorem before0_1_lt (c : Dev nD) (t : Fin cfg0.N) (ht : t.val < 13) (d) : (dat0 V c).before 1 t d = bl1 V c t := by
  rw [before0_1]; exact Pipeline.fill_of_clip_none (cfg := cfg0) 1 _ (noclip1 t ht) _ _ _
theorem before0_2_lt (c : Dev nD) (t : Fin cfg0.N) (ht : t.val < 13) (d) : (dat0 V c).before 2 t d = bl2 V c t := by
  rw [before0_2]; exact Pipeline.fill_of_clip_none (cfg := cfg0) 2 _ (noclip2 t ht) _ _ _

/-- The scores' buffer, written back at every point, holds anything. -/
theorem before0_4 (c : Dev nD) (t : Fin cfg0.N) (d) : (dat0 V c).before 4 t d = d :=
  (dat0 V c).before_out_reset 4 rfl t (by
    by_cases h : t.val = 0
    · exact .inl h
    · exact .inr ⟨h, flush0_4 _⟩) d

/-- The normalisers' buffer, stored to at the last point only and written back there only, holds anything. -/
theorem before0_3 (c : Dev nD) : ∀ (n : ℕ) (hn : n < cfg0.N) (d), (dat0 V c).before 3 ⟨n, hn⟩ d = d
  | 0, hn, d => (dat0 V c).before_out_reset 3 rfl ⟨0, hn⟩ (.inl rfl) d
  | n + 1, hn, d => by
    have hN : n + 1 < 14 := lt_of_lt_of_eq hn N_0
    rw [(dat0 V c).before_of_pos 3 ⟨n + 1, hn⟩ (Nat.succ_ne_zero n) ((cfg0.win 3).fetch_out rfl _)]
    have hfl : (cfg0.win 3).flush ⟨n + 1 - 1, Nat.lt_of_le_of_lt (Nat.sub_le _ _) hn⟩ = false := by
      rw [Bool.eq_false_iff]; intro h; have := (flush0_3 _).mp h; dsimp only at this; omega
    rw [hfl, if_neg Bool.false_ne_true]
    unfold Dat.left
    have hid : cfg0.idle 3 (cfg0.grid.coords ⟨n + 1 - 1, Nat.lt_of_le_of_lt (Nat.sub_le _ _) hn⟩) = true := by
      rw [idle3]; exact decide_eq_true (by dsimp only; omega)
    rw [hid]
    exact before0_3 c (n + 1 - 1) _ d

end Cert.KBProof

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.BKPay.lean ====
/-
  The kernel's payloads read at an index, at the ideal float values: each pure value the two kernel functions
  store, as a formula of the values they loaded, entry by entry.

  First kernel (one step of the grid handles a block of 73728 columns of the 32 rows):
  • the Gumbel row `-log (-log (u + ε) + ε)` of the block's uniform samples (the kernel writes `-x` as `0 - x`);
  • the masked, perturbed logits `x + g + log (mask + ε')` of the block, their bf16 copy (a change of format is the
    identity on the extended reals) and their exponentials;
  • the running row sums: the accumulator column plus the sum of the block's exponentials along each row;
  • at the last step (block 13, whose columns from `1000000 - 13 · 73728` on lie beyond the array's end): the
    logarithm of the accumulator plus the sum of the block's exponentials over the columns INSIDE the array — the
    kernel selects by comparing the column's number `13 · 73728 + q` with `1000000` as signed 32-bit words, and for
    two words below `2^31` the signed comparison is the comparison of the numbers.
  Second kernel: each entry of the stored block minus its row's entry of the column.

  Also here, for every float instance: the stored bf16 block and the second kernel's block at an index depend only
  on the loaded blocks AT THAT INDEX (and on the row and column vectors), the congruences a reading of blocks that
  overhang the array's end needs.
-/
import proofs.«131931_g34385508171941_cont_8to1_b_261_19_alg».proof.Proof.Gen.Kernel.Skeleton
import proofs.«131931_g34385508171941_cont_8to1_b_261_19_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KBPay

open Cert.Kernel Cert.Kernel.Gen Idealize.ShloMosaic Idealize.ShloMosaic.ValueIdx
open scoped BigOperators

/-! ## The first kernel's elementwise payloads -/

/-- The Gumbel row at column `q` of the block: `-log (-log (u + ε) + ε)` with `ε` the f32 pattern `0x1E3CE508`. -/
theorem pay3_apply (v3 : Vec Ideal S1x73728 .f32) (q : Fin 73728) :
    k0_pay3 (F := Ideal) v3 (ix2 0 q)
      = -Ideal.log (-Ideal.log (v3 (ix2 0 q) + Ideal.ofBits .f32 0x1E3CE508#32) + Ideal.ofBits .f32 0x1E3CE508#32) := by
  unfold k0_pay3
  simp only [shapeCast_self]
  show Ideal.ofBits .f32 0x00000000#32 - Ideal.log (Ideal.ofBits .f32 0x00000000#32
      - Ideal.log (v3 (ix2 0 q) + Ideal.ofBits .f32 0x1E3CE508#32) + Ideal.ofBits .f32 0x1E3CE508#32) = _
  rw [Ideal.ofBits_zero_f32, zero_sub, zero_sub]

/-- The masked, perturbed logit at (r, q) of the block: the logit plus the Gumbel row's entry plus the logarithm
    of the mask entry shifted by the f32 pattern `0x00000001`. -/
theorem pay4_apply (v18 v22 : Vec Ideal S32x73728 .f32) (v19 : Vec Ideal S1x73728 .f32) (r : Fin 32) (q : Fin 73728) :
    k0_pay4 (F := Ideal) v18 v19 v22 (ix2 r q)
      = v18 (ix2 r q) + v19 (ix2 0 q) + Ideal.log (v22 (ix2 r q) + Ideal.ofBits .f32 0x00000001#32) := by
  unfold k0_pay4
  show v18 (ix2 r q) + broadcastTo S32x73728 v19 broadcasts_S1x73728_S32x73728 (ix2 r q)
      + Ideal.log (v22 (ix2 r q) + Ideal.ofBits .f32 0x00000001#32) = _
  rw [broadcastTo_1b_ab_apply]

/-- The stored bf16 copy is the f32 value: a change of format is the identity on the extended reals. -/
theorem pay5_apply (v18 v22 : Vec Ideal S32x73728 .f32) (v19 : Vec Ideal S1x73728 .f32) (r : Fin 32) (q : Fin 73728) :
    k0_pay5 (F := Ideal) v18 v19 v22 (ix2 r q) = k0_pay4 (F := Ideal) v18 v19 v22 (ix2 r q) := rfl

/-- The exponentials of the block. -/
theorem pay6_apply (v18 v22 : Vec Ideal S32x73728 .f32) (v19 : Vec Ideal S1x73728 .f32) (r : Fin 32) (q : Fin 73728) :
    k0_pay6 (F := Ideal) v18 v19 v22 (ix2 r q) = Ideal.exp (k0_pay4 (F := Ideal) v18 v19 v22 (ix2 r q)) := rfl

/-- The running row sum at row `r`: the accumulator's entry plus the sum of the block's exponentials along the row. -/
theorem pay7_apply (v18 v22 : Vec Ideal S32x73728 .f32) (v19 : Vec Ideal S1x73728 .f32) (v36 : Vec Ideal S32x1 .f32)
    (r : Fin 32) :
    k0_pay7 (F := Ideal) v18 v19 v22 v36 (ix2 r 0)
      = v36 (ix2 r 0) + ∑ q : Fin 73728, Ideal.exp (k0_pay4 (F := Ideal) v18 v19 v22 (ix2 r q)) := by
  unfold k0_pay7
  simp only [shapeCast_self]
  show v36 (ix2 r 0) + shapeCast S32x1 (multiReduction (F := Ideal) .add [1] S32 (k0_pay6 (F := Ideal) v18 v19 v22)
      0x00000000#32 reduces_S32x73728_S32 (.inl rfl) rfl) shapeCasts_S32_S32x1 (ix2 r 0) = _
  rw [Cert.Attn.Layout.shapeCast_a_a1_apply]
  exact congrArg (v36 (ix2 r 0) + ·)
    (Cert.Attn.Layout.rowSum_apply (k0_pay6 (F := Ideal) v18 v19 v22) reduces_S32x73728_S32 (.inl rfl) rfl r)

/-! ## The last step: the columns inside the array -/

/-- For two naturals below `2^31` the signed comparison of their 32-bit words is the comparison of the numbers:
    both words have a clear sign bit, so each is its own signed value. -/
theorem slt_small (a b : ℕ) (ha : a < 2147483648) (hb : b < 2147483648) :
    (BitVec.ofNat 32 a).slt (BitVec.ofNat 32 b) = decide (a < b) := by
  unfold BitVec.slt
  rw [decide_eq_decide, BitVec.toInt_eq_toNat_cond, BitVec.toInt_eq_toNat_cond, BitVec.toNat_ofNat, BitVec.toNat_ofNat]
  have h1 : a % 2 ^ 32 = a := Nat.mod_eq_of_lt (by omega)
  have h2 : b % 2 ^ 32 = b := Nat.mod_eq_of_lt (by omega)
  rw [h1, h2]
  split_ifs <;> omega

/-- The last block's exponentials with the columns beyond the array's end replaced by zero: the select on
    "column number `13 · 73728 + q` is below `1000000`", as the kernel computes it. -/
def sel13 (v29 : FVec Ideal S32x73728 .f32) : FVec Ideal S32x73728 .f32 :=
  select (cmpi .slt (addi (broadcast S32x73728 (Scalar.muli 13#32 73728#32))
      (iota .tc S32x73728 32 [1] iota_S32x73728_d1_w32)) (broadcast S32x73728 1000000#32))
    v29 (broadcast S32x73728 (Scalar.ofBits (F := Ideal) .f32 0x00000000#32))

/-- That select at (r, q): the exponential when column `958464 + q` is inside the array, zero beyond. -/
theorem sel13_apply (v29 : FVec Ideal S32x73728 .f32) (r : Fin 32) (q : Fin 73728) :
    sel13 v29 (ix2 r q) = if 958464 + q.val < 1000000 then v29 (ix2 r q) else 0 := by
  have hio : iota .tc S32x73728 32 [1] iota_S32x73728_d1_w32 (ix2 r q) = BitVec.ofNat 32 q.val :=
    iota_single_apply .tc S32x73728 32 1 iota_S32x73728_d1_w32 (ix2 r q)
  have hw : IntOp.addi (Scalar.muli 13#32 73728#32) (BitVec.ofNat 32 q.val) = BitVec.ofNat 32 (958464 + q.val) := by
    show (13#32 * 73728#32 : BitVec 32) + BitVec.ofNat 32 q.val = _
    rw [show (13#32 * 73728#32 : BitVec 32) = BitVec.ofNat 32 958464 by decide, BitVec.ofNat_add]
  have hq : q.val < 73728 := q.isLt
  show Scalar.select (IntOp.cmpi .slt (IntOp.addi (Scalar.muli 13#32 73728#32)
      (iota .tc S32x73728 32 [1] iota_S32x73728_d1_w32 (ix2 r q))) 1000000#32) (v29 (ix2 r q))
      (Ideal.ofBits .f32 0x00000000#32) = _
  rw [hio, hw, Ideal.ofBits_zero_f32]
  show (if BitVec.ofBool ((BitVec.ofNat 32 (958464 + q.val)).slt (BitVec.ofNat 32 1000000)) = 1 then v29 (ix2 r q) else 0) = _
  rw [slt_small _ _ (by omega) (by norm_num)]
  by_cases h : 958464 + q.val < 1000000
  · rw [if_pos h, decide_eq_true h, if_pos (by decide : BitVec.ofBool true = 1)]
  · rw [if_neg h, decide_eq_false h, if_neg (by decide : ¬ BitVec.ofBool false = 1)]

/-- **The last step's row statistic at row `r`**: the logarithm of the accumulator's entry plus the sum, along the
    row, of the block's exponentials over the columns inside the array. -/
theorem pay1_apply (v29 : FVec Ideal S32x73728 .f32) (v44 : Vec Ideal S32x1 .f32) (r : Fin 32) :
    k0_pay1 (F := Ideal) (13#32) v29 v44 (ix2 r 0)
      = Ideal.log (v44 (ix2 r 0) + ∑ q : Fin 73728, if 958464 + q.val < 1000000 then v29 (ix2 r q) else 0) := by
  unfold k0_pay1
  show Ideal.log (v44 (ix2 r 0) + shapeCast S32x1 (multiReduction (F := Ideal) .add [1] S32 (sel13 v29)
      0x00000000#32 reduces_S32x73728_S32 (.inl rfl) rfl) shapeCasts_S32_S32x1 (ix2 r 0)) = _
  rw [Cert.Attn.Layout.shapeCast_a_a1_apply,
    Cert.Attn.Layout.rowSum_apply (sel13 v29) reduces_S32x73728_S32 (.inl rfl) rfl r]
  exact congrArg (fun s => Ideal.log (v44 (ix2 r 0) + s)) (Finset.sum_congr rfl fun q _ => sel13_apply v29 r q)

/-! ## The second kernel -/

/-- The second kernel's block at (r, q): the stored entry minus the row's entry of the column. -/
theorem pay_out_apply (X0 : Vec Ideal S32x131072 .bf16) (X1 : Vec Ideal S32x1 .f32) (r : Fin 32) (q : Fin 131072) :
    k1_pay1 (F := Ideal) X0 X1 (ix2 r q) = X0 (ix2 r q) - X1 (ix2 r 0) := by
  unfold k1_pay1
  simp only [shapeCast_self]
  show X0 (ix2 r q) - broadcastTo S32x131072 X1 broadcasts_S32x1_S32x131072 (ix2 r q) = _
  rw [Cert.Attn.Layout.broadcastTo_a1_ab_apply]

/-! ## The payloads at an index depend on the loaded blocks at that index only -/

section Generic
variable {F : FTy → Type} [FloatOps F]

/-- For every float instance: the masked logits at `j` depend on the two loaded blocks only through their
    entries at `j`. -/
theorem k0_pay4_congr (v18 v18' v22 v22' : Vec F S32x73728 .f32) (v19 : Vec F S1x73728 .f32) (j : S32x73728.Idx)
    (h18 : v18 j = v18' j) (h22 : v22 j = v22' j) : k0_pay4 v18 v19 v22 j = k0_pay4 v18' v19 v22' j := by
  unfold k0_pay4
  simp only [addf, Idealize.ShloMosaic.log]
  rw [h18, h22]

/-- For every float instance: the stored bf16 block at `j` depends on the two loaded blocks only through their
    entries at `j`. -/
theorem k0_pay5_congr (v18 v18' v22 v22' : Vec F S32x73728 .f32) (v19 : Vec F S1x73728 .f32) (j : S32x73728.Idx)
    (h18 : v18 j = v18' j) (h22 : v22 j = v22' j) : k0_pay5 v18 v19 v22 j = k0_pay5 v18' v19 v22' j := by
  unfold k0_pay5
  simp only [truncf]
  rw [k0_pay4_congr v18 v18' v22 v22' v19 j h18 h22]

/-- For every float instance: the second kernel's block at `j` depends on the loaded block only through its
    entry at `j`. -/
theorem k1_pay1_congr (X0 X0' : Vec F S32x131072 .bf16) (X1 : Vec F S32x1 .f32) (j : S32x131072.Idx)
    (h0 : X0 j = X0' j) : k1_pay1 X0 X1 j = k1_pay1 X0' X1 j := by
  unfold k1_pay1
  simp only [shapeCast_self, subf, extf]
  rw [h0]

end Generic

end Cert.KBPay
-- ==== Proof.BKCongr.lean ====
/-
  What the first kernel writes back depends on the loaded blocks only where it should.

  The last step of the grid handles block 13 of 73728 columns, and the array has 1000000 columns, so the block's
  columns q with 13 · 73728 + q ≥ 1000000 (that is q ≥ 41536) lie beyond the array's end: whatever the loaded blocks
  hold there is arbitrary. This file shows, for EVERY float instance, that
  • each elementwise payload (the Gumbel row, the masked perturbed logits, their bf16 copy, their exponentials) at an
    index depends on the loaded blocks only through their entries at that index (and, for the row vector that is
    broadcast over the 32 rows, through its entry at that column);
  • the last step's row statistic — the logarithm of the accumulator plus the row sums of the block's exponentials
    with the columns beyond the end replaced by zero — depends on the exponentials only through the columns inside the
    array: the select's condition "13 · 73728 + q < 1000000" is a vector of integer words, the same for every float
    instance, and where it is false the select takes the constant zero whatever the block holds.
-/
import proofs.«131931_g34385508171941_cont_8to1_b_261_19_alg».proof.Proof.BKPay

noncomputable section

namespace Cert.KBCongr

open Cert.Kernel Cert.Kernel.Gen Idealize.ShloMosaic Idealize.ShloMosaic.ValueIdx

variable {F : FTy → Type} [FloatOps F]

/-! ## The elementwise payloads at an index -/

/-- The Gumbel row at `j` depends on the loaded row of uniform samples only through its entry at `j`: every
    operation in `-log (-log (u + ε) + ε)` is pointwise. -/
theorem pay3_congr (v3 v3' : Vec F S1x73728 .f32) (j : S1x73728.Idx) (h : v3 j = v3' j) :
    k0_pay3 v3 j = k0_pay3 v3' j := by
  unfold k0_pay3
  simp only [shapeCast_self, addf, subf, Idealize.ShloMosaic.log]
  rw [h]

/-- The masked, perturbed logit at (r, q) depends on the two loaded blocks only through their entries at (r, q) and on
    the row vector only through its entry at column q: the broadcast of the one row over the 32 rows reads (0, q). -/
theorem pay4_congr_ix (v18 v18' v22 v22' : Vec F S32x73728 .f32) (v19 v19' : Vec F S1x73728 .f32)
    (r : Fin 32) (q : Fin 73728)
    (h18 : v18 (ix2 r q) = v18' (ix2 r q)) (h22 : v22 (ix2 r q) = v22' (ix2 r q))
    (h19 : v19 (ix2 0 q) = v19' (ix2 0 q)) :
    k0_pay4 v18 v19 v22 (ix2 r q) = k0_pay4 v18' v19' v22' (ix2 r q) := by
  unfold k0_pay4
  simp only [addf, Idealize.ShloMosaic.log]
  rw [broadcastTo_1b_ab_apply, broadcastTo_1b_ab_apply, h18, h22, h19]

/-- The same at an arbitrary index `j`, whose column is `j 1`. -/
theorem pay4_congr (v18 v18' v22 v22' : Vec F S32x73728 .f32) (v19 v19' : Vec F S1x73728 .f32) (j : S32x73728.Idx)
    (h18 : v18 j = v18' j) (h22 : v22 j = v22' j) (h19 : v19 (ix2 0 (j 1)) = v19' (ix2 0 (j 1))) :
    k0_pay4 v18 v19 v22 j = k0_pay4 v18' v19' v22' j := by
  obtain ⟨r, q, rfl⟩ : ∃ (r : Fin 32) (q : Fin 73728), j = ix2 r q := ⟨j 0, j 1, eq_ix2 j⟩
  exact pay4_congr_ix v18 v18' v22 v22' v19 v19' r q h18 h22 h19

/-- The stored bf16 copy at (r, q): the change of format is pointwise. -/
theorem pay5_congr_ix (v18 v18' v22 v22' : Vec F S32x73728 .f32) (v19 v19' : Vec F S1x73728 .f32)
    (r : Fin 32) (q : Fin 73728)
    (h18 : v18 (ix2 r q) = v18' (ix2 r q)) (h22 : v22 (ix2 r q) = v22' (ix2 r q))
    (h19 : v19 (ix2 0 q) = v19' (ix2 0 q)) :
    k0_pay5 v18 v19 v22 (ix2 r q) = k0_pay5 v18' v19' v22' (ix2 r q) := by
  unfold k0_pay5
  simp only [truncf]
  rw [pay4_congr_ix v18 v18' v22 v22' v19 v19' r q h18 h22 h19]

/-- The stored bf16 copy at an arbitrary index. -/
theorem pay5_congr (v18 v18' v22 v22' : Vec F S32x73728 .f32) (v19 v19' : Vec F S1x73728 .f32) (j : S32x73728.Idx)
    (h18 : v18 j = v18' j) (h22 : v22 j = v22' j) (h19 : v19 (ix2 0 (j 1)) = v19' (ix2 0 (j 1))) :
    k0_pay5 v18 v19 v22 j = k0_pay5 v18' v19' v22' j := by
  obtain ⟨r, q, rfl⟩ : ∃ (r : Fin 32) (q : Fin 73728), j = ix2 r q := ⟨j 0, j 1, eq_ix2 j⟩
  exact pay5_congr_ix v18 v18' v22 v22' v19 v19' r q h18 h22 h19

/-- The exponentials at (r, q): the exponential is pointwise. -/
theorem pay6_congr_ix (v18 v18' v22 v22' : Vec F S32x73728 .f32) (v19 v19' : Vec F S1x73728 .f32)
    (r : Fin 32) (q : Fin 73728)
    (h18 : v18 (ix2 r q) = v18' (ix2 r q)) (h22 : v22 (ix2 r q) = v22' (ix2 r q))
    (h19 : v19 (ix2 0 q) = v19' (ix2 0 q)) :
    k0_pay6 v18 v19 v22 (ix2 r q) = k0_pay6 v18' v19' v22' (ix2 r q) := by
  unfold k0_pay6
  simp only [Idealize.ShloMosaic.exp]
  rw [pay4_congr_ix v18 v18' v22 v22' v19 v19' r q h18 h22 h19]

/-- The exponentials at an arbitrary index. -/
theorem pay6_congr (v18 v18' v22 v22' : Vec F S32x73728 .f32) (v19 v19' : Vec F S1x73728 .f32) (j : S32x73728.Idx)
    (h18 : v18 j = v18' j) (h22 : v22 j = v22' j) (h19 : v19 (ix2 0 (j 1)) = v19' (ix2 0 (j 1))) :
    k0_pay6 v18 v19 v22 j = k0_pay6 v18' v19' v22' j := by
  obtain ⟨r, q, rfl⟩ : ∃ (r : Fin 32) (q : Fin 73728), j = ix2 r q := ⟨j 0, j 1, eq_ix2 j⟩
  exact pay6_congr_ix v18 v18' v22 v22' v19 v19' r q h18 h22 h19

/-- **The stored bf16 block at (r, q)**, with the Gumbel row computed from the loaded row of uniform samples: it
    depends on the three loaded blocks only through the two entries at (r, q) and the sample at column q. -/
theorem sc_congr (x1 x1' x2 x2' : Vec F S32x73728 .f32) (x3 x3' : Vec F S1x73728 .f32) (r : Fin 32) (q : Fin 73728)
    (h1 : x1 (ix2 r q) = x1' (ix2 r q)) (h2 : x2 (ix2 r q) = x2' (ix2 r q)) (h3 : x3 (ix2 0 q) = x3' (ix2 0 q)) :
    k0_pay5 x1 (k0_pay3 x3) x2 (ix2 r q) = k0_pay5 x1' (k0_pay3 x3') x2' (ix2 r q) :=
  pay5_congr_ix x1 x1' x2 x2' (k0_pay3 x3) (k0_pay3 x3') r q h1 h2 (pay3_congr x3 x3' (ix2 0 q) h3)

/-! ## The last step: only the columns inside the array count -/

/-- The last step's column mask, a vector of one-bit words (no float in it): "column number `13 · 73728 + q` is
    below `1000000`", compared as signed 32-bit words, as the kernel computes it. -/
def mask13 : IVec S32x73728 1 :=
  cmpi .slt (addi (broadcast S32x73728 (Scalar.muli 13#32 73728#32))
      (iota .tc S32x73728 32 [1] iota_S32x73728_d1_w32)) (broadcast S32x73728 1000000#32)

/-- The mask at (r, q) is the bit of `958464 + q < 1000000`: `13 · 73728 = 958464` as words, the sum with `q < 73728`
    does not wrap, and both sides of the signed comparison are below `2^31`. -/
theorem mask13_apply (r : Fin 32) (q : Fin 73728) :
    mask13 (ix2 r q) = BitVec.ofBool (decide (958464 + q.val < 1000000)) := by
  have hio : iota .tc S32x73728 32 [1] iota_S32x73728_d1_w32 (ix2 r q) = BitVec.ofNat 32 q.val :=
    iota_single_apply .tc S32x73728 32 1 iota_S32x73728_d1_w32 (ix2 r q)
  have hw : IntOp.addi (Scalar.muli 13#32 73728#32) (BitVec.ofNat 32 q.val) = BitVec.ofNat 32 (958464 + q.val) := by
    show (13#32 * 73728#32 : BitVec 32) + BitVec.ofNat 32 q.val = _
    rw [show (13#32 * 73728#32 : BitVec 32) = BitVec.ofNat 32 958464 by decide, BitVec.ofNat_add]
  have hq : q.val < 73728 := q.isLt
  show IntOp.cmpi .slt (IntOp.addi (Scalar.muli 13#32 73728#32)
      (iota .tc S32x73728 32 [1] iota_S32x73728_d1_w32 (ix2 r q))) 1000000#32 = _
  rw [hio, hw]
  show BitVec.ofBool ((BitVec.ofNat 32 (958464 + q.val)).slt (BitVec.ofNat 32 1000000)) = _
  rw [Cert.KBPay.slt_small _ _ (by omega) (by norm_num)]

/-- The masked block — the block where the column is inside the array, the constant `z` beyond — depends on the
    block only through the columns inside the array. -/
theorem select_mask13_congr {α : Type} (v v' : S32x73728.Idx → α) (z : S32x73728.Idx → α)
    (h : ∀ (r : Fin 32) (q : Fin 73728), 958464 + q.val < 1000000 → v (ix2 r q) = v' (ix2 r q)) :
    select mask13 v z = select mask13 v' z := by
  funext j
  obtain ⟨r, q, rfl⟩ : ∃ (r : Fin 32) (q : Fin 73728), j = ix2 r q := ⟨j 0, j 1, eq_ix2 j⟩
  show Scalar.select (mask13 (ix2 r q)) (v (ix2 r q)) (z (ix2 r q))
      = Scalar.select (mask13 (ix2 r q)) (v' (ix2 r q)) (z (ix2 r q))
  rw [mask13_apply]
  by_cases hq : 958464 + q.val < 1000000
  · rw [h r q hq]
  · rw [decide_eq_false hq]
    show Scalar.select 0#1 _ _ = Scalar.select 0#1 _ _
    rw [select_zero, select_zero]

/-- **The last step's row statistic depends on the exponentials only through the columns inside the array.** -/
theorem pay1_congr (v29 v29' : FVec F S32x73728 .f32) (v44 : Vec F S32x1 .f32)
    (h : ∀ (r : Fin 32) (q : Fin 73728), 958464 + q.val < 1000000 → v29 (ix2 r q) = v29' (ix2 r q)) :
    k0_pay1 (13#32) v29 v44 = k0_pay1 (13#32) v29' v44 := by
  have hsel := select_mask13_congr v29 v29'
    (broadcast S32x73728 (Scalar.ofBits (F := F) .f32 0x00000000#32)) h
  unfold k0_pay1
  show Idealize.ShloMosaic.log (addf v44 (shapeCast S32x1 (multiReduction (F := F) .add [1] S32
        (select mask13 v29 (broadcast S32x73728 (Scalar.ofBits (F := F) .f32 0x00000000#32)))
        0x00000000#32 reduces_S32x73728_S32 (.inl rfl) rfl) shapeCasts_S32_S32x1))
      = Idealize.ShloMosaic.log (addf v44 (shapeCast S32x1 (multiReduction (F := F) .add [1] S32
        (select mask13 v29' (broadcast S32x73728 (Scalar.ofBits (F := F) .f32 0x00000000#32)))
        0x00000000#32 reduces_S32x73728_S32 (.inl rfl) rfl) shapeCasts_S32_S32x1))
  rw [hsel]

/-- **The last step's row statistic from the loaded blocks**: with the exponentials computed from the three loaded
    blocks, it depends on them only through the columns inside the array. -/
theorem lse_congr (x1 x1' x2 x2' : Vec F S32x73728 .f32) (x3 x3' : Vec F S1x73728 .f32) (acc : Vec F S32x1 .f32)
    (h1 : ∀ (r : Fin 32) (q : Fin 73728), 958464 + q.val < 1000000 → x1 (ix2 r q) = x1' (ix2 r q))
    (h2 : ∀ (r : Fin 32) (q : Fin 73728), 958464 + q.val < 1000000 → x2 (ix2 r q) = x2' (ix2 r q))
    (h3 : ∀ q : Fin 73728, 958464 + q.val < 1000000 → x3 (ix2 0 q) = x3' (ix2 0 q)) :
    k0_pay1 (13#32) (k0_pay6 x1 (k0_pay3 x3) x2) acc = k0_pay1 (13#32) (k0_pay6 x1' (k0_pay3 x3') x2') acc :=
  pay1_congr _ _ acc fun r q hq =>
    pay6_congr_ix x1 x1' x2 x2' (k0_pay3 x3) (k0_pay3 x3') r q (h1 r q hq) (h2 r q hq)
      (pay3_congr x3 x3' (ix2 0 q) (h3 q hq))

end Cert.KBCongr

end
-- ==== Proof.BSum0Last.lean ====
/-
  The last grid point of the first region. Its blocks overhang the array's end: of a block's 73728 columns the first 41536
  lie inside the array (13·73728 + 41536 = 1000000). Two buffers holding the same block on those columns are equal there,
  whatever either holds past them.
-/
import proofs.«131931_g34385508171941_cont_8to1_b_261_19_alg».proof.Proof.BSum0
import proofs.«131931_g34385508171941_cont_8to1_b_261_19_alg».proof.Proof.BKCongr

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The step word the body computes at the last point. -/
theorem coord13 : BitVec.ofNat 32 ((grid0.coords t0_13) 0).val = 13#32 := by decide +kernel

/-- What the transfers move at the last point: all 32 rows (the one row of the samples), the first 41536 columns. -/
theorem xs13_0 : ∀ a, win0_0.xsize (grid0.coords t0_13) a = (![32, 41536] : Fin 2 → ℕ) a := by decide +kernel
theorem xs13_1 : ∀ a, win0_1.xsize (grid0.coords t0_13) a = (![32, 41536] : Fin 2 → ℕ) a := by decide +kernel
theorem xs13_2 : ∀ a, win0_2.xsize (grid0.coords t0_13) a = (![1, 41536] : Fin 2 → ℕ) a := by decide +kernel
theorem xs13_4 : ∀ a, win0_4.xsize (grid0.coords t0_13) a = (![32, 41536] : Fin 2 → ℕ) a := by decide +kernel

/-- A column inside the array is moved. -/
theorem moved13_0 (r : Fin 32) (q : Fin 73728) (h : 958464 + q.val < 1000000) : win0_0.moved (grid0.coords t0_13) (ix2 r q) = true :=
  (win0_0.moved_iff _ _).mpr fun a => by
    rw [xs13_0 a]
    match a with
    | ⟨0, _⟩ => exact r.isLt
    | ⟨1, _⟩ => show q.val < 41536; omega
theorem moved13_1 (r : Fin 32) (q : Fin 73728) (h : 958464 + q.val < 1000000) : win0_1.moved (grid0.coords t0_13) (ix2 r q) = true :=
  (win0_1.moved_iff _ _).mpr fun a => by
    rw [xs13_1 a]
    match a with
    | ⟨0, _⟩ => exact r.isLt
    | ⟨1, _⟩ => show q.val < 41536; omega
theorem moved13_2 (q : Fin 73728) (h : 958464 + q.val < 1000000) : win0_2.moved (grid0.coords t0_13) (ix2 (0 : Fin 1) q) = true :=
  (win0_2.moved_iff _ _).mpr fun a => by
    rw [xs13_2 a]
    match a with
    | ⟨0, _⟩ => exact Nat.zero_lt_one
    | ⟨1, _⟩ => show q.val < 41536; omega

/-- A column the last point's write-back of the scores moves lies among the first 41536. -/
theorem xs13_4_col : win0_4.xsize (grid0.coords t0_13) (1 : Fin 2) = 41536 := by decide +kernel
theorem xinj13_4_lt (j' : (win0_4.xblock (grid0.coords t0_13)).Idx) :
    ((win0_4.xinj (grid0.coords t0_13) j') (1 : Fin 2)).val < 41536 := by
  have h := (win0_4.moved_iff (grid0.coords t0_13) _).mp (win0_4.moved_xinj (grid0.coords t0_13) j') (1 : Fin 2)
  rw [xs13_4_col] at h
  exact h

/-- Two fills of one block agree on the moved part. -/
theorem fill_agree {G : Pipeline.Grid} (w : Pipeline.Window sig G) {α : Type} (i : G.Coords) (d d' : w.block.Idx → α)
    (g : (w.xblock i).Idx → α) (j : w.block.Idx) (hm : w.moved i j = true) : w.fill i d g j = w.fill i d' g j := by
  unfold Pipeline.Window.fill; rw [dif_pos hm, dif_pos hm]

end Cert.KBProof

end
-- ==== Proof.BSum0Body.lean ====
/-
  The first kernel region's body obligation: at every grid point the kernel's body, run on the staging buffers as the
  pipeline hands them over and on the two scratch buffers, leaves them as the proof data say.
-/
import proofs.«131931_g34385508171941_cont_8to1_b_261_19_alg».proof.Proof.BSum0Last

set_option maxRecDepth 16384

noncomputable section

namespace Cert.KBProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The running sums after a later point are the block's row sums added to those of the point before. -/
theorem accAt_pos (c : Dev nD) (t : Fin cfg0.N) (h : t.val ≠ 0) :
    accAt V c t.val = k0_pay7 (bl0 V c t) (k0_pay3 (bl2 V c t)) (bl1 V c t) (accAt V c (t.val - 1)) := by
  obtain ⟨n, hn⟩ := t
  cases n with
  | zero => exact absurd rfl h
  | succ n => simp only [accAt, dif_pos hn]; rfl

/-- A whole buffer held at known contents is held at some contents of which anything true of the known ones is true. -/
theorem owns_whole_keep (c : Thread nD τ) (b : Ref sig c.2.kind) (X : b.ty.Contents (Elt F)) (P : Buf (Elt F) (c.loc b) → Prop)
    (hP : ∀ f, f = X → P f) :
    (owns c (Memref.whole b) fullShare X : sProp 𝕄) ⊢ iprop(∃ f : Buf (Elt F) (c.loc b), ⌜P f⌝ ∗ ((c.loc b) ↦{fullShare} f)) := by
  rw [owns_whole_eq]
  iintro ⟨%f, %hf, H⟩
  iexists f; isplitr; · ipureintro; exact hP f hf
  iexact H

set_option maxHeartbeats 1600000 in
/-- The body obligation of the first region: the first point (the accumulator reset), the middle points, the last point (the
    masked tail and the logarithm). -/
theorem body_obligation0 (c : Dev nD) : BodyObligationLoose (dat0 V c) (defs₀ (F := F)) 𝒱z () Set.univ := fun t => by
  rw [bigSep_W0, bigSep_W0]
  have hN : t.val < 14 := lt_of_lt_of_eq t.isLt N_0
  by_cases hA : t.val = 0
  · -- the first point
    have hI : cInit (grid0.coords t) := (hInit t).mpr hA
    have hF : cFull (grid0.coords t) := (hFull t).mpr (by omega)
    have hT : ¬cTail (grid0.coords t) := fun h => by have := (hTail t).mp h; omega
    have hid : idle0 3 (grid0.coords t) = true := (idle3 t).trans (decide_eq_true (by omega))
    have hfl : (cfg0.win 3).flush t = false := by
      rw [Bool.eq_false_iff]; intro h; have := (flush0_3 t).mp h; omega
    simp only [hid, hfl]
    -- (the first point's run)
    change _ ⊢ wp Idealize.ShloMosaic.frame (wpE defs₀ 𝒱z c.tc none) Set.univ (bodyAt0 t) _
    unfold bodyAt0
    rw [show (dat0 V c).Φ t.castSucc = Phi0 V c t.castSucc from rfl, show (dat0 V c).Φ t.succ = Phi0 V c t.succ from rfl,
      show (dat0 V c).owesAt () t.succ = (dat0 V c).owesAt () t.castSucc from rfl]
    simp only [before0_0_lt V c t (by omega), before0_1_lt V c t (by omega), before0_2_lt V c t (by omega), before0_3 V c t.val t.isLt,
      before0_4 V c t, after0_0, after0_1, after0_2, after0_4]
    unfold Phi0
    iintro ⟨⟨⟨%f6, %hf6, H6⟩, ⟨%f7, H7⟩, Hrest⟩, Ho, ⟨%d0, H0⟩, ⟨%d1, H1⟩, ⟨%d2, H2⟩, ⟨%d3, H3⟩, ⟨%d4, H4⟩⟩
    iapply ((runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3).2 Set.univ _)
    isplitl [H0]; · iexact H0
    isplitl [H1]; · iexact H1
    isplitl [H2]; · iexact H2
    isplitl [H3]; · iexact H3
    isplitl [H4]; · iexists _; iexact H4
    isplitl [H6]
    · iexists f6; rw [owns_whole_eq]; iexists f6; isplitr; · ipureintro; rfl
      iexact H6
    isplitl [H7]
    · iexists f7; rw [owns_whole_eq]; iexists f7; isplitr; · ipureintro; rfl
      iexact H7
    iintro ⟨H0, H1, H2, H3, ⟨%e5, H5⟩, ⟨%e6, H6⟩, ⟨%e7, H7⟩⟩
    isplitl [H6 H7 Hrest]
    · isplitl [H6]
      · iexists _; isplitr
        swap
        · simp only [Memref.view_whole, View.set_whole]; iexact H6
        ipureintro
        refine Or.inr (Or.inr ?_)
        have e := (View.read_writes_of_cover (v := (Memref.whole cc0_scratch0 : Memref sig .tc .vmem S32x1 .f32).view) (f := e6) VS6 VS6.junk _ (coverA6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)).trans (outA6_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)
        simp only [Memref.view_whole, View.read_whole] at e
        rw [e, show (t.succ : Fin (cfg0.N + 1)).val - 1 = t.val from by rw [Fin.val_succ]; omega]
        exact (by obtain rfl : t = t0_0 := Fin.ext hA; rfl)
      isplitl [H7]
      · iexists _; simp only [Memref.view_whole, View.set_whole]; iexact H7
      iexact Hrest
    isplitl [Ho]; · iexact Ho
    isplitl [H0]
    · iexists (bl0 V c t); rw [(win0 0).fill_cut]; iexact H0
    isplitl [H1]
    · iexists (bl1 V c t); rw [(win0 1).fill_cut]; iexact H1
    isplitl [H2]
    · iexists (bl2 V c t); rw [(win0 2).fill_cut]; iexact H2
    isplitl [H3]
    · iexists d3; iexact H3
    · iexists (sc V c t); rw [(win0 4).fill_cut]
      unfold owns; iexists _; isplitr
      swap; · iexact H5
      ipureintro
      exact (View.read_writes_of_cover _ _ _ _ _ (coverA5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)).trans (outA5_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)
  · by_cases hC : t.val = 13
    · -- the last point
      obtain rfl : t = t0_13 := Fin.ext hC
      have hI : ¬cInit (grid0.coords t0_13) := fun h => absurd (show (13 : ℕ) = 0 from (hInit t0_13).mp h) (by decide)
      have hF : ¬cFull (grid0.coords t0_13) := fun h => absurd (show (13 : ℕ) < 13 from (hFull t0_13).mp h) (by decide)
      have hT : cTail (grid0.coords t0_13) := (hTail t0_13).mpr rfl
      have hid : idle0 3 (grid0.coords t0_13) = false := (idle3 t0_13).trans (decide_eq_false (fun h => h rfl))
      simp only [hid]
      change _ ⊢ wp Idealize.ShloMosaic.frame (wpE defs₀ 𝒱z c.tc none) Set.univ (bodyAt0 t0_13) _
      unfold bodyAt0
      rw [show (dat0 V c).Φ t0_13.castSucc = Phi0 V c t0_13.castSucc from rfl, show (dat0 V c).Φ t0_13.succ = Phi0 V c t0_13.succ from rfl,
        show (dat0 V c).owesAt () t0_13.succ = (dat0 V c).owesAt () t0_13.castSucc from rfl]
      simp only [before0_0 V c t0_13, before0_1 V c t0_13, before0_2 V c t0_13, before0_3 V c t0_13.val t0_13.isLt,
        before0_4 V c t0_13, after0_0, after0_1, after0_2, after0_3, after0_4]
      unfold Phi0
      iintro ⟨⟨⟨%f6, %hf6, H6⟩, ⟨%f7, H7⟩, Hrest⟩, Ho, ⟨%d0, H0⟩, ⟨%d1, H1⟩, ⟨%d2, H2⟩, ⟨%d3, H3⟩, ⟨%d4, H4⟩⟩
      have hacc : f6 = accAt V c 12 := (hf6.resolve_left (by decide)).resolve_left (by decide)
      iapply ((runC c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12)).2 Set.univ _)
      isplitl [H0]; · iexact H0
      isplitl [H1]; · iexact H1
      isplitl [H2]; · iexact H2
      isplitl [H3]; · iexists _; iexact H3
      isplitl [H4]; · iexists _; iexact H4
      isplitl [H6]
      · rw [owns_whole_eq]; iexists f6; isplitr; · ipureintro; exact hacc
        iexact H6
      isplitl [H7]
      · iexists f7; rw [owns_whole_eq]; iexists f7; isplitr; · ipureintro; rfl
        iexact H7
      iintro ⟨H0, H1, H2, ⟨%e4, H4'⟩, ⟨%e5, H5⟩, H6, ⟨%e7, H7⟩⟩
      isplitl [H6 H7 Hrest]
      · isplitl [H6]
        · iapply (owns_whole_keep (c : Thread nD τ) cc0_scratch0 (accAt V c 12)
            (fun f => (t0_13.succ : Fin (cfg0.N + 1)).val = 0 ∨ (t0_13.succ : Fin (cfg0.N + 1)).val = 14 ∨ f = accAt V c ((t0_13.succ : Fin (cfg0.N + 1)).val - 1))
            (fun _ _ => Or.inr (Or.inl rfl)))
          iexact H6
        isplitl [H7]
        · iexists _; simp only [Memref.view_whole, View.set_whole]; iexact H7
        iexact Hrest
      isplitl [Ho]; · iexact Ho
      isplitl [H0]
      · iexists d0; rw [show (win0 0).cut (grid0.coords t0_13) (bl0 V c t0_13) = ib0 V c t0_13 from win0_0.cut_fill _ _ _]; iexact H0
      isplitl [H1]
      · iexists d1; rw [show (win0 1).cut (grid0.coords t0_13) (bl1 V c t0_13) = ib1 V c t0_13 from win0_1.cut_fill _ _ _]; iexact H1
      isplitl [H2]
      · iexists d2; rw [show (win0 2).cut (grid0.coords t0_13) (bl2 V c t0_13) = ib2 V c t0_13 from win0_2.cut_fill _ _ _]; iexact H2
      isplitl [H4']
      · -- the normalisers: the columns past the array's end are masked out of the row sums
        unfold owns; iexists _; isplitr
        swap; · iexact H4'
        ipureintro
        refine (View.read_writes_of_cover _ _ _ _ _ (coverC4 c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12))).trans ((outC4_eq c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12)).trans ?_)
        rw [coord13]
        unfold lse bl0 bl1 bl2
        exact Cert.KBCongr.lse_congr _ _ _ _ _ _ _ (fun r q h => fill_agree win0_0 _ _ _ _ _ (moved13_0 r q h))
          (fun r q h => fill_agree win0_1 _ _ _ _ _ (moved13_1 r q h)) (fun q h => fill_agree win0_2 _ _ _ _ _ (moved13_2 q h))
      · -- the scores: only the columns inside the array are written back, and there the score is the block's
        have hread := (View.read_writes_of_cover (v := (win0_4.stage (cfg0.slots t0_13 4)).view) (f := e5) VO5 VO5.junk _
          (coverC5 c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12))).trans (outC5_eq c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12))
        have hcut : (win0 4).cut (grid0.coords t0_13) (k0_pay5 (win0_0.fill (grid0.coords t0_13) d0 (ib0 V c t0_13)) (k0_pay3 (win0_2.fill (grid0.coords t0_13) d2 (ib2 V c t0_13))) (win0_1.fill (grid0.coords t0_13) d1 (ib1 V c t0_13)))
            = (win0 4).cut (grid0.coords t0_13) (sc V c t0_13) := by
          funext j'
          have hq : ((win0 4).xinj (grid0.coords t0_13) j' (1 : Fin 2)).val < 41536 := xinj13_4_lt j'
          show k0_pay5 (win0_0.fill (grid0.coords t0_13) d0 (ib0 V c t0_13)) (k0_pay3 (win0_2.fill (grid0.coords t0_13) d2 (ib2 V c t0_13))) (win0_1.fill (grid0.coords t0_13) d1 (ib1 V c t0_13)) ((win0 4).xinj (grid0.coords t0_13) j')
            = sc V c t0_13 ((win0 4).xinj (grid0.coords t0_13) j')
          generalize (win0 4).xinj (grid0.coords t0_13) j' = j at hq ⊢
          obtain ⟨r, q, rfl⟩ : ∃ (r : Fin 32) (q : Fin 73728), j = ix2 r q := ⟨j 0, j 1, eq_ix2 j⟩
          have hq' : 958464 + q.val < 1000000 := by have : q.val < 41536 := hq; omega
          unfold sc bl0 bl1 bl2
          exact Cert.KBCongr.sc_congr _ _ _ _ _ _ r q (fill_agree win0_0 _ _ _ _ _ (moved13_0 r q hq'))
            (fill_agree win0_1 _ _ _ _ _ (moved13_1 r q hq')) (fill_agree win0_2 _ _ _ _ _ (moved13_2 q hq'))
        generalize k0_pay5 (win0_0.fill (grid0.coords t0_13) d0 (ib0 V c t0_13)) (k0_pay3 (win0_2.fill (grid0.coords t0_13) d2 (ib2 V c t0_13))) (win0_1.fill (grid0.coords t0_13) d1 (ib1 V c t0_13)) = Y at hread hcut
        iexists Y
        rw [(win0 4).fill_congr_cut (grid0.coords t0_13) hcut]
        unfold owns; iexists _; isplitr
        swap; · iexact H5
        ipureintro; exact hread
    · -- a middle point
      have hI : ¬cInit (grid0.coords t) := fun h => hA ((hInit t).mp h)
      have hF : cFull (grid0.coords t) := (hFull t).mpr (by omega)
      have hT : ¬cTail (grid0.coords t) := fun h => hC ((hTail t).mp h)
      have hid : idle0 3 (grid0.coords t) = true := (idle3 t).trans (decide_eq_true hC)
      have hfl : (cfg0.win 3).flush t = false := by
        rw [Bool.eq_false_iff]; intro h; have := (flush0_3 t).mp h; omega
      simp only [hid, hfl]
      change _ ⊢ wp Idealize.ShloMosaic.frame (wpE defs₀ 𝒱z c.tc none) Set.univ (bodyAt0 t) _
      unfold bodyAt0
      rw [show (dat0 V c).Φ t.castSucc = Phi0 V c t.castSucc from rfl, show (dat0 V c).Φ t.succ = Phi0 V c t.succ from rfl,
        show (dat0 V c).owesAt () t.succ = (dat0 V c).owesAt () t.castSucc from rfl]
      simp only [before0_0_lt V c t (by omega), before0_1_lt V c t (by omega), before0_2_lt V c t (by omega), before0_3 V c t.val t.isLt,
        before0_4 V c t, after0_0, after0_1, after0_2, after0_4]
      unfold Phi0
      iintro ⟨⟨⟨%f6, %hf6, H6⟩, ⟨%f7, H7⟩, Hrest⟩, Ho, ⟨%d0, H0⟩, ⟨%d1, H1⟩, ⟨%d2, H2⟩, ⟨%d3, H3⟩, ⟨%d4, H4⟩⟩
      have hacc : f6 = accAt V c (t.val - 1) := (hf6.resolve_left hA).resolve_left (fun h => by have h' : t.val = 14 := h; omega)
      iapply ((runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1))).2 Set.univ _)
      isplitl [H0]; · iexact H0
      isplitl [H1]; · iexact H1
      isplitl [H2]; · iexact H2
      isplitl [H3]; · iexact H3
      isplitl [H4]; · iexists _; iexact H4
      isplitl [H6]
      · rw [owns_whole_eq]; iexists f6; isplitr; · ipureintro; exact hacc
        iexact H6
      isplitl [H7]
      · iexists f7; rw [owns_whole_eq]; iexists f7; isplitr; · ipureintro; rfl
        iexact H7
      iintro ⟨H0, H1, H2, H3, ⟨%e5, H5⟩, ⟨%e6, H6⟩, ⟨%e7, H7⟩⟩
      isplitl [H6 H7 Hrest]
      · isplitl [H6]
        · iexists _; isplitr
          swap
          · simp only [Memref.view_whole, View.set_whole]; iexact H6
          ipureintro
          refine Or.inr (Or.inr ?_)
          have e := (View.read_writes_of_cover (v := (Memref.whole cc0_scratch0 : Memref sig .tc .vmem S32x1 .f32).view) (f := e6) VS6 VS6.junk _ (coverB6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))).trans (outB6_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))
          simp only [Memref.view_whole, View.read_whole] at e
          rw [e, show (t.succ : Fin (cfg0.N + 1)).val - 1 = t.val from by rw [Fin.val_succ]; omega]
          exact (accAt_pos V c t hA).symm
        isplitl [H7]
        · iexists _; simp only [Memref.view_whole, View.set_whole]; iexact H7
        iexact Hrest
      isplitl [Ho]; · iexact Ho
      isplitl [H0]
      · iexists (bl0 V c t); rw [(win0 0).fill_cut]; iexact H0
      isplitl [H1]
      · iexists (bl1 V c t); rw [(win0 1).fill_cut]; iexact H1
      isplitl [H2]
      · iexists (bl2 V c t); rw [(win0 2).fill_cut]; iexact H2
      isplitl [H3]
      · iexists d3; iexact H3
      · iexists (sc V c t); rw [(win0 4).fill_cut]
        unfold owns; iexists _; isplitr
        swap; · iexact H5
        ipureintro
        exact (View.read_writes_of_cover _ _ _ _ _ (coverB5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))).trans (outB5_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))

end Cert.KBProof

end
-- ==== Proof.BOutBody.lean ====
/-
  The second kernel's body on its staging buffers. It loads the whole block of the narrowed scores and the whole column of
  row normalisers, widens the scores, subtracts from each row its normaliser, and stores the whole block of the result:
  the result's buffer ends holding that difference, the two inputs' buffers are unchanged.
-/
import proofs.«131931_g34385508171941_cont_8to1_b_261_19_alg».proof.Proof.Gen.Kernel.Launch
import proofs.«131931_g34385508171941_cont_8to1_b_261_19_alg».proof.Proof.Gen.Kernel.Skeleton
import proofs.«131931_g34385508171941_cont_8to1_b_261_19_alg».proof.Proof.Gen.Kernel.Points
import Idealize.ShloMosaic.Lib.Pipeline.Kit
import Idealize.ShloMosaic.Lib.Tactic

noncomputable section

namespace Cert.KBProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

theorem zero2 : (![0, 0] : Fin 2 → Nat) = fun _ => 0 := funext fun a => by fin_cases a <;> rfl

/-- The second kernel's body: from the scores' buffer at `X0`, the normalisers' at `X1` and the result's at anything, it ends
    with the result's buffer at `X0` widened less `X1` along each row, the inputs' buffers as they were. -/
theorem sound_out (c : Dev nD) (E : Set ℕ) (i : grid1.Coords) (s0 : Fin 2) (s1 : Fin 1) (s2 : Fin 2)
    (X0 : S32x131072.Idx → Elt F .bf16) (X1 : S32x1.Idx → Elt F .f32) (X2 : S32x131072.Idx → Elt F .f32) (K : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ K ⟨⟩))
      ⊢ wp frame (wpE (defs₀ (F := F)) 𝒱₀ c none) E
          (cc1__out_kernel i (stage1_0 s0) (hstage1_0 s0) (stage1_1 s1) (hstage1_1 s1) (stage1_2 s2) (hstage1_2 s2)) K := by
  fin_cases s0 <;> fin_cases s1 <;> fin_cases s2
  · have hr0 : (Memref.whole cc1_stg0_0 : Memref sig .tc _ _ _).view.readAt (Elt F) (Rect.unit (s := S32x131072) ![0, 0] S32x131072.size
        inb_S32x131072_S32x131072_0_0).toLoadRect = id := funext (Memref.readAt_unit_zero (Elt F) cc1_stg0_0 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_0).access (Rect.unit (s := S32x131072) ![0, 0] S32x131072.size inb_S32x131072_S32x131072_0_0)) :
        View sig .tc _ _ _).write (Elt F) f w Finset.univ = w := Memref.write_access_unit_zero_univ (Elt F) cc1_stg2_0 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2
  · have hr0 : (Memref.whole cc1_stg0_0 : Memref sig .tc _ _ _).view.readAt (Elt F) (Rect.unit (s := S32x131072) ![0, 0] S32x131072.size
        inb_S32x131072_S32x131072_0_0).toLoadRect = id := funext (Memref.readAt_unit_zero (Elt F) cc1_stg0_0 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_1).access (Rect.unit (s := S32x131072) ![0, 0] S32x131072.size inb_S32x131072_S32x131072_0_0)) :
        View sig .tc _ _ _).write (Elt F) f w Finset.univ = w := Memref.write_access_unit_zero_univ (Elt F) cc1_stg2_1 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2
  · have hr0 : (Memref.whole cc1_stg0_1 : Memref sig .tc _ _ _).view.readAt (Elt F) (Rect.unit (s := S32x131072) ![0, 0] S32x131072.size
        inb_S32x131072_S32x131072_0_0).toLoadRect = id := funext (Memref.readAt_unit_zero (Elt F) cc1_stg0_1 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_0).access (Rect.unit (s := S32x131072) ![0, 0] S32x131072.size inb_S32x131072_S32x131072_0_0)) :
        View sig .tc _ _ _).write (Elt F) f w Finset.univ = w := Memref.write_access_unit_zero_univ (Elt F) cc1_stg2_0 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2
  · have hr0 : (Memref.whole cc1_stg0_1 : Memref sig .tc _ _ _).view.readAt (Elt F) (Rect.unit (s := S32x131072) ![0, 0] S32x131072.size
        inb_S32x131072_S32x131072_0_0).toLoadRect = id := funext (Memref.readAt_unit_zero (Elt F) cc1_stg0_1 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_1).access (Rect.unit (s := S32x131072) ![0, 0] S32x131072.size inb_S32x131072_S32x131072_0_0)) :
        View sig .tc _ _ _).write (Elt F) f w Finset.univ = w := Memref.write_access_unit_zero_univ (Elt F) cc1_stg2_1 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2

end Cert.KBProof

end
-- ==== Proof.BOut1.lean ====
/-
  The second kernel region as a pipeline: its proof data, the obligation of its body, and the result array after it.

  The region walks eight blocks of 131072 columns over the 32 rows of the narrowed scores. At each block it stages
  the scores' block and (once) the column of row normalisers, runs the body — the block widened, less each row's
  normaliser — and writes the result's block back. The last block overhangs the arrays' 1000000 columns: its
  transfers move only the columns inside the array, so what the staging buffers hold past the array's end is not
  stated (any contents), and the body's result there is never written back.

  The result array ends holding, at every row `r` and column `k`, the score at `(r, k)` less row `r`'s normaliser:
  the eight blocks' columns inside the array are disjoint and together all of the array's, and the point that
  writes column `k` is `k / 131072`.
-/
import proofs.«131931_g34385508171941_cont_8to1_b_261_19_alg».proof.Proof.BOutBody
import proofs.«131931_g34385508171941_cont_8to1_b_261_19_alg».proof.Proof.LibLayout
import Idealize.ShloMosaic.Lib.Pipeline.Kit
import Idealize.ShloMosaic.Lib.Pipeline.Value
import Idealize.ShloMosaic.Lib.ValueIdx
import Idealize.ShloMosaic.Lib.Tactic

noncomputable section

namespace Cert.KBProof

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The scores' block at point `t` as the fetch reads it: its part inside the array. -/
def sblk (c : Dev nD) (W : (b : Ref sig .tc) → Buf (Elt F) ((c : Thread nD τ).loc b)) (t : Fin cfg1.N) :
    (win1_0.xblock (grid1.coords t)).Idx → Elt F .bf16 :=
  (win1_0.blk t).view.read (Elt F) (W main_call0_v1_1)

/-- That block filled out past the array's end with the zero word. -/
def sblkF (c : Dev nD) (W : (b : Ref sig .tc) → Buf (Elt F) ((c : Thread nD τ).loc b)) (t : Fin cfg1.N) :
    S32x131072.Idx → Elt F .bf16 :=
  win1_0.fill (grid1.coords t) (fun _ => Scalar.ofBits .bf16 0#16) (sblk c W t)

/-- The column of row normalisers: its one block, the whole array. -/
def colB (c : Dev nD) (W : (b : Ref sig .tc) → Buf (Elt F) ((c : Thread nD τ).loc b)) (t : Fin cfg1.N) :
    S32x1.Idx → Elt F .f32 :=
  (win1_1.blk t).view.read (Elt F) (W main_call0_v1_0)

/-- The proof data of the second region on a core whose unscoped buffers hold `W` at entry: the arrays at those
    contents; after the body at point `t` the scores' buffer at its block (filled out past the array's end), the
    normalisers' at the column, the result's at the body's value of those two; the scoped buffers no window stages
    ride along untouched; full shares; nothing owed. -/
def dats1 (c : Dev nD) (W : (b : Ref sig .tc) → Buf (Elt F) ((c : Thread nD τ).loc b)) :
    Dat τ (Elt F) Unit ℕ (UR sig nD τ) ℕ cfg1 c where
  A w := W (Pipeline.arrRef spec1 w)
  after w t := match w with
    | ⟨0, _⟩ => sblkF c W t
    | ⟨1, _⟩ => colB c W t
    | ⟨2, _⟩ => k1_pay1 (sblkF c W t) (colB c W t)
  Φ _ := Pipeline.scopedRest (Ix := Unit) (Name := ℕ) (U := UR sig nD τ) (Lvl := ℕ) (Val := Elt F) spec1 c
  q _ := fullShare
  owed _ := 0

/-- The scores' buffer when the body runs: just fetched — the block on the columns inside the array, `d` elsewhere. -/
theorem before1_0 (c : Dev nD) (W : (b : Ref sig .tc) → Buf (Elt F) ((c : Thread nD τ).loc b)) (t : Fin cfg1.N) (d) :
    (dats1 c W).before (0 : Fin 3) t d = win1_0.fill (grid1.coords t) d (sblk c W t) := by
  unfold Dat.before; rw [if_pos (fetch1_0 t)]; rfl

/-- The normalisers' buffer when the body runs holds the column, fetched at this point or left there by the last. -/
theorem before1_1 (c : Dev nD) (W : (b : Ref sig .tc) → Buf (Elt F) ((c : Thread nD τ).loc b)) (t : Fin cfg1.N) (d) :
    (dats1 c W).before (1 : Fin 3) t d = colB c W t := by
  rw [(dats1 c W).before_in_eq_fetched (1 : Fin 3) rfl (fun _ => rfl) (fun _ _ _ => rfl) (fun _ => rfl) t d]
  funext j
  unfold Dat.fetched Window.fill
  rw [dif_pos (show (cfg1.win 1).moved (cfg1.grid.coords t) j = true from rfl)]
  rfl

/-- The result's buffer when the body runs holds anything: the point before wrote it back. -/
theorem before1_2 (c : Dev nD) (W : (b : Ref sig .tc) → Buf (Elt F) ((c : Thread nD τ).loc b)) (t : Fin cfg1.N) (d) :
    (dats1 c W).before (2 : Fin 3) t d = d := by
  refine (dats1 c W).before_out_reset (2 : Fin 3) rfl t ?_ d
  by_cases h0 : t.val = 0
  · exact .inl h0
  · exact .inr ⟨h0, flush1_2 _⟩

/-- For every float instance the body's value at an entry depends on the scores' block only through that entry:
    widening, the broadcast of the column and the subtraction are entry by entry. -/
theorem k1_pay1_congr' (X0 X0' : Vec F S32x131072 .bf16) (X1 : Vec F S32x1 .f32) (j : S32x131072.Idx)
    (h0 : X0 j = X0' j) : k1_pay1 X0 X1 j = k1_pay1 X0' X1 j := by
  unfold k1_pay1
  simp only [shapeCast_self, subf, extf]
  rw [h0]

/-- The library's body obligation, from the body's triple at the point's staging buffers. The scores' buffer arrives
    holding its block filled out with some `d0` past the array's end and leaves as it came; the normalisers' arrives
    and leaves holding the column; the result's arrives holding anything and leaves holding the body's value of the
    other two, which on the columns inside the array is the value of the block however it is filled out. -/
theorem body_obligation1 (c : Dev nD) (W : (b : Ref sig .tc) → Buf (Elt F) ((c : Thread nD τ).loc b)) :
    BodyObligationLoose (dats1 c W) (defs₀ (F := F)) 𝒱₀ () Set.univ := fun t => by
  rw [bigSep_W1, bigSep_W1]
  simp only
  rw [show (dats1 c W).Φ t.succ = (dats1 c W).Φ t.castSucc from rfl,
    show (dats1 c W).owesAt () t.succ = (dats1 c W).owesAt () t.castSucc from rfl]
  iintro ⟨HΦ, Ho, ⟨%d0, H0⟩, ⟨%d1, H1⟩, ⟨%d2, H2⟩⟩
  rw [before1_0 c W t d0, before1_1 c W t d1, before1_2 c W t d2]
  iapply (sound_out (F := F) c Set.univ (grid1.coords t) (cfg1.slots t 0) (cfg1.slots t 1) (cfg1.slots t 2)
    (win1_0.fill (grid1.coords t) d0 (sblk c W t)) (colB c W t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  dsimp only [dats1]
  have hx : win1_0.cut (grid1.coords t) (sblkF c W t) = sblk c W t := win1_0.cut_fill _ _ _
  have hcut : (win1 2).cut (grid1.coords t) (k1_pay1 (win1_0.fill (grid1.coords t) d0 (sblk c W t)) (colB c W t))
      = (win1 2).cut (grid1.coords t) (k1_pay1 (sblkF c W t) (colB c W t)) := by
    funext j
    refine k1_pay1_congr' _ _ _ _ ?_
    exact (win1_0.fill_xinj (grid1.coords t) d0 (sblk c W t) j).trans
      (win1_0.fill_xinj (grid1.coords t) (fun _ => Scalar.ofBits .bf16 0#16) (sblk c W t) j).symm
  generalize k1_pay1 (win1_0.fill (grid1.coords t) d0 (sblk c W t)) (colB c W t) = X at hcut ⊢
  isplitl [H0]
  · iexists d0
    change _ ⊢ owns (c : Thread nD τ) (stage1_0 (cfg1.slots t 0)) fullShare
      (win1_0.fill (grid1.coords t) d0 (win1_0.cut (grid1.coords t) (sblkF c W t)))
    rw [hx]
  isplitl [H1]
  · iexact H1
  · iexists X
    rw [(win1 2).fill_congr_cut (grid1.coords t) hcut]
    iexact H2

/-! ## The arrays after the region -/

/-- The two inputs are never written: after the region they hold what they held. -/
theorem final1_in0 (c : Dev nD) (W : (b : Ref sig .tc) → Buf (Elt F) ((c : Thread nD τ).loc b)) :
    (dats1 c W).arrAt (0 : Fin 3) cfg1.N = W main_call0_v1_1 :=
  (dats1 c W).arrAt_in (0 : Fin 3) rfl _
theorem final1_in1 (c : Dev nD) (W : (b : Ref sig .tc) → Buf (Elt F) ((c : Thread nD τ).loc b)) :
    (dats1 c W).arrAt (1 : Fin 3) cfg1.N = W main_call0_v1_0 :=
  (dats1 c W).arrAt_in (1 : Fin 3) rfl _

/-- The index maps, decided over the eight points: the scores' and the result's blocks are at row block 0 and
    column block `t`, the column's at block (0, 0); the result's transfer moves all 32 rows and, of the block's
    131072 columns, those inside the array: all but at the last point, where 1000000 - 7 · 131072 = 82496 are. -/
theorem idx_facts1 : ∀ t : Fin cfg1.N,
    win1_0.index t (0 : Fin 2) = 0 ∧ win1_0.index t (1 : Fin 2) = t.val
    ∧ win1_2.index t (0 : Fin 2) = 0 ∧ win1_2.index t (1 : Fin 2) = t.val
    ∧ win1_1.index t (0 : Fin 2) = 0 ∧ win1_1.index t (1 : Fin 2) = 0
    ∧ win1_2.xsize (grid1.coords t) (0 : Fin 2) = 32
    ∧ win1_2.xsize (grid1.coords t) (1 : Fin 2) = (if t.val = 7 then 82496 else 131072) :=
  (by decide +kernel : ∀ t : Fin grid1.N, _)

/-- At the extended reals the body's value at `(r, q)` is the block's entry less row `r`'s entry of the column:
    widening is the identity there. -/
theorem pay_out_apply' (X0 : Vec Ideal S32x131072 .bf16) (X1 : Vec Ideal S32x1 .f32) (r : Fin 32) (q : Fin 131072) :
    k1_pay1 (F := Ideal) X0 X1 (ix2 r q) = X0 (ix2 r q) - X1 (ix2 r 0) := by
  unfold k1_pay1
  simp only [shapeCast_self]
  show X0 (ix2 r q) - broadcastTo S32x131072 X1 broadcasts_S32x1_S32x131072 (ix2 r q) = _
  rw [Cert.Attn.Layout.broadcastTo_a1_ab_apply]

/-- The same at an index not split into its coordinates. -/
theorem pay_out_at (X0 : Vec Ideal S32x131072 .bf16) (X1 : Vec Ideal S32x1 .f32) (j : S32x131072.Idx) :
    k1_pay1 (F := Ideal) X0 X1 j = X0 j - X1 (ix2 (j 0) 0) := by
  obtain ⟨r, q, rfl⟩ : ∃ (r : Fin 32) (q : Fin 131072), j = ix2 r q := ⟨j 0, j 1, eq_ix2 j⟩
  exact pay_out_apply' X0 X1 r q

/-- What the result array is shown to hold, as a function of the two inputs: each score less its row's normaliser. -/
def outOf (A0 : S32x1000000.Idx → EReal) (A1 : S32x1.Idx → EReal) : S32x1000000.Idx → EReal :=
  fun i => A0 i - A1 (ix2 (i 0) 0)

theorem outOf_apply (A0 : S32x1000000.Idx → EReal) (A1 : S32x1.Idx → EReal) (r : Fin 32) (k : Fin 1000000) :
    outOf A0 A1 (ix2 r k) = A0 (ix2 r k) - A1 (ix2 r 0) := rfl

/-- What point `t` writes back is block `t`, cut at the array's end, of that function of the inputs as the
    region found them. -/
theorem flushed1_eq (c : Dev nD) (W : (b : Ref sig .tc) → Buf (Elt Ideal) ((c : Thread nD τ).loc b)) (t : Fin cfg1.N) :
    (dats1 (F := Ideal) c W).flushed 2 t
      = ((cfg1.win 2).blk t).view.read (Elt Ideal) (outOf (W main_call0_v1_1) (W main_call0_v1_0)) := by
  show (cfg1.win 2).cut (grid1.coords t) ((dats1 (F := Ideal) c W).after 2 t) = _
  dsimp only [dats1]
  obtain ⟨e00, e01, e20, e21, e10, e11, x0, x1⟩ := idx_facts1 t
  funext j
  show k1_pay1 (F := Ideal) (sblkF c W t) (colB c W t) (win1_2.xinj (grid1.coords t) j)
    = outOf (W main_call0_v1_1) (W main_call0_v1_0) ((win1_2.blk t).view.emb j)
  rw [pay_out_at]
  have h1 : sblkF c W t (win1_2.xinj (grid1.coords t) j) = W main_call0_v1_1 ((win1_2.blk t).view.emb j) := by
    refine (win1_0.fill_xinj (grid1.coords t) _ (sblk c W t) j).trans ?_
    show W main_call0_v1_1 ((win1_0.blk t).view.emb j) = _
    rfl
  have h2 : colB c W t (ix2 ((win1_2.xinj (grid1.coords t) j) 0) 0)
      = W main_call0_v1_0 (ix2 (((win1_2.blk t).view.emb j) 0) 0) := by
    show W main_call0_v1_0 ((win1_1.blk t).view.emb (ix2 ((win1_2.xinj (grid1.coords t) j) 0) 0)) = _
    refine congrArg (W main_call0_v1_0) ?_
    funext a; apply Fin.ext
    match a with
    | ⟨0, _⟩ =>
      show win1_1.index t (0 : Fin 2) * 32 + 1 * (j 0).val = win1_2.index t (0 : Fin 2) * 32 + 1 * (j 0).val
      omega
    | ⟨1, _⟩ =>
      show win1_1.index t (1 : Fin 2) * 1 + 1 * 0 = 0
      omega
  rw [h1, h2]
  rfl

/-- An index of the result array is in point `t`'s block, cut at the array's end, iff each coordinate is among
    those the block's transfer moves on its axis. -/
theorem mem_blk1 (t : Fin cfg1.N) (i : S32x1000000.Idx) :
    i ∈ ((cfg1.win 2).blk t).view.set ↔ ∀ a : Fin 2, win1_2.index t a * S32x131072.size a ≤ (i a).val
      ∧ (i a).val < win1_2.index t a * S32x131072.size a + win1_2.xsize (grid1.coords t) a := by
  show i ∈ ((View.whole main_v0).slice (win1_2.rect t)).set ↔ _
  rw [View.set_slice_whole, Rect.mem_set_unit]
  exact Iff.rfl

/-- Every index of the result array is in some point's block: column `k` in that of point `k / 131072`, which is
    below 8 because 1000000 ≤ 8 · 131072, and whose columns inside the array reach the array's end at the last. -/
theorem cover1 (i : S32x1000000.Idx) :
    ∃ t : Fin cfg1.N, (cfg1.win 2).flush t = true ∧ i ∈ ((cfg1.win 2).blk t).view.set := by
  have hi0 : (i 0).val < 32 := (i 0).isLt
  have hi1 : (i 1).val < 1000000 := (i 1).isLt
  have hN : (i 1).val / 131072 < cfg1.N := by rw [show cfg1.N = 8 from N_1]; omega
  refine ⟨⟨(i 1).val / 131072, hN⟩, flush1_2 _, ?_⟩
  rw [mem_blk1]
  obtain ⟨-, -, e20, e21, -, -, x0, x1⟩ := idx_facts1 ⟨(i 1).val / 131072, hN⟩
  intro a
  match a with
  | ⟨0, _⟩ =>
    show win1_2.index ⟨(i 1).val / 131072, hN⟩ (0 : Fin 2) * 32 ≤ (i 0).val
      ∧ (i 0).val < win1_2.index ⟨(i 1).val / 131072, hN⟩ (0 : Fin 2) * 32 + win1_2.xsize (grid1.coords ⟨(i 1).val / 131072, hN⟩) (0 : Fin 2)
    rw [e20, x0]; omega
  | ⟨1, _⟩ =>
    show win1_2.index ⟨(i 1).val / 131072, hN⟩ (1 : Fin 2) * 131072 ≤ (i 1).val
      ∧ (i 1).val < win1_2.index ⟨(i 1).val / 131072, hN⟩ (1 : Fin 2) * 131072 + win1_2.xsize (grid1.coords ⟨(i 1).val / 131072, hN⟩) (1 : Fin 2)
    rw [e21, x1]
    show (i 1).val / 131072 * 131072 ≤ (i 1).val
      ∧ (i 1).val < (i 1).val / 131072 * 131072 + (if (i 1).val / 131072 = 7 then 82496 else 131072)
    split <;> omega

/-- The result array after the region, at the extended reals: each score less its row's normaliser, the inputs as
    the region found them. -/
theorem final1_eq (c : Dev nD) (W : (b : Ref sig .tc) → Buf (Elt Ideal) ((c : Thread nD τ).loc b)) :
    (dats1 (F := Ideal) c W).arrAt 2 cfg1.N = outOf (W main_call0_v1_1) (W main_call0_v1_0) :=
  (dats1 (F := Ideal) c W).arrAt_eq_of_cover 2 (outOf (W main_call0_v1_1) (W main_call0_v1_0))
    (fun t _ => flushed1_eq c W t) cover1

/-- The same, entry by entry. -/
theorem final1 (c : Dev nD) (W : (b : Ref sig .tc) → Buf (Elt Ideal) ((c : Thread nD τ).loc b)) (r : Fin 32) (k : Fin 1000000) :
    (dats1 (F := Ideal) c W).arrAt 2 cfg1.N (ix2 r k)
      = HSub.hSub (α := EReal) (β := EReal) (γ := EReal) (W main_call0_v1_1 (ix2 r k)) (W main_call0_v1_0 (ix2 r 0)) := by
  rw [final1_eq]; rfl

end Cert.KBProof

end
-- ==== Proof.BKMain.lean ====
/-
  The whole kernel program as a launch: the host's reshape of the uniform row, then the first kernel's pipeline
  (fourteen steps over blocks of 73728 columns), then the second kernel's (eight steps over blocks of 131072 columns),
  read as one run from any launch memory.

  The buffers' contents are followed from boundary to boundary: `W0` the launch memory, `W1` after the reshape (only
  the reshaped row's buffer changes), `W2` after the first pipeline (its five arrays at what its write-backs leave,
  every other buffer as before), `W3` after the second (likewise for its three arrays). Each pipeline's proof data is
  taken at the contents its region is entered with, and everything here is stated for ANY such proof data that
  (1) reads its arrays off the entry contents, (2) holds them whole, (3) owes nothing at any point and bounds no
  recorded pair, (4) keeps as its invariant exactly the scoped buffers no window stages, and (5) meets the body
  obligation. Under these hypotheses every weakly fair execution of the program terminates with the result buffer at
  what the second pipeline's write-backs leave in its output array and the three arguments unchanged (`kernel_run`).
  What region 0 is entered with is read back to the launch memory (`Vin0_main_arg0` …, the reshaped row entry by
  entry: `Vin0_main_call0_v0_apply`) and what region 1 is entered with to region 0's outputs (`Vin1_v1_0`, `Vin1_v1_1`).
-/
import proofs.«131931_g34385508171941_cont_8to1_b_261_19_alg».proof.Proof.Gen.Kernel.Launch
import proofs.«131931_g34385508171941_cont_8to1_b_261_19_alg».proof.Proof.Gen.Kernel.Regions
import Idealize.ShloMosaic.Lib.Pipeline.RegionsLoop
import Idealize.ShloMosaic.Lib.Pipeline.FrameSuffix
import Idealize.ShloMosaic.Lib.Pipeline.Kit
import Idealize.ShloMosaic.Lib.ValueLayout
import Idealize.ShloMosaic.Lib.Tactic

noncomputable section

namespace Cert.KBProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Idealize.ShloMosaic.ValueIdx

variable {F : FTy → Type} [FloatOps F]

local notation "𝕄" => MT nD τ sig Unit (Elt F) ℕ (UR sig nD τ) ℕ

/-- A TensorCore's buffer contents on every core: what a region's proof data is taken at. -/
abbrev KVal (F : FTy → Type) : Type := (c : Dev nD) → (b : Ref sig .tc) → Buf (Elt F) ((c : Thread nD τ).loc b)

section Main

variable (dat0 : KVal F → (c : Dev nD) → Dat τ (Elt F) Unit ℕ (UR sig nD τ) ℕ cfg0 c)
  (dat1 : KVal F → (c : Dev nD) → Dat τ (Elt F) Unit ℕ (UR sig nD τ) ℕ cfg1 c)
variable (m : (ℓ : Loc nD τ sig) → Buf (Elt F) ℓ)

/-- Core `c`'s buffers at launch. -/
abbrev W0 (c : Dev nD) : Valuation τ sig (Elt F) := fun b => m (c, b)
/-- After the host's reshape (region 0's entry). -/
abbrev W1 (c : Dev nD) : Valuation τ sig (Elt F) := StableHlo.after hostOps0 (W0 m c)
/-- The same, read at the TensorCore's references: what region 0's proof data is taken at. -/
abbrev Vin0 : KVal F := fun c b => W1 m c b
/-- After region 0: its arrays at what the pipeline's write-backs leave, every other buffer as entered (region 1's entry). -/
def W2 (c : Dev nD) : Valuation τ sig (Elt F) :=
  Pipeline.withArrays spec0 c (W1 m c) fun w => (dat0 (Vin0 m) c).arrAt w cfg0.N
/-- The same, read at the TensorCore's references: what region 1's proof data is taken at. -/
abbrev Vin1 : KVal F := fun c b => W2 dat0 m c b
/-- After region 1: its arrays at what the pipeline's write-backs leave, every other buffer as entered. -/
def W3 (c : Dev nD) : Valuation τ sig (Elt F) :=
  Pipeline.withArrays spec1 c (W2 dat0 m c) fun w => (dat1 (Vin1 dat0 m) c).arrAt w cfg1.N

/-- Region 0's arrays after it. -/
theorem W2_arr (c : Dev nD) (w : Fin cfg0.W) :
    W2 dat0 m c (Proc.devRef .tc (Pipeline.arrRef spec0 w)) = (dat0 (Vin0 m) c).arrAt w cfg0.N := by
  unfold W2; exact Pipeline.withArrays_arr spec0 launch0.win.arr_inj c _ _ w
/-- A buffer that is no array of region 0 is as it was entered. -/
theorem W2_of_ne (c : Dev nD) (b : Ref sig .tc) (hb : ∀ w, Pipeline.arrRef spec0 w ≠ b) :
    W2 dat0 m c (Proc.devRef .tc b) = W1 m c (Proc.devRef .tc b) := by
  unfold W2; exact Pipeline.withArrays_of_ne spec0 c _ _ b hb
/-- Region 1's arrays after it. -/
theorem W3_arr (c : Dev nD) (w : Fin cfg1.W) :
    W3 dat0 dat1 m c (Proc.devRef .tc (Pipeline.arrRef spec1 w)) = (dat1 (Vin1 dat0 m) c).arrAt w cfg1.N := by
  unfold W3; exact Pipeline.withArrays_arr spec1 launch1.win.arr_inj c _ _ w
/-- A buffer that is no array of region 1 is as it was entered. -/
theorem W3_of_ne (c : Dev nD) (b : Ref sig .tc) (hb : ∀ w, Pipeline.arrRef spec1 w ≠ b) :
    W3 dat0 dat1 m c (Proc.devRef .tc b) = W2 dat0 m c (Proc.devRef .tc b) := by
  unfold W3; exact Pipeline.withArrays_of_ne spec1 c _ _ b hb

/-- The reshape writes the reshaped row's buffer only. -/
theorem W1_of (c : Dev nD) (r : Ref sig .tc) (h : r ∉ hostOps0_W) :
    W1 m c (Proc.devRef .tc r) = m ((c : Thread nD τ).loc r) :=
  StableHlo.after_of_writes_sub hostOps0 _ hostOps0_writes h

/-- Region 0 is entered with the three arguments as launched. -/
theorem Vin0_main_arg0 (c : Dev nD) : Vin0 m c main_arg0 = m ((c : Thread nD τ).loc main_arg0) := W1_of m c main_arg0 (by decide)
theorem Vin0_main_arg1 (c : Dev nD) : Vin0 m c main_arg1 = m ((c : Thread nD τ).loc main_arg1) := W1_of m c main_arg1 (by decide)
theorem Vin0_main_arg2 (c : Dev nD) : Vin0 m c main_arg2 = m ((c : Thread nD τ).loc main_arg2) := W1_of m c main_arg2 (by decide)

/-- Region 0 is entered with the reshaped row's buffer at the uniform row cast to one row of a matrix. -/
theorem Vin0_main_call0_v0 (c : Dev nD) :
    Vin0 m c main_call0_v0 = shapeCast S1x1000000 (m ((c : Thread nD τ).loc main_arg2)) shapeCasts_S1000000_S1x1000000 := rfl

/-- Entry by entry: column `k` of that one row is entry `k` of the uniform row. -/
theorem Vin0_main_call0_v0_apply (c : Dev nD) (k : Fin 1000000) :
    Vin0 m c main_call0_v0 (ix2 0 k) = m ((c : Thread nD τ).loc main_arg2) (ix1 k) := by
  rw [Vin0_main_call0_v0]
  exact shapeCast_a_1a_apply _ _ 0 k

/-- Region 1 is entered with region 0's two outputs at what its write-backs leave. -/
theorem Vin1_v1_0 (c : Dev nD) : Vin1 dat0 m c main_call0_v1_0 = (dat0 (Vin0 m) c).arrAt 3 cfg0.N := W2_arr dat0 m c 3
theorem Vin1_v1_1 (c : Dev nD) : Vin1 dat0 m c main_call0_v1_1 = (dat0 (Vin0 m) c).arrAt 4 cfg0.N := W2_arr dat0 m c 4

/-! ## The proof data family and the thread state -/

variable (hA0 : ∀ V c w, (dat0 V c).A w = V c (Pipeline.arrRef spec0 w))
  (hA1 : ∀ V c w, (dat1 V c).A w = V c (Pipeline.arrRef spec1 w))
  (hq0 : ∀ V c w, (dat0 V c).q w = fullShare) (hq1 : ∀ V c w, (dat1 V c).q w = fullShare)
  (ho0 : ∀ V c t, (dat0 V c).owed t = 0) (ho1 : ∀ V c t, (dat1 V c).owed t = 0)
  (hrec0 : ∀ V c t, (dat0 V c).recorded t = Set.univ) (hrec1 : ∀ V c t, (dat1 V c).recorded t = Set.univ)
  (hin0 : ∀ V c, (Pipeline.scopedRest (Ix := Unit) (Name := ℕ) (U := UR sig nD τ) (Lvl := ℕ) (Val := Elt F) spec0 c : sProp (MT nD τ sig Unit (Elt F) ℕ (UR sig nD τ) ℕ)) ⊢ (dat0 V c).Φ 0)
  (hout0 : ∀ V c, (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))
  (hin1 : ∀ V c, (Pipeline.scopedRest (Ix := Unit) (Name := ℕ) (U := UR sig nD τ) (Lvl := ℕ) (Val := Elt F) spec1 c : sProp (MT nD τ sig Unit (Elt F) ℕ (UR sig nD τ) ℕ)) ⊢ (dat1 V c).Φ 0)
  (hout1 : ∀ V c, (dat1 V c).Φ (Fin.last cfg1.N) ⊢ (Pipeline.scopedRest (Ix := Unit) (Name := ℕ) (U := UR sig nD τ) (Lvl := ℕ) (Val := Elt F) spec1 c : sProp (MT nD τ sig Unit (Elt F) ℕ (UR sig nD τ) ℕ)))
  (hb0 : ∀ V c, BodyObligationLoose (dat0 V c) (defs₀ (F := F)) Variants.none () Set.univ)
  (hb1 : ∀ V c, BodyObligationLoose (dat1 V c) (defs₀ (F := F)) Variants.none () Set.univ)

/-- Both pipelines' proof data, each at its region's entry contents. -/
def pdatsK : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 dat0 m) c

/-- No core owes another anything: no level is assigned. -/
abbrev LK : GSem nD τ sig → Finset Unit := fun _ => ∅
abbrev lvK : GSem nD τ sig → Unit → ℕ := fun _ _ => 0
/-- What rides beside the buffers through every segment: the generator register at some state and the core owing nothing. -/
abbrev RK (c : Dev nD) : sProp 𝕄 := iprop((∃ r, prngReg c r) ∗ ∃ W, owes (c : Thread nD τ) (0 : CellTallies nD τ sig Unit) W)

/-- The host's reshape as a segment over the unscoped buffers from the launch contents. -/
def hostK : Pipeline.HostSeg (Name := ℕ) (U := UR sig nD τ) (pcfgs (F := F)) defs₀ Variants.none LK lvK :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) RK

/-- An unscoped TensorCore reference is among those the thread state holds. -/
theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at `W3`, the generator register at some state. -/
abbrev TnK (c : Dev nD) : sProp 𝕄 := iprop(StableHlo.held (c : Thread nD τ) (Pipeline.ucRefs τ sig) (W3 dat0 dat1 m c) ∗ ∃ r, prngReg c r)

/-- After region 0 each of its arrays holds what the pipeline leaves and every other buffer what it held at entry. -/
theorem hF0 (c : Dev nD) (w : Fin cfg0.W) : (dat0 (Vin0 m) c).arrAt w cfg0.N = Vin1 dat0 m c (Pipeline.arrRef spec0 w) :=
  (W2_arr dat0 m c w).symm
theorem hrest0 (c : Dev nD) : ∀ b, b ∉ Finset.univ.image (Pipeline.arrRef spec0) → Vin1 dat0 m c b = Vin0 m c b :=
  fun b hb => W2_of_ne dat0 m c b fun w e => hb (Finset.mem_image.mpr ⟨w, Finset.mem_univ _, e⟩)
/-- After region 1 likewise. -/
theorem hF1 (c : Dev nD) (w : Fin cfg1.W) : (dat1 (Vin1 dat0 m) c).arrAt w cfg1.N = (fun b => W3 dat0 dat1 m c (Proc.devRef .tc b) : (b : Ref sig .tc) → Buf (Elt F) ((c : Thread nD τ).loc b)) (Pipeline.arrRef spec1 w) :=
  (W3_arr dat0 dat1 m c w).symm
theorem hrest1 (c : Dev nD) : ∀ b, b ∉ Finset.univ.image (Pipeline.arrRef spec1) → (fun b => W3 dat0 dat1 m c (Proc.devRef .tc b) : (b : Ref sig .tc) → Buf (Elt F) ((c : Thread nD τ).loc b)) b = Vin1 dat0 m c b :=
  fun b hb => W3_of_ne dat0 dat1 m c b fun w e => hb (Finset.mem_image.mpr ⟨w, Finset.mem_univ _, e⟩)

/-! ## The regions as segments -/

set_option backward.isDefEq.respectTransparency.types false in
/-- REGION 0 over the thread state: entered from every unscoped buffer at `W1`, left at `W2`. Its arrays are split out of the
    unscoped buffers at entry and put back at the exit contents; the invariant takes exactly the scoped buffers no window
    stages; the generator register and the other unscoped buffers bypass the region; nothing is owed. -/
def reg0 : Pipeline.RegionSeg (pcfgs (F := F)) adm (pdatsK dat0 dat1 m) () defs₀ Variants.none LK lvK 0 where
  win := launch0.win.to₀
  block_pos := launch0.block_pos
  stage_whole := launch0.stage_whole
  K := PEmpty
  osem k := k.elim
  ho := Pipeline.OwnSemFacts.none _
  hbody c := hb0 (Vin0 m) c
  hwaits := Pipeline.hwaits_of_owed_zero _ _ _ _ LK lvK 0 fun c t => ho0 (Vin0 m) c t
  pre c := iprop(StableHlo.held (c : Thread nD τ) (Pipeline.ucRefs τ sig) (W1 m c) ∗ RK c)
  post c := iprop(StableHlo.held (c : Thread nD τ) (Pipeline.ucRefs τ sig) (W2 dat0 m c) ∗ RK c)
  X c := iprop(emp)
  Y c := iprop(emp)
  Z c := iprop(Pipeline.unscopedRest (Ix := Unit) (Name := ℕ) (U := UR sig nD τ) (Lvl := ℕ) spec0 c (Vin0 m c) ∗ ∃ r, prngReg c r)
  hentry c := by
    rw [Pipeline.ownSems0_none]
    have hsplit := Pipeline.arrays_of_unscopedBufs (p := 0) (pcfgs (F := F)) adm (pdatsK dat0 dat1 m) launch0.win launch0.arr_whole c
      ((pdatsK dat0 dat1 m 0 c).share_full fun w => hq0 (Vin0 m) c w) (Vin0 m c) fun w => hA0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsK dat0 dat1 m 0 c).owed 0 = 0 from ho0 (Vin0 m) c 0]
      icases HO with ⟨%W, HO⟩; iexists W; isplitr
      · ipureintro; exact fun x _ => Or.inl (by rw [show (pdatsK dat0 dat1 m 0 c).recorded 0 = Set.univ from hrec0 (Vin0 m) c 0]; trivial)
      iexact HO
    isplitr; · iempintro
    isplitl [Hrest]; · iexact Hrest
    iexact Hp
  hin c := by
    rw [show (pdatsK dat0 dat1 m 0 c).Φ 0 = (dat0 (Vin0 m) c).Φ 0 from rfl]
    iintro ⟨-, -, Hr⟩
    iapply (hin0 (Vin0 m) c)
    iexact Hr
  hout c := by
    rw [Pipeline.ownSems0_none, show (pdatsK dat0 dat1 m 0 c).Φ (Fin.last _) = (dat0 (Vin0 m) c).Φ (Fin.last cfg0.N) from rfl]
    iintro H
    ihave Hr := (hout0 (Vin0 m) c) $$ H
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsK dat0 dat1 m) ((pdatsK dat0 dat1 m 0 c).share_full fun w => hq0 (Vin0 m) c w)
      (Vin0 m c) (Vin1 dat0 m c) ((pdatsK dat0 dat1 m 0 c).arrAt · cfg0.N) (hF0 dat0 m c) (hrest0 dat0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [show (pdatsK dat0 dat1 m 0 c).owed (Fin.last _) = 0 from ho0 (Vin0 m) c _]
    icases HO with ⟨%W, -, HO⟩; iexists W; iexact HO

/-- The contents after region 1, read at the TensorCore's references. -/
abbrev Vout : KVal F := fun c b => W3 dat0 dat1 m c b

set_option backward.isDefEq.respectTransparency.types false in
/-- REGION 1 over the thread state: entered from every unscoped buffer at `W2`, left at `W3` beside the core owing nothing. -/
def reg1 : Pipeline.RegionSeg (pcfgs (F := F)) adm (pdatsK dat0 dat1 m) () defs₀ Variants.none LK lvK 1 where
  win := launch1.win.to₀
  block_pos := launch1.block_pos
  stage_whole := launch1.stage_whole
  K := PEmpty
  osem k := k.elim
  ho := Pipeline.OwnSemFacts.none _
  hbody c := hb1 (Vin1 dat0 m) c
  hwaits := Pipeline.hwaits_of_owed_zero _ _ _ _ LK lvK 1 fun c t => ho1 (Vin1 dat0 m) c t
  pre c := iprop(StableHlo.held (c : Thread nD τ) (Pipeline.ucRefs τ sig) (W2 dat0 m c) ∗ RK c)
  post c := iprop(TnK dat0 dat1 m c ∗ ∃ W, owes (c : Thread nD τ) (0 : CellTallies nD τ sig Unit) W)
  X c := iprop(emp)
  Y c := iprop(emp)
  Z c := iprop(Pipeline.unscopedRest (Ix := Unit) (Name := ℕ) (U := UR sig nD τ) (Lvl := ℕ) spec1 c (Vin1 dat0 m c) ∗ ∃ r, prngReg c r)
  hentry c := by
    rw [Pipeline.ownSems0_none]
    have hsplit := Pipeline.arrays_of_unscopedBufs (p := 1) (pcfgs (F := F)) adm (pdatsK dat0 dat1 m) launch1.win launch1.arr_whole c
      ((pdatsK dat0 dat1 m 1 c).share_full fun w => hq1 (Vin1 dat0 m) c w) (Vin1 dat0 m c) fun w => hA1 (Vin1 dat0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsK dat0 dat1 m 1 c).owed 0 = 0 from ho1 (Vin1 dat0 m) c 0]
      icases HO with ⟨%W, HO⟩; iexists W; isplitr
      · ipureintro; exact fun x _ => Or.inl (by rw [show (pdatsK dat0 dat1 m 1 c).recorded 0 = Set.univ from hrec1 (Vin1 dat0 m) c 0]; trivial)
      iexact HO
    isplitr; · iempintro
    isplitl [Hrest]; · iexact Hrest
    iexact Hp
  hin c := by
    rw [show (pdatsK dat0 dat1 m 1 c).Φ 0 = (dat1 (Vin1 dat0 m) c).Φ 0 from rfl]
    iintro ⟨-, -, Hr⟩
    iapply (hin1 (Vin1 dat0 m) c)
    iexact Hr
  hout c := by
    rw [Pipeline.ownSems0_none, show (pdatsK dat0 dat1 m 1 c).Φ (Fin.last _) = (dat1 (Vin1 dat0 m) c).Φ (Fin.last cfg1.N) from rfl]
    iintro H
    ihave Hr := (hout1 (Vin1 dat0 m) c) $$ H
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsK dat0 dat1 m) ((pdatsK dat0 dat1 m 1 c).share_full fun w => hq1 (Vin1 dat0 m) c w)
      (Vin1 dat0 m c) (Vout dat0 dat1 m c) ((pdatsK dat0 dat1 m 1 c).arrAt · cfg1.N) (hF1 dat0 dat1 m c) (hrest1 dat0 dat1 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    rw [show (pdatsK dat0 dat1 m 1 c).owed (Fin.last _) = 0 from ho1 (Vin1 dat0 m) c _]
    icases HO with ⟨%W, -, HO⟩; iexists W; iexact HO

/-! ## @main as segments, and the launch -/

/-- The program's three segments in order: the reshape, region 0, region 1. -/
abbrev ksegs : List (Pipeline.Seg (pcfgs (F := F)) adm (pdatsK dat0 dat1 m) () defs₀ Variants.none LK lvK) :=
  [ .host (hostK m),
    .region (reg0 dat0 dat1 m hA0 hq0 ho0 hrec0 hin0 hout0 hb0),
    .region (reg1 dat0 dat1 m hA1 hq1 ho1 hrec1 hin1 hout1 hb1) ]

/-- The program IS the run of its segments. -/
theorem main_run (c : Dev nD) :
    main (F := F) c = Pipeline.Seg.run (ksegs dat0 dat1 m hA0 hA1 hq0 hq1 ho0 ho1 hrec0 hrec1 hin0 hout0 hin1 hout1 hb0 hb1) :=
  main_segs adm (pdatsK dat0 dat1 m) () Variants.none LK lvK (hostK m) _ _ rfl c

include hA0 in
/-- The arguments end as launched: the first two are read by region 0 through input windows, which never change their
    arrays, and bypass region 1; the third bypasses both regions; the reshape writes none of them. -/
theorem W3_main_arg0 (c : Dev nD) : W3 dat0 dat1 m c (Proc.devRef .tc main_arg0) = m ((c : Thread nD τ).loc main_arg0) :=
  calc W3 dat0 dat1 m c (Proc.devRef .tc main_arg0)
    _ = W2 dat0 m c (Proc.devRef .tc main_arg0) := W3_of_ne dat0 dat1 m c main_arg0 (by decide)
    _ = Vin0 m c main_arg0 := (W2_arr dat0 m c 0).trans (((dat0 (Vin0 m) c).arrAt_in 0 rfl _).trans (hA0 (Vin0 m) c 0))
    _ = m ((c : Thread nD τ).loc main_arg0) := Vin0_main_arg0 m c
include hA0 in
theorem W3_main_arg1 (c : Dev nD) : W3 dat0 dat1 m c (Proc.devRef .tc main_arg1) = m ((c : Thread nD τ).loc main_arg1) :=
  calc W3 dat0 dat1 m c (Proc.devRef .tc main_arg1)
    _ = W2 dat0 m c (Proc.devRef .tc main_arg1) := W3_of_ne dat0 dat1 m c main_arg1 (by decide)
    _ = Vin0 m c main_arg1 := (W2_arr dat0 m c 1).trans (((dat0 (Vin0 m) c).arrAt_in 1 rfl _).trans (hA0 (Vin0 m) c 1))
    _ = m ((c : Thread nD τ).loc main_arg1) := Vin0_main_arg1 m c
theorem W3_main_arg2 (c : Dev nD) : W3 dat0 dat1 m c (Proc.devRef .tc main_arg2) = m ((c : Thread nD τ).loc main_arg2) :=
  calc W3 dat0 dat1 m c (Proc.devRef .tc main_arg2)
    _ = W2 dat0 m c (Proc.devRef .tc main_arg2) := W3_of_ne dat0 dat1 m c main_arg2 (by decide)
    _ = W1 m c (Proc.devRef .tc main_arg2) := W2_of_ne dat0 m c main_arg2 (by decide)
    _ = m ((c : Thread nD τ).loc main_arg2) := Vin0_main_arg2 m c

include hA0 hA1 hq0 hq1 ho0 ho1 hrec0 hrec1 hin0 hout0 hin1 hout1 hb0 hb1 in
set_option backward.isDefEq.respectTransparency.types false in
/-- **The kernel program's run.** From any memory with zero counters, every weakly fair execution terminates with the result
    buffer at what region 1's write-backs leave in its output array (window 2), and the three arguments as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v0) = (dat1 (Vin1 dat0 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdatsK dat0 dat1 m) () cellOf_inj emb₁ defs₀ Variants.none LK lvK m ρ main
    (ksegs dat0 dat1 m hA0 hA1 hq0 hq1 ho0 ho1 hrec0 hrec1 hin0 hout0 hin1 hout1 hb0 hb1)
    (fun c Q => by rw [main_run dat0 dat1 m hA0 hA1 hq0 hq1 ho0 ho1 hrec0 hrec1 hin0 hout0 hin1 hout1 hb0 hb1 c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RK c)) (Tₙ := TnK dat0 dat1 m)
    (hch := ⟨fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (W3 dat0 dat1 m c) s')
      isplitl [Hh] <;> iassumption)
    (hQ := fun s h c =>
      ⟨(h c _ (mem_ucK main_v0 (by decide))).trans (W3_arr dat0 dat1 m c 2),
       (h c _ (mem_ucK main_arg0 (by decide))).trans (W3_main_arg0 dat0 dat1 m hA0 c),
       (h c _ (mem_ucK main_arg1 (by decide))).trans (W3_main_arg1 dat0 dat1 m hA0 c),
       (h c _ (mem_ucK main_arg2 (by decide))).trans (W3_main_arg2 dat0 dat1 m c)⟩)

end Main

end Cert.KBProof
-- ==== Proof.BKInst.lean ====
/-
  The launch plumbing at the two regions' proof data. Region 0's data keeps as its invariant the accumulator's scratch
  buffer at the running row sums of the points before (at anything before the first point and after the last) beside
  the other scoped buffers no window stages at anything; region 1's keeps exactly those scoped buffers. Both read their
  arrays off the entry contents, hold them whole, owe nothing and bound no recorded pair. So every weakly fair execution
  of the program terminates with the result buffer at what region 1's write-backs leave in its output array and the
  three arguments as launched (`kernel_run_inst`), in particular with the arguments as launched (`kernel_frame`).
-/
import proofs.«131931_g34385508171941_cont_8to1_b_261_19_alg».proof.Proof.BSum0Body
import proofs.«131931_g34385508171941_cont_8to1_b_261_19_alg».proof.Proof.BOut1
import proofs.«131931_g34385508171941_cont_8to1_b_261_19_alg».proof.Proof.BKMain

noncomputable section

namespace Cert.KBProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Region 0's proof data at entry contents `V`. -/
abbrev kd0 : KVal F → (c : Dev nD) → Dat τ (Elt F) Unit ℕ (UR sig nD τ) ℕ cfg0 c := fun V c => dat0 V c
/-- Region 1's proof data at entry contents `V`. -/
abbrev kd1 : KVal F → (c : Dev nD) → Dat τ (Elt F) Unit ℕ (UR sig nD τ) ℕ cfg1 c := fun V c => dats1 c (V c)

/-- Both read their arrays off the entry contents, -/
theorem kA0 (V : KVal F) (c : Dev nD) (w : Fin cfg0.W) : (kd0 V c).A w = V c (Pipeline.arrRef spec0 w) := A_eq0 V c w
theorem kA1 (V : KVal F) (c : Dev nD) (w : Fin cfg1.W) : (kd1 V c).A w = V c (Pipeline.arrRef spec1 w) := rfl
/-- hold them whole, -/
theorem kq0 (V : KVal F) (c : Dev nD) (w : Fin cfg0.W) : (kd0 V c).q w = fullShare := rfl
theorem kq1 (V : KVal F) (c : Dev nD) (w : Fin cfg1.W) : (kd1 V c).q w = fullShare := rfl
/-- owe nothing at any point, -/
theorem ko0 (V : KVal F) (c : Dev nD) (t : Fin (cfg0.N + 1)) : (kd0 V c).owed t = 0 := rfl
theorem ko1 (V : KVal F) (c : Dev nD) (t : Fin (cfg1.N + 1)) : (kd1 V c).owed t = 0 := rfl
/-- and bound no recorded pair. -/
theorem krec0 (V : KVal F) (c : Dev nD) (t : Fin (cfg0.N + 1)) : (kd0 V c).recorded t = Set.univ := rfl
theorem krec1 (V : KVal F) (c : Dev nD) (t : Fin (cfg1.N + 1)) : (kd1 V c).recorded t = Set.univ := rfl

/-- Region 0's invariant before the first point is made of the scoped buffers no window stages: the accumulator's
    scratch buffer at whatever it holds (before the first point nothing is claimed of it), the others as they are. -/
theorem kin0 (V : KVal F) (c : Dev nD) :
    (Pipeline.scopedRest (Ix := Unit) (Name := ℕ) (U := UR sig nD τ) (Lvl := ℕ) (Val := Elt F) spec0 c : sProp 𝕄) ⊢ (kd0 V c).Φ 0 := by
  rw [scopedRest0_eq]
  show _ ⊢ Phi0 V c 0
  unfold Phi0
  iintro ⟨⟨%f, H0⟩, Hrest⟩
  isplitl [H0]
  · iexists f; isplitr; · ipureintro; exact Or.inl rfl
    iexact H0
  iexact Hrest

/-- Region 0's invariant after the last point gives those scoped buffers back: what the accumulator's buffer holds
    is forgotten. -/
theorem kout0 (V : KVal F) (c : Dev nD) :
    (kd0 V c).Φ (Fin.last cfg0.N) ⊢ (Pipeline.scopedRest (Ix := Unit) (Name := ℕ) (U := UR sig nD τ) (Lvl := ℕ) (Val := Elt F) spec0 c : sProp 𝕄) := by
  rw [scopedRest0_eq]
  show Phi0 V c (Fin.last cfg0.N) ⊢ _
  unfold Phi0
  iintro ⟨⟨%f, -, H0⟩, Hrest⟩
  isplitl [H0]
  · iexists f; iexact H0
  iexact Hrest

/-- Region 1's invariant IS the scoped buffers no window stages, at every point. -/
theorem kin1 (V : KVal F) (c : Dev nD) :
    (Pipeline.scopedRest (Ix := Unit) (Name := ℕ) (U := UR sig nD τ) (Lvl := ℕ) (Val := Elt F) spec1 c : sProp 𝕄) ⊢ (kd1 V c).Φ 0 :=
  BI.Entails.refl _
theorem kout1 (V : KVal F) (c : Dev nD) :
    (kd1 V c).Φ (Fin.last cfg1.N) ⊢ (Pipeline.scopedRest (Ix := Unit) (Name := ℕ) (U := UR sig nD τ) (Lvl := ℕ) (Val := Elt F) spec1 c : sProp 𝕄) :=
  BI.Entails.refl _

/-- The body obligations. -/
theorem kb0 (V : KVal F) (c : Dev nD) : BodyObligationLoose (kd0 V c) (defs₀ (F := F)) Variants.none () Set.univ :=
  body_obligation0 V c
theorem kb1 (V : KVal F) (c : Dev nD) : BodyObligationLoose (kd1 V c) (defs₀ (F := F)) Variants.none () Set.univ :=
  body_obligation1 c (V c)

/-- **The kernel program's run at the two regions' proof data.** From any memory with zero counters, every weakly fair
    execution terminates with the result buffer at what region 1's write-backs leave in its output array (window 2), and
    the three arguments as launched. -/
theorem kernel_run_inst (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v0) = (kd1 (Vin1 kd0 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  kernel_run kd0 kd1 m kA0 kA1 kq0 kq1 ko0 ko1 krec0 krec1 kin0 kout0 kin1 kout1 kb0 kb1 ρ

/-- **The frame**: every weakly fair execution of the program terminates with the three arguments as launched. -/
theorem kernel_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (kernel_run_inst m ρ)

end Cert.KBProof
-- ==== Proof.SumConds.lean ====
/-
  The first kernel's three branch conditions as propositions of the grid point, decided over the grid: the accumulator is
  reset at the first point, a whole block's row sums are added at every point but the last, and at the last point the
  columns past the array's end are masked out of the row sums and the logarithm of the total is stored.
-/
import proofs.«131931_g34385508171941_cont_8to1_b_261_19_alg».proof.Proof.Gen.KernelIdeal.Launch
import proofs.«131931_g34385508171941_cont_8to1_b_261_19_alg».proof.Proof.Gen.KernelIdeal.Skeleton
import proofs.«131931_g34385508171941_cont_8to1_b_261_19_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator is reset: the point is the first. -/
abbrev cInit (i : grid0.Coords) : Prop :=
  (Scalar.cmpi .ne (Scalar.extui (Scalar.cmpi .eq (BitVec.ofNat 32 (i 0).val) 0#32)) 0#32) = 1#1
/-- A whole block is summed: the point is not the last. -/
abbrev cFull (i : grid0.Coords) : Prop :=
  (Scalar.cmpi .ne (Scalar.extui (Scalar.cmpi .slt (BitVec.ofNat 32 (i 0).val) 13#32)) 0#32) = 1#1
/-- The masked tail is summed and the logarithm stored: the point is the last. -/
abbrev cTail (i : grid0.Coords) : Prop := k0_cond3 i = 1#1

theorem hInit : ∀ t : Fin cfg0.N, cInit (grid0.coords t) ↔ t.val = 0 :=
  (by decide +kernel : ∀ t : Fin grid0.N, cInit (grid0.coords t) ↔ t.val = 0)
theorem hFull : ∀ t : Fin cfg0.N, cFull (grid0.coords t) ↔ t.val < 13 :=
  (by decide +kernel : ∀ t : Fin grid0.N, cFull (grid0.coords t) ↔ t.val < 13)
theorem hTail : ∀ t : Fin cfg0.N, cTail (grid0.coords t) ↔ t.val = 13 :=
  (by decide +kernel : ∀ t : Fin grid0.N, cTail (grid0.coords t) ↔ t.val = 13)

/-- Views through which the contents of the first kernel's output and scratch buffers are stated (the choice of buffer does
    not matter: only the shape and element type are read). -/
abbrev VO4 : View sig .tc .vmem S32x1 .f32 := (Memref.whole cc0_stg3_0 : Memref sig .tc .vmem S32x1 .f32).view
abbrev VO5 : View sig .tc .vmem S32x73728 .bf16 := (Memref.whole cc0_stg4_0 : Memref sig .tc .vmem S32x73728 .bf16).view
abbrev VS6 : View sig .tc .vmem S32x1 .f32 := (Memref.whole cc0_scratch0 : Memref sig .tc .vmem S32x1 .f32).view
abbrev VS7 : View sig .tc .vmem S1x73728 .f32 := (Memref.whole cc0_scratch1 : Memref sig .tc .vmem S1x73728 .f32).view

end Cert.KProof

end
-- ==== Proof.SumRunA.lean ====
/-
  The first kernel's body at the first point: the accumulator is reset to zero, the column terms are written to their
  scratch row, the narrowed scores to the scores' buffer, and the block's row sums are added to the (zero) accumulator; the
  normalisers' buffer is not touched.
-/
import proofs.«131931_g34385508171941_cont_8to1_b_261_19_alg».proof.Proof.SumConds

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the scores' buffer, the accumulator and the scratch row at the first point, with the
    proof that the body runs from whole buffers — the three inputs' at their blocks, the others at anything — to the
    continuation. -/
noncomputable def runA (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole)
    (hI : cInit i) (hF : cFull i) (hT : ¬cTail i)
    (x1 x2 : Vec F S32x73728 .f32) (x3 : Vec F S1x73728 .f32) (x4 : Vec F S32x1 .f32) :
    { L : List (View.Piece (Elt F) S32x73728 .bf16) × List (View.Piece (Elt F) S32x1 .f32) × List (View.Piece (Elt F) S1x73728 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ (∃ d, owns (c : Thread nD τ) a5 fullShare d)
            ∗ (∃ d, owns (c : Thread nD τ) a6 fullShare d) ∗ (∃ d, owns (c : Thread nD τ) a7 fullShare d)
            ∗ (iprop(owns (c : Thread nD τ) a1 fullShare x1 ∗ owns (c : Thread nD τ) a2 fullShare x2 ∗ owns (c : Thread nD τ) a3 fullShare x3
                ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__sum_kernel i a1 h1 a2 h2 a3 h3 a4 h4 a5 h5 a6 h6 a7 h7) K } := by
  refine ⟨(?_, ?_, ?_), fun E K => ?run⟩
  case run =>
    simp only [cc0__sum_kernel_eq_skeleton]; unfold cc0__sum_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h1.eq_unread hf1; obtain rfl := h2.eq_unread hf2; obtain rfl := h3.eq_unread hf3
    obtain rfl := h4.eq_unread hf4
    sl_exec (disch := first | exact hI | exact hF | exact hT)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.KProof

end
-- ==== Proof.SumRunB.lean ====
/-
  The first kernel's body at a point that is neither the first nor the last: the column terms are written to their scratch
  row, the narrowed scores to the scores' buffer, and the block's row sums are added to the accumulator the point before
  left; the normalisers' buffer is not touched.
-/
import proofs.«131931_g34385508171941_cont_8to1_b_261_19_alg».proof.Proof.SumConds

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the scores' buffer, the accumulator and the scratch row at a middle point, with the
    proof that the body runs from whole buffers — the three inputs' at their blocks, the accumulator at what the point
    before left, the others at anything — to the continuation. -/
noncomputable def runB (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole)
    (hI : ¬cInit i) (hF : cFull i) (hT : ¬cTail i)
    (x1 x2 : Vec F S32x73728 .f32) (x3 : Vec F S1x73728 .f32) (x4 xo6 : Vec F S32x1 .f32) :
    { L : List (View.Piece (Elt F) S32x73728 .bf16) × List (View.Piece (Elt F) S32x1 .f32) × List (View.Piece (Elt F) S1x73728 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ owns (c : Thread nD τ) a4 fullShare x4 ∗ (∃ d, owns (c : Thread nD τ) a5 fullShare d)
            ∗ owns (c : Thread nD τ) a6 fullShare xo6 ∗ (∃ d, owns (c : Thread nD τ) a7 fullShare d)
            ∗ (iprop(owns (c : Thread nD τ) a1 fullShare x1 ∗ owns (c : Thread nD τ) a2 fullShare x2 ∗ owns (c : Thread nD τ) a3 fullShare x3
                ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__sum_kernel i a1 h1 a2 h2 a3 h3 a4 h4 a5 h5 a6 h6 a7 h7) K } := by
  refine ⟨(?_, ?_, ?_), fun E K => ?run⟩
  case run =>
    simp only [cc0__sum_kernel_eq_skeleton]; unfold cc0__sum_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
    obtain rfl := h1.eq_unread hf1; obtain rfl := h2.eq_unread hf2; obtain rfl := h3.eq_unread hf3
    obtain rfl := h4.eq_unread hf4; obtain rfl := h6.eq_unread hf6
    sl_exec (disch := first | exact hI | exact hF | exact hT)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.KProof

end
-- ==== Proof.SumRunC.lean ====
/-
  The first kernel's body at the last point: the column terms are written to their scratch row, the narrowed scores to the
  scores' buffer, and the logarithm of the accumulator plus the block's row sums over the columns inside the array is stored
  to the normalisers' buffer; the accumulator is read, not written.
-/
import proofs.«131931_g34385508171941_cont_8to1_b_261_19_alg».proof.Proof.SumConds

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's stores leave in the normalisers' buffer, the scores' buffer and the scratch row at the last point, with
    the proof that the body runs from whole buffers — the three inputs' at their blocks, the accumulator at what the point
    before left, the others at anything — to the continuation. -/
noncomputable def runC (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole)
    (hI : ¬cInit i) (hF : ¬cFull i) (hT : cTail i)
    (x1 x2 : Vec F S32x73728 .f32) (x3 : Vec F S1x73728 .f32) (xo6 : Vec F S32x1 .f32) :
    { L : List (View.Piece (Elt F) S32x1 .f32) × List (View.Piece (Elt F) S32x73728 .bf16) × List (View.Piece (Elt F) S1x73728 .f32) //
      ∀ (E : Set ℕ) (K : PUnit → sProp 𝕄),
        iprop(owns (c : Thread nD τ) a1 fullShare x1 ∗ owns (c : Thread nD τ) a2 fullShare x2 ∗ owns (c : Thread nD τ) a3 fullShare x3
            ∗ (∃ d, owns (c : Thread nD τ) a4 fullShare d) ∗ (∃ d, owns (c : Thread nD τ) a5 fullShare d)
            ∗ owns (c : Thread nD τ) a6 fullShare xo6 ∗ (∃ d, owns (c : Thread nD τ) a7 fullShare d)
            ∗ (iprop(owns (c : Thread nD τ) a1 fullShare x1 ∗ owns (c : Thread nD τ) a2 fullShare x2 ∗ owns (c : Thread nD τ) a3 fullShare x3
                ∗ (∃ f, a4.view.loc (c : Thread nD τ) ↦[a4.view.set]{fullShare} a4.view.writes (Elt F) f L.1)
                ∗ (∃ f, a5.view.loc (c : Thread nD τ) ↦[a5.view.set]{fullShare} a5.view.writes (Elt F) f L.2.1)
                ∗ owns (c : Thread nD τ) a6 fullShare xo6
                ∗ (∃ f, a7.view.loc (c : Thread nD τ) ↦[a7.view.set]{fullShare} a7.view.writes (Elt F) f L.2.2)) -∗ K ⟨⟩))
          ⊢ wp frame (wpE (defs₀ (F := F)) Variants.none c none) E (cc0__sum_kernel i a1 h1 a2 h2 a3 h3 a4 h4 a5 h5 a6 h6 a7 h7) K } := by
  refine ⟨(?_, ?_, ?_), fun E K => ?run⟩
  case run =>
    simp only [cc0__sum_kernel_eq_skeleton]; unfold cc0__sum_kernel_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, Hk⟩
    obtain rfl := h1.eq_unread hf1; obtain rfl := h2.eq_unread hf2; obtain rfl := h3.eq_unread hf3
    obtain rfl := h6.eq_unread hf6
    sl_exec (disch := first | exact hI | exact hF | exact hT)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; iexact H4
    isplitl [H5]
    · iexists _; iexact H5
    isplitl [H6]
    · iexists _; isplitr; · ipureintro; exact h6.read_unread _
      iexact H6
    iexists _; iexact H7

end Cert.KProof

end
-- ==== Proof.SumPieces.lean ====
/-
  What the first kernel's body leaves in each buffer it stores to, in each of its three cases, as the body's named payloads of
  the blocks it loaded: the narrowed scores, the accumulator, the normalisers.
-/
import proofs.«131931_g34385508171941_cont_8to1_b_261_19_alg».proof.Proof.SumRunA
import proofs.«131931_g34385508171941_cont_8to1_b_261_19_alg».proof.Proof.SumRunB
import proofs.«131931_g34385508171941_cont_8to1_b_261_19_alg».proof.Proof.SumRunC
import Idealize.ShloMosaic.Lib.Pipeline.Value

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem zero2' : (![0, 0] : Fin 2 → Nat) = fun _ => 0 := funext fun a => by fin_cases a <;> rfl

/-- The scores' buffer after the first point: the pieces the body stored tile the block. -/
theorem coverA5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) (y : S32x73728.Idx) :
    ∃ pc ∈ (runA c i a1 h1 a2 h2 a3 h3 a4 h4 a5 h5 a6 h6 a7 h7 hI hF hT x1 x2 x3 x4).1.1, y ∈ pc.1.set :=
  View.cover_of_tiledL (runA c i a1 h1 a2 h2 a3 h3 a4 h4 a5 h5 a6 h6 a7 h7 hI hF hT x1 x2 x3 x4).1.1 S32x73728.size (by sl_kernel_rfl) y

/-- The block those pieces leave, read back over arbitrary prior contents. -/
def outA5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) : Vec F S32x73728 .bf16 :=
  VO5.read (Elt F) (VO5.writes (Elt F) VO5.junk (runA c i a1 h1 a2 h2 a3 h3 a4 h4 a5 h5 a6 h6 a7 h7 hI hF hT x1 x2 x3 x4).1.1)

/-- That block is the body's named payload of the blocks it loaded. -/
theorem outA5_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) :
    outA5 c i a1 h1 a2 h2 a3 h3 a4 h4 a5 h5 a6 h6 a7 h7 hI hF hT x1 x2 x3 x4 = k0_pay5 x1 (k0_pay3 x3) x2 := by
  unfold outA5
  rw [View.read_writes_eq_canon _ _ _ (coverA5 c i a1 h1 a2 h2 a3 h3 a4 h4 a5 h5 a6 h6 a7 h7 hI hF hT x1 x2 x3 x4)]
  unfold runA
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The accumulator after the first point: the pieces the body stored tile the block. -/
theorem coverA6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) (y : S32x1.Idx) :
    ∃ pc ∈ (runA c i a1 h1 a2 h2 a3 h3 a4 h4 a5 h5 a6 h6 a7 h7 hI hF hT x1 x2 x3 x4).1.2.1, y ∈ pc.1.set :=
  View.cover_of_tiledL (runA c i a1 h1 a2 h2 a3 h3 a4 h4 a5 h5 a6 h6 a7 h7 hI hF hT x1 x2 x3 x4).1.2.1 S32x1.size (by sl_kernel_rfl) y

/-- The block those pieces leave, read back over arbitrary prior contents. -/
def outA6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) : Vec F S32x1 .f32 :=
  VS6.read (Elt F) (VS6.writes (Elt F) VS6.junk (runA c i a1 h1 a2 h2 a3 h3 a4 h4 a5 h5 a6 h6 a7 h7 hI hF hT x1 x2 x3 x4).1.2.1)

/-- That block is the body's named payload of the blocks it loaded. -/
theorem outA6_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : cInit i) (hF : cFull i) (hT : ¬cTail i)
    (x1 x2 : Vec F S32x73728 .f32) (x3 : Vec F S1x73728 .f32) (x4 : Vec F S32x1 .f32) :
    outA6 c i a1 h1 a2 h2 a3 h3 a4 h4 a5 h5 a6 h6 a7 h7 hI hF hT x1 x2 x3 x4 = k0_pay7 x1 (k0_pay3 x3) x2 (k0_pay2 (F := F)) := by
  unfold outA6
  rw [View.read_writes_eq_canon _ _ _ (coverA6 c i a1 h1 a2 h2 a3 h3 a4 h4 a5 h5 a6 h6 a7 h7 hI hF hT x1 x2 x3 x4)]
  unfold runA
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The scores' buffer after a middle point: the pieces the body stored tile the block. -/
theorem coverB5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) (y : S32x73728.Idx) :
    ∃ pc ∈ (runB c i a1 h1 a2 h2 a3 h3 a4 h4 a5 h5 a6 h6 a7 h7 hI hF hT x1 x2 x3 x4 xo6).1.1, y ∈ pc.1.set :=
  View.cover_of_tiledL (runB c i a1 h1 a2 h2 a3 h3 a4 h4 a5 h5 a6 h6 a7 h7 hI hF hT x1 x2 x3 x4 xo6).1.1 S32x73728.size (by sl_kernel_rfl) y

/-- The block those pieces leave, read back over arbitrary prior contents. -/
def outB5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) : Vec F S32x73728 .bf16 :=
  VO5.read (Elt F) (VO5.writes (Elt F) VO5.junk (runB c i a1 h1 a2 h2 a3 h3 a4 h4 a5 h5 a6 h6 a7 h7 hI hF hT x1 x2 x3 x4 xo6).1.1)

/-- That block is the body's named payload of the blocks it loaded. -/
theorem outB5_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) :
    outB5 c i a1 h1 a2 h2 a3 h3 a4 h4 a5 h5 a6 h6 a7 h7 hI hF hT x1 x2 x3 x4 xo6 = k0_pay5 x1 (k0_pay3 x3) x2 := by
  unfold outB5
  rw [View.read_writes_eq_canon _ _ _ (coverB5 c i a1 h1 a2 h2 a3 h3 a4 h4 a5 h5 a6 h6 a7 h7 hI hF hT x1 x2 x3 x4 xo6)]
  unfold runB
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The accumulator after a middle point: the pieces the body stored tile the block. -/
theorem coverB6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) (y : S32x1.Idx) :
    ∃ pc ∈ (runB c i a1 h1 a2 h2 a3 h3 a4 h4 a5 h5 a6 h6 a7 h7 hI hF hT x1 x2 x3 x4 xo6).1.2.1, y ∈ pc.1.set :=
  View.cover_of_tiledL (runB c i a1 h1 a2 h2 a3 h3 a4 h4 a5 h5 a6 h6 a7 h7 hI hF hT x1 x2 x3 x4 xo6).1.2.1 S32x1.size (by sl_kernel_rfl) y

/-- The block those pieces leave, read back over arbitrary prior contents. -/
def outB6 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) : Vec F S32x1 .f32 :=
  VS6.read (Elt F) (VS6.writes (Elt F) VS6.junk (runB c i a1 h1 a2 h2 a3 h3 a4 h4 a5 h5 a6 h6 a7 h7 hI hF hT x1 x2 x3 x4 xo6).1.2.1)

/-- That block is the body's named payload of the blocks it loaded. -/
theorem outB6_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : cFull i) (hT : ¬cTail i)
    (x1 x2 : Vec F S32x73728 .f32) (x3 : Vec F S1x73728 .f32) (x4 xo6 : Vec F S32x1 .f32) :
    outB6 c i a1 h1 a2 h2 a3 h3 a4 h4 a5 h5 a6 h6 a7 h7 hI hF hT x1 x2 x3 x4 xo6 = k0_pay7 x1 (k0_pay3 x3) x2 xo6 := by
  unfold outB6
  rw [View.read_writes_eq_canon _ _ _ (coverB6 c i a1 h1 a2 h2 a3 h3 a4 h4 a5 h5 a6 h6 a7 h7 hI hF hT x1 x2 x3 x4 xo6)]
  unfold runB
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The normalisers' buffer after the last point: the pieces the body stored tile the block. -/
theorem coverC4 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) (y : S32x1.Idx) :
    ∃ pc ∈ (runC c i a1 h1 a2 h2 a3 h3 a4 h4 a5 h5 a6 h6 a7 h7 hI hF hT x1 x2 x3 xo6).1.1, y ∈ pc.1.set :=
  View.cover_of_tiledL (runC c i a1 h1 a2 h2 a3 h3 a4 h4 a5 h5 a6 h6 a7 h7 hI hF hT x1 x2 x3 xo6).1.1 S32x1.size (by sl_kernel_rfl) y

/-- The block those pieces leave, read back over arbitrary prior contents. -/
def outC4 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) : Vec F S32x1 .f32 :=
  VO4.read (Elt F) (VO4.writes (Elt F) VO4.junk (runC c i a1 h1 a2 h2 a3 h3 a4 h4 a5 h5 a6 h6 a7 h7 hI hF hT x1 x2 x3 xo6).1.1)

/-- That block is the body's named payload of the blocks it loaded. -/
theorem outC4_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) :
    outC4 c i a1 h1 a2 h2 a3 h3 a4 h4 a5 h5 a6 h6 a7 h7 hI hF hT x1 x2 x3 xo6 = k0_pay1 (BitVec.ofNat 32 (i 0).val) (k0_pay6 x1 (k0_pay3 x3) x2) xo6 := by
  unfold outC4
  rw [View.read_writes_eq_canon _ _ _ (coverC4 c i a1 h1 a2 h2 a3 h3 a4 h4 a5 h5 a6 h6 a7 h7 hI hF hT x1 x2 x3 xo6)]
  unfold runC
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

/-- The scores' buffer after the last point: the pieces the body stored tile the block. -/
theorem coverC5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) (y : S32x73728.Idx) :
    ∃ pc ∈ (runC c i a1 h1 a2 h2 a3 h3 a4 h4 a5 h5 a6 h6 a7 h7 hI hF hT x1 x2 x3 xo6).1.2.1, y ∈ pc.1.set :=
  View.cover_of_tiledL (runC c i a1 h1 a2 h2 a3 h3 a4 h4 a5 h5 a6 h6 a7 h7 hI hF hT x1 x2 x3 xo6).1.2.1 S32x73728.size (by sl_kernel_rfl) y

/-- The block those pieces leave, read back over arbitrary prior contents. -/
def outC5 (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) : Vec F S32x73728 .bf16 :=
  VO5.read (Elt F) (VO5.writes (Elt F) VO5.junk (runC c i a1 h1 a2 h2 a3 h3 a4 h4 a5 h5 a6 h6 a7 h7 hI hF hT x1 x2 x3 xo6).1.2.1)

/-- That block is the body's named payload of the blocks it loaded. -/
theorem outC5_eq (c : Dev nD) (i : grid0.Coords) (a1 : Memref sig .tc .vmem S32x73728 .f32) (h1 : a1.IsWhole) (a2 : Memref sig .tc .vmem S32x73728 .f32) (h2 : a2.IsWhole) (a3 : Memref sig .tc .vmem S1x73728 .f32) (h3 : a3.IsWhole) (a4 : Memref sig .tc .vmem S32x1 .f32) (h4 : a4.IsWhole) (a5 : Memref sig .tc .vmem S32x73728 .bf16) (h5 : a5.IsWhole) (a6 : Memref sig .tc .vmem S32x1 .f32) (h6 : a6.IsWhole) (a7 : Memref sig .tc .vmem S1x73728 .f32) (h7 : a7.IsWhole) (hI : ¬cInit i) (hF : ¬cFull i) (hT : cTail i)
    (x1 x2 : Vec F S32x73728 .f32) (x3 : Vec F S1x73728 .f32) (xo6 : Vec F S32x1 .f32) :
    outC5 c i a1 h1 a2 h2 a3 h3 a4 h4 a5 h5 a6 h6 a7 h7 hI hF hT x1 x2 x3 xo6 = k0_pay5 x1 (k0_pay3 x3) x2 := by
  unfold outC5
  rw [View.read_writes_eq_canon _ _ _ (coverC5 c i a1 h1 a2 h2 a3 h3 a4 h4 a5 h5 a6 h6 a7 h7 hI hF hT x1 x2 x3 xo6)]
  unfold runC
  dsimp only
  sl_unfold_words
  simp only [View.readAt_eq_ld, h1.read_unread, h2.read_unread, h3.read_unread, h4.read_unread, h6.read_unread,
    View.ld_unit_zero (S := S32x73728) zero2', View.ld_unit_zero (S := S1x73728) zero2', View.ld_unit_zero (S := S32x1) zero2',
    View.readCov_unit_zero a7.view (S := S1x73728) zero2', View.readCov_unit_zero a6.view (S := S32x1) zero2',
    View.canon_unit_zero (S := S32x73728) zero2', View.canon_unit_zero (S := S32x1) zero2', View.canon_cons_unit_zero (S := S32x1) zero2']

end Cert.KProof

end
-- ==== Proof.Sum0.lean ====
/-
  The first kernel region's proof data. At grid point t the kernel reads block t (73728 columns) of the logits, the mask and the
  uniform samples, writes the narrowed masked scores of that block, and carries in a scratch column the running row sums of the
  exponentials of the scores; at the last point, whose block overhangs the array's end, the columns past the end are left out of
  the sum and the logarithm of the total is written to the normalisers' column. The blocks are named with the part past the
  array's end filled with zeros; nothing that is written back or kept depends on that part.
-/
import proofs.«131931_g34385508171941_cont_8to1_b_261_19_alg».proof.Proof.SumPieces
import Idealize.ShloMosaic.Lib.Pipeline.Frame

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The kernel's variants: none. -/
abbrev 𝒱z : Variants := Variants.none

/-! ## The blocks -/

/-- The logits' block at point `t`: its part inside the array, -/
def ib0 (c : Dev nD) (t : Fin cfg0.N) : (win0_0.xblock (grid0.coords t)).Idx → Elt F .f32 :=
  (win0_0.blk t).view.read (Elt F) (V c main_arg0)
/-- the mask's, -/
def ib1 (c : Dev nD) (t : Fin cfg0.N) : (win0_1.xblock (grid0.coords t)).Idx → Elt F .f32 :=
  (win0_1.blk t).view.read (Elt F) (V c main_arg1)
/-- the uniform samples'. -/
def ib2 (c : Dev nD) (t : Fin cfg0.N) : (win0_2.xblock (grid0.coords t)).Idx → Elt F .f32 :=
  (win0_2.blk t).view.read (Elt F) (V c main_call0_v0)

/-- The same three filled out to whole blocks with zeros. -/
def bl0 (c : Dev nD) (t : Fin cfg0.N) : Vec F S32x73728 .f32 :=
  win0_0.fill (grid0.coords t) (fun _ => Scalar.ofBits .f32 0#32) (ib0 V c t)
def bl1 (c : Dev nD) (t : Fin cfg0.N) : Vec F S32x73728 .f32 :=
  win0_1.fill (grid0.coords t) (fun _ => Scalar.ofBits .f32 0#32) (ib1 V c t)
def bl2 (c : Dev nD) (t : Fin cfg0.N) : Vec F S1x73728 .f32 :=
  win0_2.fill (grid0.coords t) (fun _ => Scalar.ofBits .f32 0#32) (ib2 V c t)

/-- The narrowed masked scores of block `t`. -/
def sc (c : Dev nD) (t : Fin cfg0.N) : Vec F S32x73728 .bf16 := k0_pay5 (bl0 V c t) (k0_pay3 (bl2 V c t)) (bl1 V c t)

/-- The running row sums after point `n`: reset and added to at the first point, added to at each later one. -/
def accAt (c : Dev nD) : ℕ → Vec F S32x1 .f32
  | 0 => k0_pay7 (bl0 V c t0_0) (k0_pay3 (bl2 V c t0_0)) (bl1 V c t0_0) (k0_pay2 (F := F))
  | n + 1 => if h : n + 1 < cfg0.N then k0_pay7 (bl0 V c ⟨n + 1, h⟩) (k0_pay3 (bl2 V c ⟨n + 1, h⟩)) (bl1 V c ⟨n + 1, h⟩) (accAt c n) else accAt c n

/-- The normalisers: the logarithm of the running sums after point 12 plus the last block's row sums over the columns inside the array. -/
def lse (c : Dev nD) : Vec F S32x1 .f32 :=
  k0_pay1 13#32 (k0_pay6 (bl0 V c t0_13) (k0_pay3 (bl2 V c t0_13)) (bl1 V c t0_13)) (accAt V c 12)

/-! ## The proof data -/

/-- The scratch accumulator holds the running sums of the points before (anything before the first point and after the last); the scratch row and the
    other region's staging buffers hold anything. -/
def Phi0 (c : Dev nD) (t : Fin (cfg0.N + 1)) : sProp 𝕄 :=
  iprop((∃ f : Buf (Elt F) ((c : Thread nD τ).loc cc0_scratch0), ⌜t.val = 0 ∨ t.val = 14 ∨ f = accAt V c (t.val - 1)⌝ ∗ (((c : Thread nD τ).loc cc0_scratch0) ↦{fullShare} f))
    ∗ (∃ f : Buf (Elt F) ((c : Thread nD τ).loc cc0_scratch1), ((c : Thread nD τ).loc cc0_scratch1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The first region's proof data on core `c`: the arrays as the region finds them; after the body the inputs' buffers at their
    blocks, the normalisers' at `lse`, the scores' at `sc`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => bl0 V c t
    | ⟨1, _⟩ => bl1 V c t
    | ⟨2, _⟩ => bl2 V c t
    | ⟨3, _⟩ => lse V c
    | ⟨4, _⟩ => sc V c t
  Φ t := Phi0 V c t
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = bl0 V c t := by dsimp only [dat0]
theorem after0_1 (c : Dev nD) (t : Fin cfg0.N) : (dat0 V c).after 1 t = bl1 V c t := by dsimp only [dat0]
theorem after0_2 (c : Dev nD) (t : Fin cfg0.N) : (dat0 V c).after 2 t = bl2 V c t := by dsimp only [dat0]
theorem after0_3 (c : Dev nD) (t : Fin cfg0.N) : (dat0 V c).after 3 t = lse V c := by dsimp only [dat0]
theorem after0_4 (c : Dev nD) (t : Fin cfg0.N) : (dat0 V c).after 4 t = sc V c t := by dsimp only [dat0]

/-! ## The schedule's facts, decided over the grid -/

/-- Before the last point no block overhangs the array: the transfers move whole blocks. -/
theorem noclip0 : ∀ t : Fin cfg0.N, t.val < 13 → ∀ a, (cfg0.win 0).clip (cfg0.grid.coords t) a = none :=
  (by decide +kernel : ∀ t : Fin grid0.N, t.val < 13 → ∀ a, win0_0.clip (grid0.coords t) a = none)
theorem noclip1 : ∀ t : Fin cfg0.N, t.val < 13 → ∀ a, (cfg0.win 1).clip (cfg0.grid.coords t) a = none :=
  (by decide +kernel : ∀ t : Fin grid0.N, t.val < 13 → ∀ a, win0_1.clip (grid0.coords t) a = none)
theorem noclip2 : ∀ t : Fin cfg0.N, t.val < 13 → ∀ a, (cfg0.win 2).clip (cfg0.grid.coords t) a = none :=
  (by decide +kernel : ∀ t : Fin grid0.N, t.val < 13 → ∀ a, win0_2.clip (grid0.coords t) a = none)
/-- A window's cuts are a function of its block index. -/
theorem clipfun0 : ∀ t t' : Fin cfg0.N, (cfg0.win 0).index t = (cfg0.win 0).index t' → (cfg0.win 0).clip (cfg0.grid.coords t) = (cfg0.win 0).clip (cfg0.grid.coords t') :=
  (by decide +kernel : ∀ t t' : Fin grid0.N, win0_0.index t = win0_0.index t' → win0_0.clip (grid0.coords t) = win0_0.clip (grid0.coords t'))
theorem clipfun1 : ∀ t t' : Fin cfg0.N, (cfg0.win 1).index t = (cfg0.win 1).index t' → (cfg0.win 1).clip (cfg0.grid.coords t) = (cfg0.win 1).clip (cfg0.grid.coords t') :=
  (by decide +kernel : ∀ t t' : Fin grid0.N, win0_1.index t = win0_1.index t' → win0_1.clip (grid0.coords t) = win0_1.clip (grid0.coords t'))
theorem clipfun2 : ∀ t t' : Fin cfg0.N, (cfg0.win 2).index t = (cfg0.win 2).index t' → (cfg0.win 2).clip (cfg0.grid.coords t) = (cfg0.win 2).clip (cfg0.grid.coords t') :=
  (by decide +kernel : ∀ t t' : Fin grid0.N, win0_2.index t = win0_2.index t' → win0_2.clip (grid0.coords t) = win0_2.clip (grid0.coords t'))
/-- The normalisers' window is idle at every point but the last. -/
theorem idle3 : ∀ t : Fin cfg0.N, cfg0.idle 3 (cfg0.grid.coords t) = decide (t.val ≠ 13) :=
  (by decide +kernel : ∀ t : Fin grid0.N, idle0 3 (grid0.coords t) = decide (t.val ≠ 13))

/-! ## What the body finds -/

/-- Each input's buffer holds its block, filled out past the array's end with what the buffer held. -/
theorem before0_0 (c : Dev nD) (t : Fin cfg0.N) (d) : (dat0 V c).before 0 t d = win0_0.fill (grid0.coords t) d (ib0 V c t) :=
  ((dat0 V c).before_in_eq_fetched 0 rfl (fun _ => rfl) clipfun0 (fun t => by rw [after0_0]; exact win0_0.cut_fill _ _ _) t d).trans
    (by unfold Dat.fetched Dat.blockOf ib0; dsimp only [dat0])
theorem before0_1 (c : Dev nD) (t : Fin cfg0.N) (d) : (dat0 V c).before 1 t d = win0_1.fill (grid0.coords t) d (ib1 V c t) :=
  ((dat0 V c).before_in_eq_fetched 1 rfl (fun _ => rfl) clipfun1 (fun t => by rw [after0_1]; exact win0_1.cut_fill _ _ _) t d).trans
    (by unfold Dat.fetched Dat.blockOf ib1; dsimp only [dat0])
theorem before0_2 (c : Dev nD) (t : Fin cfg0.N) (d) : (dat0 V c).before 2 t d = win0_2.fill (grid0.coords t) d (ib2 V c t) :=
  ((dat0 V c).before_in_eq_fetched 2 rfl (fun _ => rfl) clipfun2 (fun t => by rw [after0_2]; exact win0_2.cut_fill _ _ _) t d).trans
    (by unfold Dat.fetched Dat.blockOf ib2; dsimp only [dat0])

/-- Before the last point that is the whole block. -/
theorem before0_0_lt (c : Dev nD) (t : Fin cfg0.N) (ht : t.val < 13) (d) : (dat0 V c).before 0 t d = bl0 V c t := by
  rw [before0_0]; exact Pipeline.fill_of_clip_none (cfg := cfg0) 0 _ (noclip0 t ht) _ _ _
theorem before0_1_lt (c : Dev nD) (t : Fin cfg0.N) (ht : t.val < 13) (d) : (dat0 V c).before 1 t d = bl1 V c t := by
  rw [before0_1]; exact Pipeline.fill_of_clip_none (cfg := cfg0) 1 _ (noclip1 t ht) _ _ _
theorem before0_2_lt (c : Dev nD) (t : Fin cfg0.N) (ht : t.val < 13) (d) : (dat0 V c).before 2 t d = bl2 V c t := by
  rw [before0_2]; exact Pipeline.fill_of_clip_none (cfg := cfg0) 2 _ (noclip2 t ht) _ _ _

/-- The scores' buffer, written back at every point, holds anything. -/
theorem before0_4 (c : Dev nD) (t : Fin cfg0.N) (d) : (dat0 V c).before 4 t d = d :=
  (dat0 V c).before_out_reset 4 rfl t (by
    by_cases h : t.val = 0
    · exact .inl h
    · exact .inr ⟨h, flush0_4 _⟩) d

/-- The normalisers' buffer, stored to at the last point only and written back there only, holds anything. -/
theorem before0_3 (c : Dev nD) : ∀ (n : ℕ) (hn : n < cfg0.N) (d), (dat0 V c).before 3 ⟨n, hn⟩ d = d
  | 0, hn, d => (dat0 V c).before_out_reset 3 rfl ⟨0, hn⟩ (.inl rfl) d
  | n + 1, hn, d => by
    have hN : n + 1 < 14 := lt_of_lt_of_eq hn N_0
    rw [(dat0 V c).before_of_pos 3 ⟨n + 1, hn⟩ (Nat.succ_ne_zero n) ((cfg0.win 3).fetch_out rfl _)]
    have hfl : (cfg0.win 3).flush ⟨n + 1 - 1, Nat.lt_of_le_of_lt (Nat.sub_le _ _) hn⟩ = false := by
      rw [Bool.eq_false_iff]; intro h; have := (flush0_3 _).mp h; dsimp only at this; omega
    rw [hfl, if_neg Bool.false_ne_true]
    unfold Dat.left
    have hid : cfg0.idle 3 (cfg0.grid.coords ⟨n + 1 - 1, Nat.lt_of_le_of_lt (Nat.sub_le _ _) hn⟩) = true := by
      rw [idle3]; exact decide_eq_true (by dsimp only; omega)
    rw [hid]
    exact before0_3 c (n + 1 - 1) _ d

end Cert.KProof

end
-- ==== Proof.KPay.lean ====
/-
  The kernel's payloads read at an index, at the ideal float values: each pure value the two kernel functions
  store, as a formula of the values they loaded, entry by entry.

  First kernel (one step of the grid handles a block of 73728 columns of the 32 rows):
  • the Gumbel row `-log (-log (u + ε) + ε)` of the block's uniform samples (the kernel writes `-x` as `0 - x`);
  • the masked, perturbed logits `x + g + log (mask + ε')` of the block, their bf16 copy (a change of format is the
    identity on the extended reals) and their exponentials;
  • the running row sums: the accumulator column plus the sum of the block's exponentials along each row;
  • at the last step (block 13, whose columns from `1000000 - 13 · 73728` on lie beyond the array's end): the
    logarithm of the accumulator plus the sum of the block's exponentials over the columns INSIDE the array — the
    kernel selects by comparing the column's number `13 · 73728 + q` with `1000000` as signed 32-bit words, and for
    two words below `2^31` the signed comparison is the comparison of the numbers.
  Second kernel: each entry of the stored block minus its row's entry of the column.

  Also here, for every float instance: the stored bf16 block and the second kernel's block at an index depend only
  on the loaded blocks AT THAT INDEX (and on the row and column vectors), the congruences a reading of blocks that
  overhang the array's end needs.
-/
import proofs.«131931_g34385508171941_cont_8to1_b_261_19_alg».proof.Proof.Gen.KernelIdeal.Skeleton
import proofs.«131931_g34385508171941_cont_8to1_b_261_19_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KPay

open Cert.KernelIdeal Cert.KernelIdeal.Gen Idealize.ShloMosaic Idealize.ShloMosaic.ValueIdx
open scoped BigOperators

/-! ## The first kernel's elementwise payloads -/

/-- The Gumbel row at column `q` of the block: `-log (-log (u + ε) + ε)` with `ε` the f32 pattern `0x1E3CE508`. -/
theorem pay3_apply (v3 : Vec Ideal S1x73728 .f32) (q : Fin 73728) :
    k0_pay3 (F := Ideal) v3 (ix2 0 q)
      = -Ideal.log (-Ideal.log (v3 (ix2 0 q) + Ideal.ofBits .f32 0x1E3CE508#32) + Ideal.ofBits .f32 0x1E3CE508#32) := by
  unfold k0_pay3
  simp only [shapeCast_self]
  show Ideal.ofBits .f32 0x00000000#32 - Ideal.log (Ideal.ofBits .f32 0x00000000#32
      - Ideal.log (v3 (ix2 0 q) + Ideal.ofBits .f32 0x1E3CE508#32) + Ideal.ofBits .f32 0x1E3CE508#32) = _
  rw [Ideal.ofBits_zero_f32, zero_sub, zero_sub]

/-- The masked, perturbed logit at (r, q) of the block: the logit plus the Gumbel row's entry plus the logarithm
    of the mask entry shifted by the f32 pattern `0x00000001`. -/
theorem pay4_apply (v18 v22 : Vec Ideal S32x73728 .f32) (v19 : Vec Ideal S1x73728 .f32) (r : Fin 32) (q : Fin 73728) :
    k0_pay4 (F := Ideal) v18 v19 v22 (ix2 r q)
      = v18 (ix2 r q) + v19 (ix2 0 q) + Ideal.log (v22 (ix2 r q) + Ideal.ofBits .f32 0x00000001#32) := by
  unfold k0_pay4
  show v18 (ix2 r q) + broadcastTo S32x73728 v19 broadcasts_S1x73728_S32x73728 (ix2 r q)
      + Ideal.log (v22 (ix2 r q) + Ideal.ofBits .f32 0x00000001#32) = _
  rw [broadcastTo_1b_ab_apply]

/-- The stored bf16 copy is the f32 value: a change of format is the identity on the extended reals. -/
theorem pay5_apply (v18 v22 : Vec Ideal S32x73728 .f32) (v19 : Vec Ideal S1x73728 .f32) (r : Fin 32) (q : Fin 73728) :
    k0_pay5 (F := Ideal) v18 v19 v22 (ix2 r q) = k0_pay4 (F := Ideal) v18 v19 v22 (ix2 r q) := rfl

/-- The exponentials of the block. -/
theorem pay6_apply (v18 v22 : Vec Ideal S32x73728 .f32) (v19 : Vec Ideal S1x73728 .f32) (r : Fin 32) (q : Fin 73728) :
    k0_pay6 (F := Ideal) v18 v19 v22 (ix2 r q) = Ideal.exp (k0_pay4 (F := Ideal) v18 v19 v22 (ix2 r q)) := rfl

/-- The running row sum at row `r`: the accumulator's entry plus the sum of the block's exponentials along the row. -/
theorem pay7_apply (v18 v22 : Vec Ideal S32x73728 .f32) (v19 : Vec Ideal S1x73728 .f32) (v36 : Vec Ideal S32x1 .f32)
    (r : Fin 32) :
    k0_pay7 (F := Ideal) v18 v19 v22 v36 (ix2 r 0)
      = v36 (ix2 r 0) + ∑ q : Fin 73728, Ideal.exp (k0_pay4 (F := Ideal) v18 v19 v22 (ix2 r q)) := by
  unfold k0_pay7
  simp only [shapeCast_self]
  show v36 (ix2 r 0) + shapeCast S32x1 (multiReduction (F := Ideal) .add [1] S32 (k0_pay6 (F := Ideal) v18 v19 v22)
      0x00000000#32 reduces_S32x73728_S32 (.inl rfl) rfl) shapeCasts_S32_S32x1 (ix2 r 0) = _
  rw [Cert.Attn.Layout.shapeCast_a_a1_apply]
  exact congrArg (v36 (ix2 r 0) + ·)
    (Cert.Attn.Layout.rowSum_apply (k0_pay6 (F := Ideal) v18 v19 v22) reduces_S32x73728_S32 (.inl rfl) rfl r)

/-! ## The last step: the columns inside the array -/

/-- For two naturals below `2^31` the signed comparison of their 32-bit words is the comparison of the numbers:
    both words have a clear sign bit, so each is its own signed value. -/
theorem slt_small (a b : ℕ) (ha : a < 2147483648) (hb : b < 2147483648) :
    (BitVec.ofNat 32 a).slt (BitVec.ofNat 32 b) = decide (a < b) := by
  unfold BitVec.slt
  rw [decide_eq_decide, BitVec.toInt_eq_toNat_cond, BitVec.toInt_eq_toNat_cond, BitVec.toNat_ofNat, BitVec.toNat_ofNat]
  have h1 : a % 2 ^ 32 = a := Nat.mod_eq_of_lt (by omega)
  have h2 : b % 2 ^ 32 = b := Nat.mod_eq_of_lt (by omega)
  rw [h1, h2]
  split_ifs <;> omega

/-- The last block's exponentials with the columns beyond the array's end replaced by zero: the select on
    "column number `13 · 73728 + q` is below `1000000`", as the kernel computes it. -/
def sel13 (v29 : FVec Ideal S32x73728 .f32) : FVec Ideal S32x73728 .f32 :=
  select (cmpi .slt (addi (broadcast S32x73728 (Scalar.muli 13#32 73728#32))
      (iota .tc S32x73728 32 [1] iota_S32x73728_d1_w32)) (broadcast S32x73728 1000000#32))
    v29 (broadcast S32x73728 (Scalar.ofBits (F := Ideal) .f32 0x00000000#32))

/-- That select at (r, q): the exponential when column `958464 + q` is inside the array, zero beyond. -/
theorem sel13_apply (v29 : FVec Ideal S32x73728 .f32) (r : Fin 32) (q : Fin 73728) :
    sel13 v29 (ix2 r q) = if 958464 + q.val < 1000000 then v29 (ix2 r q) else 0 := by
  have hio : iota .tc S32x73728 32 [1] iota_S32x73728_d1_w32 (ix2 r q) = BitVec.ofNat 32 q.val :=
    iota_single_apply .tc S32x73728 32 1 iota_S32x73728_d1_w32 (ix2 r q)
  have hw : IntOp.addi (Scalar.muli 13#32 73728#32) (BitVec.ofNat 32 q.val) = BitVec.ofNat 32 (958464 + q.val) := by
    show (13#32 * 73728#32 : BitVec 32) + BitVec.ofNat 32 q.val = _
    rw [show (13#32 * 73728#32 : BitVec 32) = BitVec.ofNat 32 958464 by decide, BitVec.ofNat_add]
  have hq : q.val < 73728 := q.isLt
  show Scalar.select (IntOp.cmpi .slt (IntOp.addi (Scalar.muli 13#32 73728#32)
      (iota .tc S32x73728 32 [1] iota_S32x73728_d1_w32 (ix2 r q))) 1000000#32) (v29 (ix2 r q))
      (Ideal.ofBits .f32 0x00000000#32) = _
  rw [hio, hw, Ideal.ofBits_zero_f32]
  show (if BitVec.ofBool ((BitVec.ofNat 32 (958464 + q.val)).slt (BitVec.ofNat 32 1000000)) = 1 then v29 (ix2 r q) else 0) = _
  rw [slt_small _ _ (by omega) (by norm_num)]
  by_cases h : 958464 + q.val < 1000000
  · rw [if_pos h, decide_eq_true h, if_pos (by decide : BitVec.ofBool true = 1)]
  · rw [if_neg h, decide_eq_false h, if_neg (by decide : ¬ BitVec.ofBool false = 1)]

/-- **The last step's row statistic at row `r`**: the logarithm of the accumulator's entry plus the sum, along the
    row, of the block's exponentials over the columns inside the array. -/
theorem pay1_apply (v29 : FVec Ideal S32x73728 .f32) (v44 : Vec Ideal S32x1 .f32) (r : Fin 32) :
    k0_pay1 (F := Ideal) (13#32) v29 v44 (ix2 r 0)
      = Ideal.log (v44 (ix2 r 0) + ∑ q : Fin 73728, if 958464 + q.val < 1000000 then v29 (ix2 r q) else 0) := by
  unfold k0_pay1
  show Ideal.log (v44 (ix2 r 0) + shapeCast S32x1 (multiReduction (F := Ideal) .add [1] S32 (sel13 v29)
      0x00000000#32 reduces_S32x73728_S32 (.inl rfl) rfl) shapeCasts_S32_S32x1 (ix2 r 0)) = _
  rw [Cert.Attn.Layout.shapeCast_a_a1_apply,
    Cert.Attn.Layout.rowSum_apply (sel13 v29) reduces_S32x73728_S32 (.inl rfl) rfl r]
  exact congrArg (fun s => Ideal.log (v44 (ix2 r 0) + s)) (Finset.sum_congr rfl fun q _ => sel13_apply v29 r q)

/-! ## The second kernel -/

/-- The second kernel's block at (r, q): the stored entry minus the row's entry of the column. -/
theorem pay_out_apply (X0 : Vec Ideal S32x131072 .bf16) (X1 : Vec Ideal S32x1 .f32) (r : Fin 32) (q : Fin 131072) :
    k1_pay1 (F := Ideal) X0 X1 (ix2 r q) = X0 (ix2 r q) - X1 (ix2 r 0) := by
  unfold k1_pay1
  simp only [shapeCast_self]
  show X0 (ix2 r q) - broadcastTo S32x131072 X1 broadcasts_S32x1_S32x131072 (ix2 r q) = _
  rw [Cert.Attn.Layout.broadcastTo_a1_ab_apply]

/-! ## The payloads at an index depend on the loaded blocks at that index only -/

section Generic
variable {F : FTy → Type} [FloatOps F]

/-- For every float instance: the masked logits at `j` depend on the two loaded blocks only through their
    entries at `j`. -/
theorem k0_pay4_congr (v18 v18' v22 v22' : Vec F S32x73728 .f32) (v19 : Vec F S1x73728 .f32) (j : S32x73728.Idx)
    (h18 : v18 j = v18' j) (h22 : v22 j = v22' j) : k0_pay4 v18 v19 v22 j = k0_pay4 v18' v19 v22' j := by
  unfold k0_pay4
  simp only [addf, Idealize.ShloMosaic.log]
  rw [h18, h22]

/-- For every float instance: the stored bf16 block at `j` depends on the two loaded blocks only through their
    entries at `j`. -/
theorem k0_pay5_congr (v18 v18' v22 v22' : Vec F S32x73728 .f32) (v19 : Vec F S1x73728 .f32) (j : S32x73728.Idx)
    (h18 : v18 j = v18' j) (h22 : v22 j = v22' j) : k0_pay5 v18 v19 v22 j = k0_pay5 v18' v19 v22' j := by
  unfold k0_pay5
  simp only [truncf]
  rw [k0_pay4_congr v18 v18' v22 v22' v19 j h18 h22]

/-- For every float instance: the second kernel's block at `j` depends on the loaded block only through its
    entry at `j`. -/
theorem k1_pay1_congr (X0 X0' : Vec F S32x131072 .bf16) (X1 : Vec F S32x1 .f32) (j : S32x131072.Idx)
    (h0 : X0 j = X0' j) : k1_pay1 X0 X1 j = k1_pay1 X0' X1 j := by
  unfold k1_pay1
  simp only [shapeCast_self, subf, extf]
  rw [h0]

end Generic

end Cert.KPay
-- ==== Proof.KCongr.lean ====
/-
  What the first kernel writes back depends on the loaded blocks only where it should.

  The last step of the grid handles block 13 of 73728 columns, and the array has 1000000 columns, so the block's
  columns q with 13 · 73728 + q ≥ 1000000 (that is q ≥ 41536) lie beyond the array's end: whatever the loaded blocks
  hold there is arbitrary. This file shows, for EVERY float instance, that
  • each elementwise payload (the Gumbel row, the masked perturbed logits, their bf16 copy, their exponentials) at an
    index depends on the loaded blocks only through their entries at that index (and, for the row vector that is
    broadcast over the 32 rows, through its entry at that column);
  • the last step's row statistic — the logarithm of the accumulator plus the row sums of the block's exponentials
    with the columns beyond the end replaced by zero — depends on the exponentials only through the columns inside the
    array: the select's condition "13 · 73728 + q < 1000000" is a vector of integer words, the same for every float
    instance, and where it is false the select takes the constant zero whatever the block holds.
-/
import proofs.«131931_g34385508171941_cont_8to1_b_261_19_alg».proof.Proof.KPay

noncomputable section

namespace Cert.KCongr

open Cert.KernelIdeal Cert.KernelIdeal.Gen Idealize.ShloMosaic Idealize.ShloMosaic.ValueIdx

variable {F : FTy → Type} [FloatOps F]

/-! ## The elementwise payloads at an index -/

/-- The Gumbel row at `j` depends on the loaded row of uniform samples only through its entry at `j`: every
    operation in `-log (-log (u + ε) + ε)` is pointwise. -/
theorem pay3_congr (v3 v3' : Vec F S1x73728 .f32) (j : S1x73728.Idx) (h : v3 j = v3' j) :
    k0_pay3 v3 j = k0_pay3 v3' j := by
  unfold k0_pay3
  simp only [shapeCast_self, addf, subf, Idealize.ShloMosaic.log]
  rw [h]

/-- The masked, perturbed logit at (r, q) depends on the two loaded blocks only through their entries at (r, q) and on
    the row vector only through its entry at column q: the broadcast of the one row over the 32 rows reads (0, q). -/
theorem pay4_congr_ix (v18 v18' v22 v22' : Vec F S32x73728 .f32) (v19 v19' : Vec F S1x73728 .f32)
    (r : Fin 32) (q : Fin 73728)
    (h18 : v18 (ix2 r q) = v18' (ix2 r q)) (h22 : v22 (ix2 r q) = v22' (ix2 r q))
    (h19 : v19 (ix2 0 q) = v19' (ix2 0 q)) :
    k0_pay4 v18 v19 v22 (ix2 r q) = k0_pay4 v18' v19' v22' (ix2 r q) := by
  unfold k0_pay4
  simp only [addf, Idealize.ShloMosaic.log]
  rw [broadcastTo_1b_ab_apply, broadcastTo_1b_ab_apply, h18, h22, h19]

/-- The same at an arbitrary index `j`, whose column is `j 1`. -/
theorem pay4_congr (v18 v18' v22 v22' : Vec F S32x73728 .f32) (v19 v19' : Vec F S1x73728 .f32) (j : S32x73728.Idx)
    (h18 : v18 j = v18' j) (h22 : v22 j = v22' j) (h19 : v19 (ix2 0 (j 1)) = v19' (ix2 0 (j 1))) :
    k0_pay4 v18 v19 v22 j = k0_pay4 v18' v19' v22' j := by
  obtain ⟨r, q, rfl⟩ : ∃ (r : Fin 32) (q : Fin 73728), j = ix2 r q := ⟨j 0, j 1, eq_ix2 j⟩
  exact pay4_congr_ix v18 v18' v22 v22' v19 v19' r q h18 h22 h19

/-- The stored bf16 copy at (r, q): the change of format is pointwise. -/
theorem pay5_congr_ix (v18 v18' v22 v22' : Vec F S32x73728 .f32) (v19 v19' : Vec F S1x73728 .f32)
    (r : Fin 32) (q : Fin 73728)
    (h18 : v18 (ix2 r q) = v18' (ix2 r q)) (h22 : v22 (ix2 r q) = v22' (ix2 r q))
    (h19 : v19 (ix2 0 q) = v19' (ix2 0 q)) :
    k0_pay5 v18 v19 v22 (ix2 r q) = k0_pay5 v18' v19' v22' (ix2 r q) := by
  unfold k0_pay5
  simp only [truncf]
  rw [pay4_congr_ix v18 v18' v22 v22' v19 v19' r q h18 h22 h19]

/-- The stored bf16 copy at an arbitrary index. -/
theorem pay5_congr (v18 v18' v22 v22' : Vec F S32x73728 .f32) (v19 v19' : Vec F S1x73728 .f32) (j : S32x73728.Idx)
    (h18 : v18 j = v18' j) (h22 : v22 j = v22' j) (h19 : v19 (ix2 0 (j 1)) = v19' (ix2 0 (j 1))) :
    k0_pay5 v18 v19 v22 j = k0_pay5 v18' v19' v22' j := by
  obtain ⟨r, q, rfl⟩ : ∃ (r : Fin 32) (q : Fin 73728), j = ix2 r q := ⟨j 0, j 1, eq_ix2 j⟩
  exact pay5_congr_ix v18 v18' v22 v22' v19 v19' r q h18 h22 h19

/-- The exponentials at (r, q): the exponential is pointwise. -/
theorem pay6_congr_ix (v18 v18' v22 v22' : Vec F S32x73728 .f32) (v19 v19' : Vec F S1x73728 .f32)
    (r : Fin 32) (q : Fin 73728)
    (h18 : v18 (ix2 r q) = v18' (ix2 r q)) (h22 : v22 (ix2 r q) = v22' (ix2 r q))
    (h19 : v19 (ix2 0 q) = v19' (ix2 0 q)) :
    k0_pay6 v18 v19 v22 (ix2 r q) = k0_pay6 v18' v19' v22' (ix2 r q) := by
  unfold k0_pay6
  simp only [Idealize.ShloMosaic.exp]
  rw [pay4_congr_ix v18 v18' v22 v22' v19 v19' r q h18 h22 h19]

/-- The exponentials at an arbitrary index. -/
theorem pay6_congr (v18 v18' v22 v22' : Vec F S32x73728 .f32) (v19 v19' : Vec F S1x73728 .f32) (j : S32x73728.Idx)
    (h18 : v18 j = v18' j) (h22 : v22 j = v22' j) (h19 : v19 (ix2 0 (j 1)) = v19' (ix2 0 (j 1))) :
    k0_pay6 v18 v19 v22 j = k0_pay6 v18' v19' v22' j := by
  obtain ⟨r, q, rfl⟩ : ∃ (r : Fin 32) (q : Fin 73728), j = ix2 r q := ⟨j 0, j 1, eq_ix2 j⟩
  exact pay6_congr_ix v18 v18' v22 v22' v19 v19' r q h18 h22 h19

/-- **The stored bf16 block at (r, q)**, with the Gumbel row computed from the loaded row of uniform samples: it
    depends on the three loaded blocks only through the two entries at (r, q) and the sample at column q. -/
theorem sc_congr (x1 x1' x2 x2' : Vec F S32x73728 .f32) (x3 x3' : Vec F S1x73728 .f32) (r : Fin 32) (q : Fin 73728)
    (h1 : x1 (ix2 r q) = x1' (ix2 r q)) (h2 : x2 (ix2 r q) = x2' (ix2 r q)) (h3 : x3 (ix2 0 q) = x3' (ix2 0 q)) :
    k0_pay5 x1 (k0_pay3 x3) x2 (ix2 r q) = k0_pay5 x1' (k0_pay3 x3') x2' (ix2 r q) :=
  pay5_congr_ix x1 x1' x2 x2' (k0_pay3 x3) (k0_pay3 x3') r q h1 h2 (pay3_congr x3 x3' (ix2 0 q) h3)

/-! ## The last step: only the columns inside the array count -/

/-- The last step's column mask, a vector of one-bit words (no float in it): "column number `13 · 73728 + q` is
    below `1000000`", compared as signed 32-bit words, as the kernel computes it. -/
def mask13 : IVec S32x73728 1 :=
  cmpi .slt (addi (broadcast S32x73728 (Scalar.muli 13#32 73728#32))
      (iota .tc S32x73728 32 [1] iota_S32x73728_d1_w32)) (broadcast S32x73728 1000000#32)

/-- The mask at (r, q) is the bit of `958464 + q < 1000000`: `13 · 73728 = 958464` as words, the sum with `q < 73728`
    does not wrap, and both sides of the signed comparison are below `2^31`. -/
theorem mask13_apply (r : Fin 32) (q : Fin 73728) :
    mask13 (ix2 r q) = BitVec.ofBool (decide (958464 + q.val < 1000000)) := by
  have hio : iota .tc S32x73728 32 [1] iota_S32x73728_d1_w32 (ix2 r q) = BitVec.ofNat 32 q.val :=
    iota_single_apply .tc S32x73728 32 1 iota_S32x73728_d1_w32 (ix2 r q)
  have hw : IntOp.addi (Scalar.muli 13#32 73728#32) (BitVec.ofNat 32 q.val) = BitVec.ofNat 32 (958464 + q.val) := by
    show (13#32 * 73728#32 : BitVec 32) + BitVec.ofNat 32 q.val = _
    rw [show (13#32 * 73728#32 : BitVec 32) = BitVec.ofNat 32 958464 by decide, BitVec.ofNat_add]
  have hq : q.val < 73728 := q.isLt
  show IntOp.cmpi .slt (IntOp.addi (Scalar.muli 13#32 73728#32)
      (iota .tc S32x73728 32 [1] iota_S32x73728_d1_w32 (ix2 r q))) 1000000#32 = _
  rw [hio, hw]
  show BitVec.ofBool ((BitVec.ofNat 32 (958464 + q.val)).slt (BitVec.ofNat 32 1000000)) = _
  rw [Cert.KPay.slt_small _ _ (by omega) (by norm_num)]

/-- The masked block — the block where the column is inside the array, the constant `z` beyond — depends on the
    block only through the columns inside the array. -/
theorem select_mask13_congr {α : Type} (v v' : S32x73728.Idx → α) (z : S32x73728.Idx → α)
    (h : ∀ (r : Fin 32) (q : Fin 73728), 958464 + q.val < 1000000 → v (ix2 r q) = v' (ix2 r q)) :
    select mask13 v z = select mask13 v' z := by
  funext j
  obtain ⟨r, q, rfl⟩ : ∃ (r : Fin 32) (q : Fin 73728), j = ix2 r q := ⟨j 0, j 1, eq_ix2 j⟩
  show Scalar.select (mask13 (ix2 r q)) (v (ix2 r q)) (z (ix2 r q))
      = Scalar.select (mask13 (ix2 r q)) (v' (ix2 r q)) (z (ix2 r q))
  rw [mask13_apply]
  by_cases hq : 958464 + q.val < 1000000
  · rw [h r q hq]
  · rw [decide_eq_false hq]
    show Scalar.select 0#1 _ _ = Scalar.select 0#1 _ _
    rw [select_zero, select_zero]

/-- **The last step's row statistic depends on the exponentials only through the columns inside the array.** -/
theorem pay1_congr (v29 v29' : FVec F S32x73728 .f32) (v44 : Vec F S32x1 .f32)
    (h : ∀ (r : Fin 32) (q : Fin 73728), 958464 + q.val < 1000000 → v29 (ix2 r q) = v29' (ix2 r q)) :
    k0_pay1 (13#32) v29 v44 = k0_pay1 (13#32) v29' v44 := by
  have hsel := select_mask13_congr v29 v29'
    (broadcast S32x73728 (Scalar.ofBits (F := F) .f32 0x00000000#32)) h
  unfold k0_pay1
  show Idealize.ShloMosaic.log (addf v44 (shapeCast S32x1 (multiReduction (F := F) .add [1] S32
        (select mask13 v29 (broadcast S32x73728 (Scalar.ofBits (F := F) .f32 0x00000000#32)))
        0x00000000#32 reduces_S32x73728_S32 (.inl rfl) rfl) shapeCasts_S32_S32x1))
      = Idealize.ShloMosaic.log (addf v44 (shapeCast S32x1 (multiReduction (F := F) .add [1] S32
        (select mask13 v29' (broadcast S32x73728 (Scalar.ofBits (F := F) .f32 0x00000000#32)))
        0x00000000#32 reduces_S32x73728_S32 (.inl rfl) rfl) shapeCasts_S32_S32x1))
  rw [hsel]

/-- **The last step's row statistic from the loaded blocks**: with the exponentials computed from the three loaded
    blocks, it depends on them only through the columns inside the array. -/
theorem lse_congr (x1 x1' x2 x2' : Vec F S32x73728 .f32) (x3 x3' : Vec F S1x73728 .f32) (acc : Vec F S32x1 .f32)
    (h1 : ∀ (r : Fin 32) (q : Fin 73728), 958464 + q.val < 1000000 → x1 (ix2 r q) = x1' (ix2 r q))
    (h2 : ∀ (r : Fin 32) (q : Fin 73728), 958464 + q.val < 1000000 → x2 (ix2 r q) = x2' (ix2 r q))
    (h3 : ∀ q : Fin 73728, 958464 + q.val < 1000000 → x3 (ix2 0 q) = x3' (ix2 0 q)) :
    k0_pay1 (13#32) (k0_pay6 x1 (k0_pay3 x3) x2) acc = k0_pay1 (13#32) (k0_pay6 x1' (k0_pay3 x3') x2') acc :=
  pay1_congr _ _ acc fun r q hq =>
    pay6_congr_ix x1 x1' x2 x2' (k0_pay3 x3) (k0_pay3 x3') r q (h1 r q hq) (h2 r q hq)
      (pay3_congr x3 x3' (ix2 0 q) (h3 q hq))

end Cert.KCongr

end
-- ==== Proof.Sum0Last.lean ====
/-
  The last grid point of the first region. Its blocks overhang the array's end: of a block's 73728 columns the first 41536
  lie inside the array (13·73728 + 41536 = 1000000). Two buffers holding the same block on those columns are equal there,
  whatever either holds past them.
-/
import proofs.«131931_g34385508171941_cont_8to1_b_261_19_alg».proof.Proof.Sum0
import proofs.«131931_g34385508171941_cont_8to1_b_261_19_alg».proof.Proof.KCongr

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The step word the body computes at the last point. -/
theorem coord13 : BitVec.ofNat 32 ((grid0.coords t0_13) 0).val = 13#32 := by decide +kernel

/-- What the transfers move at the last point: all 32 rows (the one row of the samples), the first 41536 columns. -/
theorem xs13_0 : ∀ a, win0_0.xsize (grid0.coords t0_13) a = (![32, 41536] : Fin 2 → ℕ) a := by decide +kernel
theorem xs13_1 : ∀ a, win0_1.xsize (grid0.coords t0_13) a = (![32, 41536] : Fin 2 → ℕ) a := by decide +kernel
theorem xs13_2 : ∀ a, win0_2.xsize (grid0.coords t0_13) a = (![1, 41536] : Fin 2 → ℕ) a := by decide +kernel
theorem xs13_4 : ∀ a, win0_4.xsize (grid0.coords t0_13) a = (![32, 41536] : Fin 2 → ℕ) a := by decide +kernel

/-- A column inside the array is moved. -/
theorem moved13_0 (r : Fin 32) (q : Fin 73728) (h : 958464 + q.val < 1000000) : win0_0.moved (grid0.coords t0_13) (ix2 r q) = true :=
  (win0_0.moved_iff _ _).mpr fun a => by
    rw [xs13_0 a]
    match a with
    | ⟨0, _⟩ => exact r.isLt
    | ⟨1, _⟩ => show q.val < 41536; omega
theorem moved13_1 (r : Fin 32) (q : Fin 73728) (h : 958464 + q.val < 1000000) : win0_1.moved (grid0.coords t0_13) (ix2 r q) = true :=
  (win0_1.moved_iff _ _).mpr fun a => by
    rw [xs13_1 a]
    match a with
    | ⟨0, _⟩ => exact r.isLt
    | ⟨1, _⟩ => show q.val < 41536; omega
theorem moved13_2 (q : Fin 73728) (h : 958464 + q.val < 1000000) : win0_2.moved (grid0.coords t0_13) (ix2 (0 : Fin 1) q) = true :=
  (win0_2.moved_iff _ _).mpr fun a => by
    rw [xs13_2 a]
    match a with
    | ⟨0, _⟩ => exact Nat.zero_lt_one
    | ⟨1, _⟩ => show q.val < 41536; omega

/-- A column the last point's write-back of the scores moves lies among the first 41536. -/
theorem xs13_4_col : win0_4.xsize (grid0.coords t0_13) (1 : Fin 2) = 41536 := by decide +kernel
theorem xinj13_4_lt (j' : (win0_4.xblock (grid0.coords t0_13)).Idx) :
    ((win0_4.xinj (grid0.coords t0_13) j') (1 : Fin 2)).val < 41536 := by
  have h := (win0_4.moved_iff (grid0.coords t0_13) _).mp (win0_4.moved_xinj (grid0.coords t0_13) j') (1 : Fin 2)
  rw [xs13_4_col] at h
  exact h

/-- Two fills of one block agree on the moved part. -/
theorem fill_agree {G : Pipeline.Grid} (w : Pipeline.Window sig G) {α : Type} (i : G.Coords) (d d' : w.block.Idx → α)
    (g : (w.xblock i).Idx → α) (j : w.block.Idx) (hm : w.moved i j = true) : w.fill i d g j = w.fill i d' g j := by
  unfold Pipeline.Window.fill; rw [dif_pos hm, dif_pos hm]

end Cert.KProof

end
-- ==== Proof.Sum0Body.lean ====
/-
  The first kernel region's body obligation: at every grid point the kernel's body, run on the staging buffers as the
  pipeline hands them over and on the two scratch buffers, leaves them as the proof data say.
-/
import proofs.«131931_g34385508171941_cont_8to1_b_261_19_alg».proof.Proof.Sum0Last

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The running sums after a later point are the block's row sums added to those of the point before. -/
theorem accAt_pos (c : Dev nD) (t : Fin cfg0.N) (h : t.val ≠ 0) :
    accAt V c t.val = k0_pay7 (bl0 V c t) (k0_pay3 (bl2 V c t)) (bl1 V c t) (accAt V c (t.val - 1)) := by
  obtain ⟨n, hn⟩ := t
  cases n with
  | zero => exact absurd rfl h
  | succ n => simp only [accAt, dif_pos hn]; rfl

/-- A whole buffer held at known contents is held at some contents of which anything true of the known ones is true. -/
theorem owns_whole_keep (c : Thread nD τ) (b : Ref sig c.2.kind) (X : b.ty.Contents (Elt F)) (P : Buf (Elt F) (c.loc b) → Prop)
    (hP : ∀ f, f = X → P f) :
    (owns c (Memref.whole b) fullShare X : sProp 𝕄) ⊢ iprop(∃ f : Buf (Elt F) (c.loc b), ⌜P f⌝ ∗ ((c.loc b) ↦{fullShare} f)) := by
  rw [owns_whole_eq]
  iintro ⟨%f, %hf, H⟩
  iexists f; isplitr; · ipureintro; exact hP f hf
  iexact H

set_option maxHeartbeats 1600000 in
/-- The body obligation of the first region: the first point (the accumulator reset), the middle points, the last point (the
    masked tail and the logarithm). -/
theorem body_obligation0 (c : Dev nD) : BodyObligationLoose (dat0 V c) (defs₀ (F := F)) 𝒱z () Set.univ := fun t => by
  rw [bigSep_W0, bigSep_W0]
  have hN : t.val < 14 := lt_of_lt_of_eq t.isLt N_0
  by_cases hA : t.val = 0
  · -- the first point
    have hI : cInit (grid0.coords t) := (hInit t).mpr hA
    have hF : cFull (grid0.coords t) := (hFull t).mpr (by omega)
    have hT : ¬cTail (grid0.coords t) := fun h => by have := (hTail t).mp h; omega
    have hid : idle0 3 (grid0.coords t) = true := (idle3 t).trans (decide_eq_true (by omega))
    have hfl : (cfg0.win 3).flush t = false := by
      rw [Bool.eq_false_iff]; intro h; have := (flush0_3 t).mp h; omega
    simp only [hid, hfl]
    -- (the first point's run)
    change _ ⊢ wp Idealize.ShloMosaic.frame (wpE defs₀ 𝒱z c.tc none) Set.univ (bodyAt0 t) _
    unfold bodyAt0
    rw [show (dat0 V c).Φ t.castSucc = Phi0 V c t.castSucc from rfl, show (dat0 V c).Φ t.succ = Phi0 V c t.succ from rfl,
      show (dat0 V c).owesAt () t.succ = (dat0 V c).owesAt () t.castSucc from rfl]
    simp only [before0_0_lt V c t (by omega), before0_1_lt V c t (by omega), before0_2_lt V c t (by omega), before0_3 V c t.val t.isLt,
      before0_4 V c t, after0_0, after0_1, after0_2, after0_4]
    unfold Phi0
    iintro ⟨⟨⟨%f6, %hf6, H6⟩, ⟨%f7, H7⟩, Hrest⟩, Ho, ⟨%d0, H0⟩, ⟨%d1, H1⟩, ⟨%d2, H2⟩, ⟨%d3, H3⟩, ⟨%d4, H4⟩⟩
    iapply ((runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3).2 Set.univ _)
    isplitl [H0]; · iexact H0
    isplitl [H1]; · iexact H1
    isplitl [H2]; · iexact H2
    isplitl [H3]; · iexact H3
    isplitl [H4]; · iexists _; iexact H4
    isplitl [H6]
    · iexists f6; rw [owns_whole_eq]; iexists f6; isplitr; · ipureintro; rfl
      iexact H6
    isplitl [H7]
    · iexists f7; rw [owns_whole_eq]; iexists f7; isplitr; · ipureintro; rfl
      iexact H7
    iintro ⟨H0, H1, H2, H3, ⟨%e5, H5⟩, ⟨%e6, H6⟩, ⟨%e7, H7⟩⟩
    isplitl [H6 H7 Hrest]
    · isplitl [H6]
      · iexists _; isplitr
        swap
        · simp only [Memref.view_whole, View.set_whole]; iexact H6
        ipureintro
        refine Or.inr (Or.inr ?_)
        have e := (View.read_writes_of_cover (v := (Memref.whole cc0_scratch0 : Memref sig .tc .vmem S32x1 .f32).view) (f := e6) VS6 VS6.junk _ (coverA6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)).trans (outA6_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)
        simp only [Memref.view_whole, View.read_whole] at e
        rw [e, show (t.succ : Fin (cfg0.N + 1)).val - 1 = t.val from by rw [Fin.val_succ]; omega]
        exact (by obtain rfl : t = t0_0 := Fin.ext hA; rfl)
      isplitl [H7]
      · iexists _; simp only [Memref.view_whole, View.set_whole]; iexact H7
      iexact Hrest
    isplitl [Ho]; · iexact Ho
    isplitl [H0]
    · iexists (bl0 V c t); rw [(win0 0).fill_cut]; iexact H0
    isplitl [H1]
    · iexists (bl1 V c t); rw [(win0 1).fill_cut]; iexact H1
    isplitl [H2]
    · iexists (bl2 V c t); rw [(win0 2).fill_cut]; iexact H2
    isplitl [H3]
    · iexists d3; iexact H3
    · iexists (sc V c t); rw [(win0 4).fill_cut]
      unfold owns; iexists _; isplitr
      swap; · iexact H5
      ipureintro
      exact (View.read_writes_of_cover _ _ _ _ _ (coverA5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)).trans (outA5_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3)
  · by_cases hC : t.val = 13
    · -- the last point
      obtain rfl : t = t0_13 := Fin.ext hC
      have hI : ¬cInit (grid0.coords t0_13) := fun h => absurd (show (13 : ℕ) = 0 from (hInit t0_13).mp h) (by decide)
      have hF : ¬cFull (grid0.coords t0_13) := fun h => absurd (show (13 : ℕ) < 13 from (hFull t0_13).mp h) (by decide)
      have hT : cTail (grid0.coords t0_13) := (hTail t0_13).mpr rfl
      have hid : idle0 3 (grid0.coords t0_13) = false := (idle3 t0_13).trans (decide_eq_false (fun h => h rfl))
      simp only [hid]
      change _ ⊢ wp Idealize.ShloMosaic.frame (wpE defs₀ 𝒱z c.tc none) Set.univ (bodyAt0 t0_13) _
      unfold bodyAt0
      rw [show (dat0 V c).Φ t0_13.castSucc = Phi0 V c t0_13.castSucc from rfl, show (dat0 V c).Φ t0_13.succ = Phi0 V c t0_13.succ from rfl,
        show (dat0 V c).owesAt () t0_13.succ = (dat0 V c).owesAt () t0_13.castSucc from rfl]
      simp only [before0_0 V c t0_13, before0_1 V c t0_13, before0_2 V c t0_13, before0_3 V c t0_13.val t0_13.isLt,
        before0_4 V c t0_13, after0_0, after0_1, after0_2, after0_3, after0_4]
      unfold Phi0
      iintro ⟨⟨⟨%f6, %hf6, H6⟩, ⟨%f7, H7⟩, Hrest⟩, Ho, ⟨%d0, H0⟩, ⟨%d1, H1⟩, ⟨%d2, H2⟩, ⟨%d3, H3⟩, ⟨%d4, H4⟩⟩
      have hacc : f6 = accAt V c 12 := (hf6.resolve_left (by decide)).resolve_left (by decide)
      iapply ((runC c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12)).2 Set.univ _)
      isplitl [H0]; · iexact H0
      isplitl [H1]; · iexact H1
      isplitl [H2]; · iexact H2
      isplitl [H3]; · iexists _; iexact H3
      isplitl [H4]; · iexists _; iexact H4
      isplitl [H6]
      · rw [owns_whole_eq]; iexists f6; isplitr; · ipureintro; exact hacc
        iexact H6
      isplitl [H7]
      · iexists f7; rw [owns_whole_eq]; iexists f7; isplitr; · ipureintro; rfl
        iexact H7
      iintro ⟨H0, H1, H2, ⟨%e4, H4'⟩, ⟨%e5, H5⟩, H6, ⟨%e7, H7⟩⟩
      isplitl [H6 H7 Hrest]
      · isplitl [H6]
        · iapply (owns_whole_keep (c : Thread nD τ) cc0_scratch0 (accAt V c 12)
            (fun f => (t0_13.succ : Fin (cfg0.N + 1)).val = 0 ∨ (t0_13.succ : Fin (cfg0.N + 1)).val = 14 ∨ f = accAt V c ((t0_13.succ : Fin (cfg0.N + 1)).val - 1))
            (fun _ _ => Or.inr (Or.inl rfl)))
          iexact H6
        isplitl [H7]
        · iexists _; simp only [Memref.view_whole, View.set_whole]; iexact H7
        iexact Hrest
      isplitl [Ho]; · iexact Ho
      isplitl [H0]
      · iexists d0; rw [show (win0 0).cut (grid0.coords t0_13) (bl0 V c t0_13) = ib0 V c t0_13 from win0_0.cut_fill _ _ _]; iexact H0
      isplitl [H1]
      · iexists d1; rw [show (win0 1).cut (grid0.coords t0_13) (bl1 V c t0_13) = ib1 V c t0_13 from win0_1.cut_fill _ _ _]; iexact H1
      isplitl [H2]
      · iexists d2; rw [show (win0 2).cut (grid0.coords t0_13) (bl2 V c t0_13) = ib2 V c t0_13 from win0_2.cut_fill _ _ _]; iexact H2
      isplitl [H4']
      · -- the normalisers: the columns past the array's end are masked out of the row sums
        unfold owns; iexists _; isplitr
        swap; · iexact H4'
        ipureintro
        refine (View.read_writes_of_cover _ _ _ _ _ (coverC4 c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12))).trans ((outC4_eq c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12)).trans ?_)
        rw [coord13]
        unfold lse bl0 bl1 bl2
        exact Cert.KCongr.lse_congr _ _ _ _ _ _ _ (fun r q h => fill_agree win0_0 _ _ _ _ _ (moved13_0 r q h))
          (fun r q h => fill_agree win0_1 _ _ _ _ _ (moved13_1 r q h)) (fun q h => fill_agree win0_2 _ _ _ _ _ (moved13_2 q h))
      · -- the scores: only the columns inside the array are written back, and there the score is the block's
        have hread := (View.read_writes_of_cover (v := (win0_4.stage (cfg0.slots t0_13 4)).view) (f := e5) VO5 VO5.junk _
          (coverC5 c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12))).trans (outC5_eq c (grid0.coords t0_13) (win0_0.stage (cfg0.slots t0_13 0)) (hstage0_0 ((cfg0.slots t0_13 0).cast nbuf0_0)) (win0_1.stage (cfg0.slots t0_13 1)) (hstage0_1 ((cfg0.slots t0_13 1).cast nbuf0_1)) (win0_2.stage (cfg0.slots t0_13 2)) (hstage0_2 ((cfg0.slots t0_13 2).cast nbuf0_2)) (win0_3.stage (cfg0.slots t0_13 3)) (hstage0_3 ((cfg0.slots t0_13 3).cast nbuf0_3)) (win0_4.stage (cfg0.slots t0_13 4)) (hstage0_4 ((cfg0.slots t0_13 4).cast nbuf0_4)) (Memref.whole cc0_scratch0) (Memref.isWhole_whole _) (Memref.whole cc0_scratch1) (Memref.isWhole_whole _) hI hF hT (win0_0.fill (grid0.coords t0_13) d0 (ib0 V c t0_13)) (win0_1.fill (grid0.coords t0_13) d1 (ib1 V c t0_13)) (win0_2.fill (grid0.coords t0_13) d2 (ib2 V c t0_13)) (accAt V c 12))
        have hcut : (win0 4).cut (grid0.coords t0_13) (k0_pay5 (win0_0.fill (grid0.coords t0_13) d0 (ib0 V c t0_13)) (k0_pay3 (win0_2.fill (grid0.coords t0_13) d2 (ib2 V c t0_13))) (win0_1.fill (grid0.coords t0_13) d1 (ib1 V c t0_13)))
            = (win0 4).cut (grid0.coords t0_13) (sc V c t0_13) := by
          funext j'
          have hq : ((win0 4).xinj (grid0.coords t0_13) j' (1 : Fin 2)).val < 41536 := xinj13_4_lt j'
          show k0_pay5 (win0_0.fill (grid0.coords t0_13) d0 (ib0 V c t0_13)) (k0_pay3 (win0_2.fill (grid0.coords t0_13) d2 (ib2 V c t0_13))) (win0_1.fill (grid0.coords t0_13) d1 (ib1 V c t0_13)) ((win0 4).xinj (grid0.coords t0_13) j')
            = sc V c t0_13 ((win0 4).xinj (grid0.coords t0_13) j')
          generalize (win0 4).xinj (grid0.coords t0_13) j' = j at hq ⊢
          obtain ⟨r, q, rfl⟩ : ∃ (r : Fin 32) (q : Fin 73728), j = ix2 r q := ⟨j 0, j 1, eq_ix2 j⟩
          have hq' : 958464 + q.val < 1000000 := by have : q.val < 41536 := hq; omega
          unfold sc bl0 bl1 bl2
          exact Cert.KCongr.sc_congr _ _ _ _ _ _ r q (fill_agree win0_0 _ _ _ _ _ (moved13_0 r q hq'))
            (fill_agree win0_1 _ _ _ _ _ (moved13_1 r q hq')) (fill_agree win0_2 _ _ _ _ _ (moved13_2 q hq'))
        generalize k0_pay5 (win0_0.fill (grid0.coords t0_13) d0 (ib0 V c t0_13)) (k0_pay3 (win0_2.fill (grid0.coords t0_13) d2 (ib2 V c t0_13))) (win0_1.fill (grid0.coords t0_13) d1 (ib1 V c t0_13)) = Y at hread hcut
        iexists Y
        rw [(win0 4).fill_congr_cut (grid0.coords t0_13) hcut]
        unfold owns; iexists _; isplitr
        swap; · iexact H5
        ipureintro; exact hread
    · -- a middle point
      have hI : ¬cInit (grid0.coords t) := fun h => hA ((hInit t).mp h)
      have hF : cFull (grid0.coords t) := (hFull t).mpr (by omega)
      have hT : ¬cTail (grid0.coords t) := fun h => hC ((hTail t).mp h)
      have hid : idle0 3 (grid0.coords t) = true := (idle3 t).trans (decide_eq_true hC)
      have hfl : (cfg0.win 3).flush t = false := by
        rw [Bool.eq_false_iff]; intro h; have := (flush0_3 t).mp h; omega
      simp only [hid, hfl]
      change _ ⊢ wp Idealize.ShloMosaic.frame (wpE defs₀ 𝒱z c.tc none) Set.univ (bodyAt0 t) _
      unfold bodyAt0
      rw [show (dat0 V c).Φ t.castSucc = Phi0 V c t.castSucc from rfl, show (dat0 V c).Φ t.succ = Phi0 V c t.succ from rfl,
        show (dat0 V c).owesAt () t.succ = (dat0 V c).owesAt () t.castSucc from rfl]
      simp only [before0_0_lt V c t (by omega), before0_1_lt V c t (by omega), before0_2_lt V c t (by omega), before0_3 V c t.val t.isLt,
        before0_4 V c t, after0_0, after0_1, after0_2, after0_4]
      unfold Phi0
      iintro ⟨⟨⟨%f6, %hf6, H6⟩, ⟨%f7, H7⟩, Hrest⟩, Ho, ⟨%d0, H0⟩, ⟨%d1, H1⟩, ⟨%d2, H2⟩, ⟨%d3, H3⟩, ⟨%d4, H4⟩⟩
      have hacc : f6 = accAt V c (t.val - 1) := (hf6.resolve_left hA).resolve_left (fun h => by have h' : t.val = 14 := h; omega)
      iapply ((runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1))).2 Set.univ _)
      isplitl [H0]; · iexact H0
      isplitl [H1]; · iexact H1
      isplitl [H2]; · iexact H2
      isplitl [H3]; · iexact H3
      isplitl [H4]; · iexists _; iexact H4
      isplitl [H6]
      · rw [owns_whole_eq]; iexists f6; isplitr; · ipureintro; exact hacc
        iexact H6
      isplitl [H7]
      · iexists f7; rw [owns_whole_eq]; iexists f7; isplitr; · ipureintro; rfl
        iexact H7
      iintro ⟨H0, H1, H2, H3, ⟨%e5, H5⟩, ⟨%e6, H6⟩, ⟨%e7, H7⟩⟩
      isplitl [H6 H7 Hrest]
      · isplitl [H6]
        · iexists _; isplitr
          swap
          · simp only [Memref.view_whole, View.set_whole]; iexact H6
          ipureintro
          refine Or.inr (Or.inr ?_)
          have e := (View.read_writes_of_cover (v := (Memref.whole cc0_scratch0 : Memref sig .tc .vmem S32x1 .f32).view) (f := e6) VS6 VS6.junk _ (coverB6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))).trans (outB6_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))
          simp only [Memref.view_whole, View.read_whole] at e
          rw [e, show (t.succ : Fin (cfg0.N + 1)).val - 1 = t.val from by rw [Fin.val_succ]; omega]
          exact (accAt_pos V c t hA).symm
        isplitl [H7]
        · iexists _; simp only [Memref.view_whole, View.set_whole]; iexact H7
        iexact Hrest
      isplitl [Ho]; · iexact Ho
      isplitl [H0]
      · iexists (bl0 V c t); rw [(win0 0).fill_cut]; iexact H0
      isplitl [H1]
      · iexists (bl1 V c t); rw [(win0 1).fill_cut]; iexact H1
      isplitl [H2]
      · iexists (bl2 V c t); rw [(win0 2).fill_cut]; iexact H2
      isplitl [H3]
      · iexists d3; iexact H3
      · iexists (sc V c t); rw [(win0 4).fill_cut]
        unfold owns; iexists _; isplitr
        swap; · iexact H5
        ipureintro
        exact (View.read_writes_of_cover _ _ _ _ _ (coverB5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))).trans (outB5_eq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) hI hF hT (bl0 V c t) (bl1 V c t) (bl2 V c t) d3 (accAt V c (t.val - 1)))

end Cert.KProof

end
-- ==== Proof.OutBody.lean ====
/-
  The second kernel's body on its staging buffers. It loads the whole block of the narrowed scores and the whole column of
  row normalisers, widens the scores, subtracts from each row its normaliser, and stores the whole block of the result:
  the result's buffer ends holding that difference, the two inputs' buffers are unchanged.
-/
import proofs.«131931_g34385508171941_cont_8to1_b_261_19_alg».proof.Proof.Gen.KernelIdeal.Launch
import proofs.«131931_g34385508171941_cont_8to1_b_261_19_alg».proof.Proof.Gen.KernelIdeal.Skeleton
import proofs.«131931_g34385508171941_cont_8to1_b_261_19_alg».proof.Proof.Gen.KernelIdeal.Points
import Idealize.ShloMosaic.Lib.Pipeline.Kit
import Idealize.ShloMosaic.Lib.Tactic

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

theorem zero2 : (![0, 0] : Fin 2 → Nat) = fun _ => 0 := funext fun a => by fin_cases a <;> rfl

/-- The second kernel's body: from the scores' buffer at `X0`, the normalisers' at `X1` and the result's at anything, it ends
    with the result's buffer at `X0` widened less `X1` along each row, the inputs' buffers as they were. -/
theorem sound_out (c : Dev nD) (E : Set ℕ) (i : grid1.Coords) (s0 : Fin 2) (s1 : Fin 1) (s2 : Fin 2)
    (X0 : S32x131072.Idx → Elt F .bf16) (X1 : S32x1.Idx → Elt F .f32) (X2 : S32x131072.Idx → Elt F .f32) (K : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ K ⟨⟩))
      ⊢ wp frame (wpE (defs₀ (F := F)) 𝒱₀ c none) E
          (cc1__out_kernel i (stage1_0 s0) (hstage1_0 s0) (stage1_1 s1) (hstage1_1 s1) (stage1_2 s2) (hstage1_2 s2)) K := by
  fin_cases s0 <;> fin_cases s1 <;> fin_cases s2
  · have hr0 : (Memref.whole cc1_stg0_0 : Memref sig .tc _ _ _).view.readAt (Elt F) (Rect.unit (s := S32x131072) ![0, 0] S32x131072.size
        inb_S32x131072_S32x131072_0_0).toLoadRect = id := funext (Memref.readAt_unit_zero (Elt F) cc1_stg0_0 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_0).access (Rect.unit (s := S32x131072) ![0, 0] S32x131072.size inb_S32x131072_S32x131072_0_0)) :
        View sig .tc _ _ _).write (Elt F) f w Finset.univ = w := Memref.write_access_unit_zero_univ (Elt F) cc1_stg2_0 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2
  · have hr0 : (Memref.whole cc1_stg0_0 : Memref sig .tc _ _ _).view.readAt (Elt F) (Rect.unit (s := S32x131072) ![0, 0] S32x131072.size
        inb_S32x131072_S32x131072_0_0).toLoadRect = id := funext (Memref.readAt_unit_zero (Elt F) cc1_stg0_0 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_1).access (Rect.unit (s := S32x131072) ![0, 0] S32x131072.size inb_S32x131072_S32x131072_0_0)) :
        View sig .tc _ _ _).write (Elt F) f w Finset.univ = w := Memref.write_access_unit_zero_univ (Elt F) cc1_stg2_1 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2
  · have hr0 : (Memref.whole cc1_stg0_1 : Memref sig .tc _ _ _).view.readAt (Elt F) (Rect.unit (s := S32x131072) ![0, 0] S32x131072.size
        inb_S32x131072_S32x131072_0_0).toLoadRect = id := funext (Memref.readAt_unit_zero (Elt F) cc1_stg0_1 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_0).access (Rect.unit (s := S32x131072) ![0, 0] S32x131072.size inb_S32x131072_S32x131072_0_0)) :
        View sig .tc _ _ _).write (Elt F) f w Finset.univ = w := Memref.write_access_unit_zero_univ (Elt F) cc1_stg2_0 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2
  · have hr0 : (Memref.whole cc1_stg0_1 : Memref sig .tc _ _ _).view.readAt (Elt F) (Rect.unit (s := S32x131072) ![0, 0] S32x131072.size
        inb_S32x131072_S32x131072_0_0).toLoadRect = id := funext (Memref.readAt_unit_zero (Elt F) cc1_stg0_1 zero2 _)
    have hr1 : (Memref.whole cc1_stg1_0 : Memref sig .tc _ _ _).view.readAt (Elt F) (Rect.unit (s := S32x1) ![0, 0] S32x1.size
        inb_S32x1_S32x1_0_0).toLoadRect = id := funext (Memref.readAt_unit_zero (Elt F) cc1_stg1_0 zero2 _)
    have hw2 : ∀ f w, (((Memref.whole cc1_stg2_1).access (Rect.unit (s := S32x131072) ![0, 0] S32x131072.size inb_S32x131072_S32x131072_0_0)) :
        View sig .tc _ _ _).write (Elt F) f w Finset.univ = w := Memref.write_access_unit_zero_univ (Elt F) cc1_stg2_1 zero2 _
    simp only [owns_whole_eq, cc1__out_kernel_eq_skeleton]; unfold cc1__out_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2

end Cert.KProof

end
-- ==== Proof.Out1.lean ====
/-
  The second kernel region as a pipeline: its proof data, the obligation of its body, and the result array after it.

  The region walks eight blocks of 131072 columns over the 32 rows of the narrowed scores. At each block it stages
  the scores' block and (once) the column of row normalisers, runs the body — the block widened, less each row's
  normaliser — and writes the result's block back. The last block overhangs the arrays' 1000000 columns: its
  transfers move only the columns inside the array, so what the staging buffers hold past the array's end is not
  stated (any contents), and the body's result there is never written back.

  The result array ends holding, at every row `r` and column `k`, the score at `(r, k)` less row `r`'s normaliser:
  the eight blocks' columns inside the array are disjoint and together all of the array's, and the point that
  writes column `k` is `k / 131072`.
-/
import proofs.«131931_g34385508171941_cont_8to1_b_261_19_alg».proof.Proof.OutBody
import proofs.«131931_g34385508171941_cont_8to1_b_261_19_alg».proof.Proof.LibLayout
import Idealize.ShloMosaic.Lib.Pipeline.Kit
import Idealize.ShloMosaic.Lib.Pipeline.Value
import Idealize.ShloMosaic.Lib.ValueIdx
import Idealize.ShloMosaic.Lib.Tactic

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The scores' block at point `t` as the fetch reads it: its part inside the array. -/
def sblk (c : Dev nD) (W : (b : Ref sig .tc) → Buf (Elt F) ((c : Thread nD τ).loc b)) (t : Fin cfg1.N) :
    (win1_0.xblock (grid1.coords t)).Idx → Elt F .bf16 :=
  (win1_0.blk t).view.read (Elt F) (W main_call0_v1_1)

/-- That block filled out past the array's end with the zero word. -/
def sblkF (c : Dev nD) (W : (b : Ref sig .tc) → Buf (Elt F) ((c : Thread nD τ).loc b)) (t : Fin cfg1.N) :
    S32x131072.Idx → Elt F .bf16 :=
  win1_0.fill (grid1.coords t) (fun _ => Scalar.ofBits .bf16 0#16) (sblk c W t)

/-- The column of row normalisers: its one block, the whole array. -/
def colB (c : Dev nD) (W : (b : Ref sig .tc) → Buf (Elt F) ((c : Thread nD τ).loc b)) (t : Fin cfg1.N) :
    S32x1.Idx → Elt F .f32 :=
  (win1_1.blk t).view.read (Elt F) (W main_call0_v1_0)

/-- The proof data of the second region on a core whose unscoped buffers hold `W` at entry: the arrays at those
    contents; after the body at point `t` the scores' buffer at its block (filled out past the array's end), the
    normalisers' at the column, the result's at the body's value of those two; the scoped buffers no window stages
    ride along untouched; full shares; nothing owed. -/
def dats1 (c : Dev nD) (W : (b : Ref sig .tc) → Buf (Elt F) ((c : Thread nD τ).loc b)) :
    Dat τ (Elt F) Unit ℕ (UR sig nD τ) ℕ cfg1 c where
  A w := W (Pipeline.arrRef spec1 w)
  after w t := match w with
    | ⟨0, _⟩ => sblkF c W t
    | ⟨1, _⟩ => colB c W t
    | ⟨2, _⟩ => k1_pay1 (sblkF c W t) (colB c W t)
  Φ _ := Pipeline.scopedRest (Ix := Unit) (Name := ℕ) (U := UR sig nD τ) (Lvl := ℕ) (Val := Elt F) spec1 c
  q _ := fullShare
  owed _ := 0

/-- The scores' buffer when the body runs: just fetched — the block on the columns inside the array, `d` elsewhere. -/
theorem before1_0 (c : Dev nD) (W : (b : Ref sig .tc) → Buf (Elt F) ((c : Thread nD τ).loc b)) (t : Fin cfg1.N) (d) :
    (dats1 c W).before (0 : Fin 3) t d = win1_0.fill (grid1.coords t) d (sblk c W t) := by
  unfold Dat.before; rw [if_pos (fetch1_0 t)]; rfl

/-- The normalisers' buffer when the body runs holds the column, fetched at this point or left there by the last. -/
theorem before1_1 (c : Dev nD) (W : (b : Ref sig .tc) → Buf (Elt F) ((c : Thread nD τ).loc b)) (t : Fin cfg1.N) (d) :
    (dats1 c W).before (1 : Fin 3) t d = colB c W t := by
  rw [(dats1 c W).before_in_eq_fetched (1 : Fin 3) rfl (fun _ => rfl) (fun _ _ _ => rfl) (fun _ => rfl) t d]
  funext j
  unfold Dat.fetched Window.fill
  rw [dif_pos (show (cfg1.win 1).moved (cfg1.grid.coords t) j = true from rfl)]
  rfl

/-- The result's buffer when the body runs holds anything: the point before wrote it back. -/
theorem before1_2 (c : Dev nD) (W : (b : Ref sig .tc) → Buf (Elt F) ((c : Thread nD τ).loc b)) (t : Fin cfg1.N) (d) :
    (dats1 c W).before (2 : Fin 3) t d = d := by
  refine (dats1 c W).before_out_reset (2 : Fin 3) rfl t ?_ d
  by_cases h0 : t.val = 0
  · exact .inl h0
  · exact .inr ⟨h0, flush1_2 _⟩

/-- For every float instance the body's value at an entry depends on the scores' block only through that entry:
    widening, the broadcast of the column and the subtraction are entry by entry. -/
theorem k1_pay1_congr' (X0 X0' : Vec F S32x131072 .bf16) (X1 : Vec F S32x1 .f32) (j : S32x131072.Idx)
    (h0 : X0 j = X0' j) : k1_pay1 X0 X1 j = k1_pay1 X0' X1 j := by
  unfold k1_pay1
  simp only [shapeCast_self, subf, extf]
  rw [h0]

/-- The library's body obligation, from the body's triple at the point's staging buffers. The scores' buffer arrives
    holding its block filled out with some `d0` past the array's end and leaves as it came; the normalisers' arrives
    and leaves holding the column; the result's arrives holding anything and leaves holding the body's value of the
    other two, which on the columns inside the array is the value of the block however it is filled out. -/
theorem body_obligation1 (c : Dev nD) (W : (b : Ref sig .tc) → Buf (Elt F) ((c : Thread nD τ).loc b)) :
    BodyObligationLoose (dats1 c W) (defs₀ (F := F)) 𝒱₀ () Set.univ := fun t => by
  rw [bigSep_W1, bigSep_W1]
  simp only
  rw [show (dats1 c W).Φ t.succ = (dats1 c W).Φ t.castSucc from rfl,
    show (dats1 c W).owesAt () t.succ = (dats1 c W).owesAt () t.castSucc from rfl]
  iintro ⟨HΦ, Ho, ⟨%d0, H0⟩, ⟨%d1, H1⟩, ⟨%d2, H2⟩⟩
  rw [before1_0 c W t d0, before1_1 c W t d1, before1_2 c W t d2]
  iapply (sound_out (F := F) c Set.univ (grid1.coords t) (cfg1.slots t 0) (cfg1.slots t 1) (cfg1.slots t 2)
    (win1_0.fill (grid1.coords t) d0 (sblk c W t)) (colB c W t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  dsimp only [dats1]
  have hx : win1_0.cut (grid1.coords t) (sblkF c W t) = sblk c W t := win1_0.cut_fill _ _ _
  have hcut : (win1 2).cut (grid1.coords t) (k1_pay1 (win1_0.fill (grid1.coords t) d0 (sblk c W t)) (colB c W t))
      = (win1 2).cut (grid1.coords t) (k1_pay1 (sblkF c W t) (colB c W t)) := by
    funext j
    refine k1_pay1_congr' _ _ _ _ ?_
    exact (win1_0.fill_xinj (grid1.coords t) d0 (sblk c W t) j).trans
      (win1_0.fill_xinj (grid1.coords t) (fun _ => Scalar.ofBits .bf16 0#16) (sblk c W t) j).symm
  generalize k1_pay1 (win1_0.fill (grid1.coords t) d0 (sblk c W t)) (colB c W t) = X at hcut ⊢
  isplitl [H0]
  · iexists d0
    change _ ⊢ owns (c : Thread nD τ) (stage1_0 (cfg1.slots t 0)) fullShare
      (win1_0.fill (grid1.coords t) d0 (win1_0.cut (grid1.coords t) (sblkF c W t)))
    rw [hx]
  isplitl [H1]
  · iexact H1
  · iexists X
    rw [(win1 2).fill_congr_cut (grid1.coords t) hcut]
    iexact H2

/-! ## The arrays after the region -/

/-- The two inputs are never written: after the region they hold what they held. -/
theorem final1_in0 (c : Dev nD) (W : (b : Ref sig .tc) → Buf (Elt F) ((c : Thread nD τ).loc b)) :
    (dats1 c W).arrAt (0 : Fin 3) cfg1.N = W main_call0_v1_1 :=
  (dats1 c W).arrAt_in (0 : Fin 3) rfl _
theorem final1_in1 (c : Dev nD) (W : (b : Ref sig .tc) → Buf (Elt F) ((c : Thread nD τ).loc b)) :
    (dats1 c W).arrAt (1 : Fin 3) cfg1.N = W main_call0_v1_0 :=
  (dats1 c W).arrAt_in (1 : Fin 3) rfl _

/-- The index maps, decided over the eight points: the scores' and the result's blocks are at row block 0 and
    column block `t`, the column's at block (0, 0); the result's transfer moves all 32 rows and, of the block's
    131072 columns, those inside the array: all but at the last point, where 1000000 - 7 · 131072 = 82496 are. -/
theorem idx_facts1 : ∀ t : Fin cfg1.N,
    win1_0.index t (0 : Fin 2) = 0 ∧ win1_0.index t (1 : Fin 2) = t.val
    ∧ win1_2.index t (0 : Fin 2) = 0 ∧ win1_2.index t (1 : Fin 2) = t.val
    ∧ win1_1.index t (0 : Fin 2) = 0 ∧ win1_1.index t (1 : Fin 2) = 0
    ∧ win1_2.xsize (grid1.coords t) (0 : Fin 2) = 32
    ∧ win1_2.xsize (grid1.coords t) (1 : Fin 2) = (if t.val = 7 then 82496 else 131072) :=
  (by decide +kernel : ∀ t : Fin grid1.N, _)

/-- At the extended reals the body's value at `(r, q)` is the block's entry less row `r`'s entry of the column:
    widening is the identity there. -/
theorem pay_out_apply' (X0 : Vec Ideal S32x131072 .bf16) (X1 : Vec Ideal S32x1 .f32) (r : Fin 32) (q : Fin 131072) :
    k1_pay1 (F := Ideal) X0 X1 (ix2 r q) = X0 (ix2 r q) - X1 (ix2 r 0) := by
  unfold k1_pay1
  simp only [shapeCast_self]
  show X0 (ix2 r q) - broadcastTo S32x131072 X1 broadcasts_S32x1_S32x131072 (ix2 r q) = _
  rw [Cert.Attn.Layout.broadcastTo_a1_ab_apply]

/-- The same at an index not split into its coordinates. -/
theorem pay_out_at (X0 : Vec Ideal S32x131072 .bf16) (X1 : Vec Ideal S32x1 .f32) (j : S32x131072.Idx) :
    k1_pay1 (F := Ideal) X0 X1 j = X0 j - X1 (ix2 (j 0) 0) := by
  obtain ⟨r, q, rfl⟩ : ∃ (r : Fin 32) (q : Fin 131072), j = ix2 r q := ⟨j 0, j 1, eq_ix2 j⟩
  exact pay_out_apply' X0 X1 r q

/-- What the result array is shown to hold, as a function of the two inputs: each score less its row's normaliser. -/
def outOf (A0 : S32x1000000.Idx → EReal) (A1 : S32x1.Idx → EReal) : S32x1000000.Idx → EReal :=
  fun i => A0 i - A1 (ix2 (i 0) 0)

theorem outOf_apply (A0 : S32x1000000.Idx → EReal) (A1 : S32x1.Idx → EReal) (r : Fin 32) (k : Fin 1000000) :
    outOf A0 A1 (ix2 r k) = A0 (ix2 r k) - A1 (ix2 r 0) := rfl

/-- What point `t` writes back is block `t`, cut at the array's end, of that function of the inputs as the
    region found them. -/
theorem flushed1_eq (c : Dev nD) (W : (b : Ref sig .tc) → Buf (Elt Ideal) ((c : Thread nD τ).loc b)) (t : Fin cfg1.N) :
    (dats1 (F := Ideal) c W).flushed 2 t
      = ((cfg1.win 2).blk t).view.read (Elt Ideal) (outOf (W main_call0_v1_1) (W main_call0_v1_0)) := by
  show (cfg1.win 2).cut (grid1.coords t) ((dats1 (F := Ideal) c W).after 2 t) = _
  dsimp only [dats1]
  obtain ⟨e00, e01, e20, e21, e10, e11, x0, x1⟩ := idx_facts1 t
  funext j
  show k1_pay1 (F := Ideal) (sblkF c W t) (colB c W t) (win1_2.xinj (grid1.coords t) j)
    = outOf (W main_call0_v1_1) (W main_call0_v1_0) ((win1_2.blk t).view.emb j)
  rw [pay_out_at]
  have h1 : sblkF c W t (win1_2.xinj (grid1.coords t) j) = W main_call0_v1_1 ((win1_2.blk t).view.emb j) := by
    refine (win1_0.fill_xinj (grid1.coords t) _ (sblk c W t) j).trans ?_
    show W main_call0_v1_1 ((win1_0.blk t).view.emb j) = _
    rfl
  have h2 : colB c W t (ix2 ((win1_2.xinj (grid1.coords t) j) 0) 0)
      = W main_call0_v1_0 (ix2 (((win1_2.blk t).view.emb j) 0) 0) := by
    show W main_call0_v1_0 ((win1_1.blk t).view.emb (ix2 ((win1_2.xinj (grid1.coords t) j) 0) 0)) = _
    refine congrArg (W main_call0_v1_0) ?_
    funext a; apply Fin.ext
    match a with
    | ⟨0, _⟩ =>
      show win1_1.index t (0 : Fin 2) * 32 + 1 * (j 0).val = win1_2.index t (0 : Fin 2) * 32 + 1 * (j 0).val
      omega
    | ⟨1, _⟩ =>
      show win1_1.index t (1 : Fin 2) * 1 + 1 * 0 = 0
      omega
  rw [h1, h2]
  rfl

/-- An index of the result array is in point `t`'s block, cut at the array's end, iff each coordinate is among
    those the block's transfer moves on its axis. -/
theorem mem_blk1 (t : Fin cfg1.N) (i : S32x1000000.Idx) :
    i ∈ ((cfg1.win 2).blk t).view.set ↔ ∀ a : Fin 2, win1_2.index t a * S32x131072.size a ≤ (i a).val
      ∧ (i a).val < win1_2.index t a * S32x131072.size a + win1_2.xsize (grid1.coords t) a := by
  show i ∈ ((View.whole main_v0).slice (win1_2.rect t)).set ↔ _
  rw [View.set_slice_whole, Rect.mem_set_unit]
  exact Iff.rfl

/-- Every index of the result array is in some point's block: column `k` in that of point `k / 131072`, which is
    below 8 because 1000000 ≤ 8 · 131072, and whose columns inside the array reach the array's end at the last. -/
theorem cover1 (i : S32x1000000.Idx) :
    ∃ t : Fin cfg1.N, (cfg1.win 2).flush t = true ∧ i ∈ ((cfg1.win 2).blk t).view.set := by
  have hi0 : (i 0).val < 32 := (i 0).isLt
  have hi1 : (i 1).val < 1000000 := (i 1).isLt
  have hN : (i 1).val / 131072 < cfg1.N := by rw [show cfg1.N = 8 from N_1]; omega
  refine ⟨⟨(i 1).val / 131072, hN⟩, flush1_2 _, ?_⟩
  rw [mem_blk1]
  obtain ⟨-, -, e20, e21, -, -, x0, x1⟩ := idx_facts1 ⟨(i 1).val / 131072, hN⟩
  intro a
  match a with
  | ⟨0, _⟩ =>
    show win1_2.index ⟨(i 1).val / 131072, hN⟩ (0 : Fin 2) * 32 ≤ (i 0).val
      ∧ (i 0).val < win1_2.index ⟨(i 1).val / 131072, hN⟩ (0 : Fin 2) * 32 + win1_2.xsize (grid1.coords ⟨(i 1).val / 131072, hN⟩) (0 : Fin 2)
    rw [e20, x0]; omega
  | ⟨1, _⟩ =>
    show win1_2.index ⟨(i 1).val / 131072, hN⟩ (1 : Fin 2) * 131072 ≤ (i 1).val
      ∧ (i 1).val < win1_2.index ⟨(i 1).val / 131072, hN⟩ (1 : Fin 2) * 131072 + win1_2.xsize (grid1.coords ⟨(i 1).val / 131072, hN⟩) (1 : Fin 2)
    rw [e21, x1]
    show (i 1).val / 131072 * 131072 ≤ (i 1).val
      ∧ (i 1).val < (i 1).val / 131072 * 131072 + (if (i 1).val / 131072 = 7 then 82496 else 131072)
    split <;> omega

/-- The result array after the region, at the extended reals: each score less its row's normaliser, the inputs as
    the region found them. -/
theorem final1_eq (c : Dev nD) (W : (b : Ref sig .tc) → Buf (Elt Ideal) ((c : Thread nD τ).loc b)) :
    (dats1 (F := Ideal) c W).arrAt 2 cfg1.N = outOf (W main_call0_v1_1) (W main_call0_v1_0) :=
  (dats1 (F := Ideal) c W).arrAt_eq_of_cover 2 (outOf (W main_call0_v1_1) (W main_call0_v1_0))
    (fun t _ => flushed1_eq c W t) cover1

/-- The same, entry by entry. -/
theorem final1 (c : Dev nD) (W : (b : Ref sig .tc) → Buf (Elt Ideal) ((c : Thread nD τ).loc b)) (r : Fin 32) (k : Fin 1000000) :
    (dats1 (F := Ideal) c W).arrAt 2 cfg1.N (ix2 r k)
      = HSub.hSub (α := EReal) (β := EReal) (γ := EReal) (W main_call0_v1_1 (ix2 r k)) (W main_call0_v1_0 (ix2 r 0)) := by
  rw [final1_eq]; rfl

end Cert.KProof

end
-- ==== Proof.KMain.lean ====
/-
  The whole kernel program as a launch: the host's reshape of the uniform row, then the first kernel's pipeline
  (fourteen steps over blocks of 73728 columns), then the second kernel's (eight steps over blocks of 131072 columns),
  read as one run from any launch memory.

  The buffers' contents are followed from boundary to boundary: `W0` the launch memory, `W1` after the reshape (only
  the reshaped row's buffer changes), `W2` after the first pipeline (its five arrays at what its write-backs leave,
  every other buffer as before), `W3` after the second (likewise for its three arrays). Each pipeline's proof data is
  taken at the contents its region is entered with, and everything here is stated for ANY such proof data that
  (1) reads its arrays off the entry contents, (2) holds them whole, (3) owes nothing at any point and bounds no
  recorded pair, (4) keeps as its invariant exactly the scoped buffers no window stages, and (5) meets the body
  obligation. Under these hypotheses every weakly fair execution of the program terminates with the result buffer at
  what the second pipeline's write-backs leave in its output array and the three arguments unchanged (`kernel_run`).
  What region 0 is entered with is read back to the launch memory (`Vin0_main_arg0` …, the reshaped row entry by
  entry: `Vin0_main_call0_v0_apply`) and what region 1 is entered with to region 0's outputs (`Vin1_v1_0`, `Vin1_v1_1`).
-/
import proofs.«131931_g34385508171941_cont_8to1_b_261_19_alg».proof.Proof.Gen.KernelIdeal.Launch
import proofs.«131931_g34385508171941_cont_8to1_b_261_19_alg».proof.Proof.Gen.KernelIdeal.Regions
import Idealize.ShloMosaic.Lib.Pipeline.RegionsLoop
import Idealize.ShloMosaic.Lib.Pipeline.FrameSuffix
import Idealize.ShloMosaic.Lib.Pipeline.Kit
import Idealize.ShloMosaic.Lib.ValueLayout
import Idealize.ShloMosaic.Lib.Tactic

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Idealize.ShloMosaic.ValueIdx

variable {F : FTy → Type} [FloatOps F]

local notation "𝕄" => MT nD τ sig Unit (Elt F) ℕ (UR sig nD τ) ℕ

/-- A TensorCore's buffer contents on every core: what a region's proof data is taken at. -/
abbrev KVal (F : FTy → Type) : Type := (c : Dev nD) → (b : Ref sig .tc) → Buf (Elt F) ((c : Thread nD τ).loc b)

section Main

variable (dat0 : KVal F → (c : Dev nD) → Dat τ (Elt F) Unit ℕ (UR sig nD τ) ℕ cfg0 c)
  (dat1 : KVal F → (c : Dev nD) → Dat τ (Elt F) Unit ℕ (UR sig nD τ) ℕ cfg1 c)
variable (m : (ℓ : Loc nD τ sig) → Buf (Elt F) ℓ)

/-- Core `c`'s buffers at launch. -/
abbrev W0 (c : Dev nD) : Valuation τ sig (Elt F) := fun b => m (c, b)
/-- After the host's reshape (region 0's entry). -/
abbrev W1 (c : Dev nD) : Valuation τ sig (Elt F) := StableHlo.after hostOps0 (W0 m c)
/-- The same, read at the TensorCore's references: what region 0's proof data is taken at. -/
abbrev Vin0 : KVal F := fun c b => W1 m c b
/-- After region 0: its arrays at what the pipeline's write-backs leave, every other buffer as entered (region 1's entry). -/
def W2 (c : Dev nD) : Valuation τ sig (Elt F) :=
  Pipeline.withArrays spec0 c (W1 m c) fun w => (dat0 (Vin0 m) c).arrAt w cfg0.N
/-- The same, read at the TensorCore's references: what region 1's proof data is taken at. -/
abbrev Vin1 : KVal F := fun c b => W2 dat0 m c b
/-- After region 1: its arrays at what the pipeline's write-backs leave, every other buffer as entered. -/
def W3 (c : Dev nD) : Valuation τ sig (Elt F) :=
  Pipeline.withArrays spec1 c (W2 dat0 m c) fun w => (dat1 (Vin1 dat0 m) c).arrAt w cfg1.N

/-- Region 0's arrays after it. -/
theorem W2_arr (c : Dev nD) (w : Fin cfg0.W) :
    W2 dat0 m c (Proc.devRef .tc (Pipeline.arrRef spec0 w)) = (dat0 (Vin0 m) c).arrAt w cfg0.N := by
  unfold W2; exact Pipeline.withArrays_arr spec0 launch0.win.arr_inj c _ _ w
/-- A buffer that is no array of region 0 is as it was entered. -/
theorem W2_of_ne (c : Dev nD) (b : Ref sig .tc) (hb : ∀ w, Pipeline.arrRef spec0 w ≠ b) :
    W2 dat0 m c (Proc.devRef .tc b) = W1 m c (Proc.devRef .tc b) := by
  unfold W2; exact Pipeline.withArrays_of_ne spec0 c _ _ b hb
/-- Region 1's arrays after it. -/
theorem W3_arr (c : Dev nD) (w : Fin cfg1.W) :
    W3 dat0 dat1 m c (Proc.devRef .tc (Pipeline.arrRef spec1 w)) = (dat1 (Vin1 dat0 m) c).arrAt w cfg1.N := by
  unfold W3; exact Pipeline.withArrays_arr spec1 launch1.win.arr_inj c _ _ w
/-- A buffer that is no array of region 1 is as it was entered. -/
theorem W3_of_ne (c : Dev nD) (b : Ref sig .tc) (hb : ∀ w, Pipeline.arrRef spec1 w ≠ b) :
    W3 dat0 dat1 m c (Proc.devRef .tc b) = W2 dat0 m c (Proc.devRef .tc b) := by
  unfold W3; exact Pipeline.withArrays_of_ne spec1 c _ _ b hb

/-- The reshape writes the reshaped row's buffer only. -/
theorem W1_of (c : Dev nD) (r : Ref sig .tc) (h : r ∉ hostOps0_W) :
    W1 m c (Proc.devRef .tc r) = m ((c : Thread nD τ).loc r) :=
  StableHlo.after_of_writes_sub hostOps0 _ hostOps0_writes h

/-- Region 0 is entered with the three arguments as launched. -/
theorem Vin0_main_arg0 (c : Dev nD) : Vin0 m c main_arg0 = m ((c : Thread nD τ).loc main_arg0) := W1_of m c main_arg0 (by decide)
theorem Vin0_main_arg1 (c : Dev nD) : Vin0 m c main_arg1 = m ((c : Thread nD τ).loc main_arg1) := W1_of m c main_arg1 (by decide)
theorem Vin0_main_arg2 (c : Dev nD) : Vin0 m c main_arg2 = m ((c : Thread nD τ).loc main_arg2) := W1_of m c main_arg2 (by decide)

/-- Region 0 is entered with the reshaped row's buffer at the uniform row cast to one row of a matrix. -/
theorem Vin0_main_call0_v0 (c : Dev nD) :
    Vin0 m c main_call0_v0 = shapeCast S1x1000000 (m ((c : Thread nD τ).loc main_arg2)) shapeCasts_S1000000_S1x1000000 := rfl

/-- Entry by entry: column `k` of that one row is entry `k` of the uniform row. -/
theorem Vin0_main_call0_v0_apply (c : Dev nD) (k : Fin 1000000) :
    Vin0 m c main_call0_v0 (ix2 0 k) = m ((c : Thread nD τ).loc main_arg2) (ix1 k) := by
  rw [Vin0_main_call0_v0]
  exact shapeCast_a_1a_apply _ _ 0 k

/-- Region 1 is entered with region 0's two outputs at what its write-backs leave. -/
theorem Vin1_v1_0 (c : Dev nD) : Vin1 dat0 m c main_call0_v1_0 = (dat0 (Vin0 m) c).arrAt 3 cfg0.N := W2_arr dat0 m c 3
theorem Vin1_v1_1 (c : Dev nD) : Vin1 dat0 m c main_call0_v1_1 = (dat0 (Vin0 m) c).arrAt 4 cfg0.N := W2_arr dat0 m c 4

/-! ## The proof data family and the thread state -/

variable (hA0 : ∀ V c w, (dat0 V c).A w = V c (Pipeline.arrRef spec0 w))
  (hA1 : ∀ V c w, (dat1 V c).A w = V c (Pipeline.arrRef spec1 w))
  (hq0 : ∀ V c w, (dat0 V c).q w = fullShare) (hq1 : ∀ V c w, (dat1 V c).q w = fullShare)
  (ho0 : ∀ V c t, (dat0 V c).owed t = 0) (ho1 : ∀ V c t, (dat1 V c).owed t = 0)
  (hrec0 : ∀ V c t, (dat0 V c).recorded t = Set.univ) (hrec1 : ∀ V c t, (dat1 V c).recorded t = Set.univ)
  (hin0 : ∀ V c, (Pipeline.scopedRest (Ix := Unit) (Name := ℕ) (U := UR sig nD τ) (Lvl := ℕ) (Val := Elt F) spec0 c : sProp (MT nD τ sig Unit (Elt F) ℕ (UR sig nD τ) ℕ)) ⊢ (dat0 V c).Φ 0)
  (hout0 : ∀ V c, (dat0 V c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))
  (hin1 : ∀ V c, (Pipeline.scopedRest (Ix := Unit) (Name := ℕ) (U := UR sig nD τ) (Lvl := ℕ) (Val := Elt F) spec1 c : sProp (MT nD τ sig Unit (Elt F) ℕ (UR sig nD τ) ℕ)) ⊢ (dat1 V c).Φ 0)
  (hout1 : ∀ V c, (dat1 V c).Φ (Fin.last cfg1.N) ⊢ (Pipeline.scopedRest (Ix := Unit) (Name := ℕ) (U := UR sig nD τ) (Lvl := ℕ) (Val := Elt F) spec1 c : sProp (MT nD τ sig Unit (Elt F) ℕ (UR sig nD τ) ℕ)))
  (hb0 : ∀ V c, BodyObligationLoose (dat0 V c) (defs₀ (F := F)) Variants.none () Set.univ)
  (hb1 : ∀ V c, BodyObligationLoose (dat1 V c) (defs₀ (F := F)) Variants.none () Set.univ)

/-- Both pipelines' proof data, each at its region's entry contents. -/
def pdatsK : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 dat0 m) c

/-- No core owes another anything: no level is assigned. -/
abbrev LK : GSem nD τ sig → Finset Unit := fun _ => ∅
abbrev lvK : GSem nD τ sig → Unit → ℕ := fun _ _ => 0
/-- What rides beside the buffers through every segment: the generator register at some state and the core owing nothing. -/
abbrev RK (c : Dev nD) : sProp 𝕄 := iprop((∃ r, prngReg c r) ∗ ∃ W, owes (c : Thread nD τ) (0 : CellTallies nD τ sig Unit) W)

/-- The host's reshape as a segment over the unscoped buffers from the launch contents. -/
def hostK : Pipeline.HostSeg (Name := ℕ) (U := UR sig nD τ) (pcfgs (F := F)) defs₀ Variants.none LK lvK :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) RK

/-- An unscoped TensorCore reference is among those the thread state holds. -/
theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at `W3`, the generator register at some state. -/
abbrev TnK (c : Dev nD) : sProp 𝕄 := iprop(StableHlo.held (c : Thread nD τ) (Pipeline.ucRefs τ sig) (W3 dat0 dat1 m c) ∗ ∃ r, prngReg c r)

/-- After region 0 each of its arrays holds what the pipeline leaves and every other buffer what it held at entry. -/
theorem hF0 (c : Dev nD) (w : Fin cfg0.W) : (dat0 (Vin0 m) c).arrAt w cfg0.N = Vin1 dat0 m c (Pipeline.arrRef spec0 w) :=
  (W2_arr dat0 m c w).symm
theorem hrest0 (c : Dev nD) : ∀ b, b ∉ Finset.univ.image (Pipeline.arrRef spec0) → Vin1 dat0 m c b = Vin0 m c b :=
  fun b hb => W2_of_ne dat0 m c b fun w e => hb (Finset.mem_image.mpr ⟨w, Finset.mem_univ _, e⟩)
/-- After region 1 likewise. -/
theorem hF1 (c : Dev nD) (w : Fin cfg1.W) : (dat1 (Vin1 dat0 m) c).arrAt w cfg1.N = (fun b => W3 dat0 dat1 m c (Proc.devRef .tc b) : (b : Ref sig .tc) → Buf (Elt F) ((c : Thread nD τ).loc b)) (Pipeline.arrRef spec1 w) :=
  (W3_arr dat0 dat1 m c w).symm
theorem hrest1 (c : Dev nD) : ∀ b, b ∉ Finset.univ.image (Pipeline.arrRef spec1) → (fun b => W3 dat0 dat1 m c (Proc.devRef .tc b) : (b : Ref sig .tc) → Buf (Elt F) ((c : Thread nD τ).loc b)) b = Vin1 dat0 m c b :=
  fun b hb => W3_of_ne dat0 dat1 m c b fun w e => hb (Finset.mem_image.mpr ⟨w, Finset.mem_univ _, e⟩)

/-! ## The regions as segments -/

set_option backward.isDefEq.respectTransparency.types false in
/-- REGION 0 over the thread state: entered from every unscoped buffer at `W1`, left at `W2`. Its arrays are split out of the
    unscoped buffers at entry and put back at the exit contents; the invariant takes exactly the scoped buffers no window
    stages; the generator register and the other unscoped buffers bypass the region; nothing is owed. -/
def reg0 : Pipeline.RegionSeg (pcfgs (F := F)) adm (pdatsK dat0 dat1 m) () defs₀ Variants.none LK lvK 0 where
  win := launch0.win.to₀
  block_pos := launch0.block_pos
  stage_whole := launch0.stage_whole
  K := PEmpty
  osem k := k.elim
  ho := Pipeline.OwnSemFacts.none _
  hbody c := hb0 (Vin0 m) c
  hwaits := Pipeline.hwaits_of_owed_zero _ _ _ _ LK lvK 0 fun c t => ho0 (Vin0 m) c t
  pre c := iprop(StableHlo.held (c : Thread nD τ) (Pipeline.ucRefs τ sig) (W1 m c) ∗ RK c)
  post c := iprop(StableHlo.held (c : Thread nD τ) (Pipeline.ucRefs τ sig) (W2 dat0 m c) ∗ RK c)
  X c := iprop(emp)
  Y c := iprop(emp)
  Z c := iprop(Pipeline.unscopedRest (Ix := Unit) (Name := ℕ) (U := UR sig nD τ) (Lvl := ℕ) spec0 c (Vin0 m c) ∗ ∃ r, prngReg c r)
  hentry c := by
    rw [Pipeline.ownSems0_none]
    have hsplit := Pipeline.arrays_of_unscopedBufs (p := 0) (pcfgs (F := F)) adm (pdatsK dat0 dat1 m) launch0.win launch0.arr_whole c
      ((pdatsK dat0 dat1 m 0 c).share_full fun w => hq0 (Vin0 m) c w) (Vin0 m c) fun w => hA0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsK dat0 dat1 m 0 c).owed 0 = 0 from ho0 (Vin0 m) c 0]
      icases HO with ⟨%W, HO⟩; iexists W; isplitr
      · ipureintro; exact fun x _ => Or.inl (by rw [show (pdatsK dat0 dat1 m 0 c).recorded 0 = Set.univ from hrec0 (Vin0 m) c 0]; trivial)
      iexact HO
    isplitr; · iempintro
    isplitl [Hrest]; · iexact Hrest
    iexact Hp
  hin c := by
    rw [show (pdatsK dat0 dat1 m 0 c).Φ 0 = (dat0 (Vin0 m) c).Φ 0 from rfl]
    iintro ⟨-, -, Hr⟩
    iapply (hin0 (Vin0 m) c)
    iexact Hr
  hout c := by
    rw [Pipeline.ownSems0_none, show (pdatsK dat0 dat1 m 0 c).Φ (Fin.last _) = (dat0 (Vin0 m) c).Φ (Fin.last cfg0.N) from rfl]
    iintro H
    ihave Hr := (hout0 (Vin0 m) c) $$ H
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsK dat0 dat1 m) ((pdatsK dat0 dat1 m 0 c).share_full fun w => hq0 (Vin0 m) c w)
      (Vin0 m c) (Vin1 dat0 m c) ((pdatsK dat0 dat1 m 0 c).arrAt · cfg0.N) (hF0 dat0 m c) (hrest0 dat0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [show (pdatsK dat0 dat1 m 0 c).owed (Fin.last _) = 0 from ho0 (Vin0 m) c _]
    icases HO with ⟨%W, -, HO⟩; iexists W; iexact HO

/-- The contents after region 1, read at the TensorCore's references. -/
abbrev Vout : KVal F := fun c b => W3 dat0 dat1 m c b

set_option backward.isDefEq.respectTransparency.types false in
/-- REGION 1 over the thread state: entered from every unscoped buffer at `W2`, left at `W3` beside the core owing nothing. -/
def reg1 : Pipeline.RegionSeg (pcfgs (F := F)) adm (pdatsK dat0 dat1 m) () defs₀ Variants.none LK lvK 1 where
  win := launch1.win.to₀
  block_pos := launch1.block_pos
  stage_whole := launch1.stage_whole
  K := PEmpty
  osem k := k.elim
  ho := Pipeline.OwnSemFacts.none _
  hbody c := hb1 (Vin1 dat0 m) c
  hwaits := Pipeline.hwaits_of_owed_zero _ _ _ _ LK lvK 1 fun c t => ho1 (Vin1 dat0 m) c t
  pre c := iprop(StableHlo.held (c : Thread nD τ) (Pipeline.ucRefs τ sig) (W2 dat0 m c) ∗ RK c)
  post c := iprop(TnK dat0 dat1 m c ∗ ∃ W, owes (c : Thread nD τ) (0 : CellTallies nD τ sig Unit) W)
  X c := iprop(emp)
  Y c := iprop(emp)
  Z c := iprop(Pipeline.unscopedRest (Ix := Unit) (Name := ℕ) (U := UR sig nD τ) (Lvl := ℕ) spec1 c (Vin1 dat0 m c) ∗ ∃ r, prngReg c r)
  hentry c := by
    rw [Pipeline.ownSems0_none]
    have hsplit := Pipeline.arrays_of_unscopedBufs (p := 1) (pcfgs (F := F)) adm (pdatsK dat0 dat1 m) launch1.win launch1.arr_whole c
      ((pdatsK dat0 dat1 m 1 c).share_full fun w => hq1 (Vin1 dat0 m) c w) (Vin1 dat0 m c) fun w => hA1 (Vin1 dat0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsK dat0 dat1 m 1 c).owed 0 = 0 from ho1 (Vin1 dat0 m) c 0]
      icases HO with ⟨%W, HO⟩; iexists W; isplitr
      · ipureintro; exact fun x _ => Or.inl (by rw [show (pdatsK dat0 dat1 m 1 c).recorded 0 = Set.univ from hrec1 (Vin1 dat0 m) c 0]; trivial)
      iexact HO
    isplitr; · iempintro
    isplitl [Hrest]; · iexact Hrest
    iexact Hp
  hin c := by
    rw [show (pdatsK dat0 dat1 m 1 c).Φ 0 = (dat1 (Vin1 dat0 m) c).Φ 0 from rfl]
    iintro ⟨-, -, Hr⟩
    iapply (hin1 (Vin1 dat0 m) c)
    iexact Hr
  hout c := by
    rw [Pipeline.ownSems0_none, show (pdatsK dat0 dat1 m 1 c).Φ (Fin.last _) = (dat1 (Vin1 dat0 m) c).Φ (Fin.last cfg1.N) from rfl]
    iintro H
    ihave Hr := (hout1 (Vin1 dat0 m) c) $$ H
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsK dat0 dat1 m) ((pdatsK dat0 dat1 m 1 c).share_full fun w => hq1 (Vin1 dat0 m) c w)
      (Vin1 dat0 m c) (Vout dat0 dat1 m c) ((pdatsK dat0 dat1 m 1 c).arrAt · cfg1.N) (hF1 dat0 dat1 m c) (hrest1 dat0 dat1 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    rw [show (pdatsK dat0 dat1 m 1 c).owed (Fin.last _) = 0 from ho1 (Vin1 dat0 m) c _]
    icases HO with ⟨%W, -, HO⟩; iexists W; iexact HO

/-! ## @main as segments, and the launch -/

/-- The program's three segments in order: the reshape, region 0, region 1. -/
abbrev ksegs : List (Pipeline.Seg (pcfgs (F := F)) adm (pdatsK dat0 dat1 m) () defs₀ Variants.none LK lvK) :=
  [ .host (hostK m),
    .region (reg0 dat0 dat1 m hA0 hq0 ho0 hrec0 hin0 hout0 hb0),
    .region (reg1 dat0 dat1 m hA1 hq1 ho1 hrec1 hin1 hout1 hb1) ]

/-- The program IS the run of its segments. -/
theorem main_run (c : Dev nD) :
    main (F := F) c = Pipeline.Seg.run (ksegs dat0 dat1 m hA0 hA1 hq0 hq1 ho0 ho1 hrec0 hrec1 hin0 hout0 hin1 hout1 hb0 hb1) :=
  main_segs adm (pdatsK dat0 dat1 m) () Variants.none LK lvK (hostK m) _ _ rfl c

include hA0 in
/-- The arguments end as launched: the first two are read by region 0 through input windows, which never change their
    arrays, and bypass region 1; the third bypasses both regions; the reshape writes none of them. -/
theorem W3_main_arg0 (c : Dev nD) : W3 dat0 dat1 m c (Proc.devRef .tc main_arg0) = m ((c : Thread nD τ).loc main_arg0) :=
  calc W3 dat0 dat1 m c (Proc.devRef .tc main_arg0)
    _ = W2 dat0 m c (Proc.devRef .tc main_arg0) := W3_of_ne dat0 dat1 m c main_arg0 (by decide)
    _ = Vin0 m c main_arg0 := (W2_arr dat0 m c 0).trans (((dat0 (Vin0 m) c).arrAt_in 0 rfl _).trans (hA0 (Vin0 m) c 0))
    _ = m ((c : Thread nD τ).loc main_arg0) := Vin0_main_arg0 m c
include hA0 in
theorem W3_main_arg1 (c : Dev nD) : W3 dat0 dat1 m c (Proc.devRef .tc main_arg1) = m ((c : Thread nD τ).loc main_arg1) :=
  calc W3 dat0 dat1 m c (Proc.devRef .tc main_arg1)
    _ = W2 dat0 m c (Proc.devRef .tc main_arg1) := W3_of_ne dat0 dat1 m c main_arg1 (by decide)
    _ = Vin0 m c main_arg1 := (W2_arr dat0 m c 1).trans (((dat0 (Vin0 m) c).arrAt_in 1 rfl _).trans (hA0 (Vin0 m) c 1))
    _ = m ((c : Thread nD τ).loc main_arg1) := Vin0_main_arg1 m c
theorem W3_main_arg2 (c : Dev nD) : W3 dat0 dat1 m c (Proc.devRef .tc main_arg2) = m ((c : Thread nD τ).loc main_arg2) :=
  calc W3 dat0 dat1 m c (Proc.devRef .tc main_arg2)
    _ = W2 dat0 m c (Proc.devRef .tc main_arg2) := W3_of_ne dat0 dat1 m c main_arg2 (by decide)
    _ = W1 m c (Proc.devRef .tc main_arg2) := W2_of_ne dat0 m c main_arg2 (by decide)
    _ = m ((c : Thread nD τ).loc main_arg2) := Vin0_main_arg2 m c

include hA0 hA1 hq0 hq1 ho0 ho1 hrec0 hrec1 hin0 hout0 hin1 hout1 hb0 hb1 in
set_option backward.isDefEq.respectTransparency.types false in
/-- **The kernel program's run.** From any memory with zero counters, every weakly fair execution terminates with the result
    buffer at what region 1's write-backs leave in its output array (window 2), and the three arguments as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v0) = (dat1 (Vin1 dat0 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdatsK dat0 dat1 m) () cellOf_inj emb₁ defs₀ Variants.none LK lvK m ρ main
    (ksegs dat0 dat1 m hA0 hA1 hq0 hq1 ho0 ho1 hrec0 hrec1 hin0 hout0 hin1 hout1 hb0 hb1)
    (fun c Q => by rw [main_run dat0 dat1 m hA0 hA1 hq0 hq1 ho0 ho1 hrec0 hrec1 hin0 hout0 hin1 hout1 hb0 hb1 c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RK c)) (Tₙ := TnK dat0 dat1 m)
    (hch := ⟨fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (W3 dat0 dat1 m c) s')
      isplitl [Hh] <;> iassumption)
    (hQ := fun s h c =>
      ⟨(h c _ (mem_ucK main_v0 (by decide))).trans (W3_arr dat0 dat1 m c 2),
       (h c _ (mem_ucK main_arg0 (by decide))).trans (W3_main_arg0 dat0 dat1 m hA0 c),
       (h c _ (mem_ucK main_arg1 (by decide))).trans (W3_main_arg1 dat0 dat1 m hA0 c),
       (h c _ (mem_ucK main_arg2 (by decide))).trans (W3_main_arg2 dat0 dat1 m c)⟩)

end Main

end Cert.KProof
-- ==== Proof.KInst.lean ====
/-
  The launch plumbing at the two regions' proof data. Region 0's data keeps as its invariant the accumulator's scratch
  buffer at the running row sums of the points before (at anything before the first point and after the last) beside
  the other scoped buffers no window stages at anything; region 1's keeps exactly those scoped buffers. Both read their
  arrays off the entry contents, hold them whole, owe nothing and bound no recorded pair. So every weakly fair execution
  of the program terminates with the result buffer at what region 1's write-backs leave in its output array and the
  three arguments as launched (`kernel_run_inst`), in particular with the arguments as launched (`kernel_frame`).
-/
import proofs.«131931_g34385508171941_cont_8to1_b_261_19_alg».proof.Proof.Sum0Body
import proofs.«131931_g34385508171941_cont_8to1_b_261_19_alg».proof.Proof.Out1
import proofs.«131931_g34385508171941_cont_8to1_b_261_19_alg».proof.Proof.KMain

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Region 0's proof data at entry contents `V`. -/
abbrev kd0 : KVal F → (c : Dev nD) → Dat τ (Elt F) Unit ℕ (UR sig nD τ) ℕ cfg0 c := fun V c => dat0 V c
/-- Region 1's proof data at entry contents `V`. -/
abbrev kd1 : KVal F → (c : Dev nD) → Dat τ (Elt F) Unit ℕ (UR sig nD τ) ℕ cfg1 c := fun V c => dats1 c (V c)

/-- Both read their arrays off the entry contents, -/
theorem kA0 (V : KVal F) (c : Dev nD) (w : Fin cfg0.W) : (kd0 V c).A w = V c (Pipeline.arrRef spec0 w) := A_eq0 V c w
theorem kA1 (V : KVal F) (c : Dev nD) (w : Fin cfg1.W) : (kd1 V c).A w = V c (Pipeline.arrRef spec1 w) := rfl
/-- hold them whole, -/
theorem kq0 (V : KVal F) (c : Dev nD) (w : Fin cfg0.W) : (kd0 V c).q w = fullShare := rfl
theorem kq1 (V : KVal F) (c : Dev nD) (w : Fin cfg1.W) : (kd1 V c).q w = fullShare := rfl
/-- owe nothing at any point, -/
theorem ko0 (V : KVal F) (c : Dev nD) (t : Fin (cfg0.N + 1)) : (kd0 V c).owed t = 0 := rfl
theorem ko1 (V : KVal F) (c : Dev nD) (t : Fin (cfg1.N + 1)) : (kd1 V c).owed t = 0 := rfl
/-- and bound no recorded pair. -/
theorem krec0 (V : KVal F) (c : Dev nD) (t : Fin (cfg0.N + 1)) : (kd0 V c).recorded t = Set.univ := rfl
theorem krec1 (V : KVal F) (c : Dev nD) (t : Fin (cfg1.N + 1)) : (kd1 V c).recorded t = Set.univ := rfl

/-- Region 0's invariant before the first point is made of the scoped buffers no window stages: the accumulator's
    scratch buffer at whatever it holds (before the first point nothing is claimed of it), the others as they are. -/
theorem kin0 (V : KVal F) (c : Dev nD) :
    (Pipeline.scopedRest (Ix := Unit) (Name := ℕ) (U := UR sig nD τ) (Lvl := ℕ) (Val := Elt F) spec0 c : sProp 𝕄) ⊢ (kd0 V c).Φ 0 := by
  rw [scopedRest0_eq]
  show _ ⊢ Phi0 V c 0
  unfold Phi0
  iintro ⟨⟨%f, H0⟩, Hrest⟩
  isplitl [H0]
  · iexists f; isplitr; · ipureintro; exact Or.inl rfl
    iexact H0
  iexact Hrest

/-- Region 0's invariant after the last point gives those scoped buffers back: what the accumulator's buffer holds
    is forgotten. -/
theorem kout0 (V : KVal F) (c : Dev nD) :
    (kd0 V c).Φ (Fin.last cfg0.N) ⊢ (Pipeline.scopedRest (Ix := Unit) (Name := ℕ) (U := UR sig nD τ) (Lvl := ℕ) (Val := Elt F) spec0 c : sProp 𝕄) := by
  rw [scopedRest0_eq]
  show Phi0 V c (Fin.last cfg0.N) ⊢ _
  unfold Phi0
  iintro ⟨⟨%f, -, H0⟩, Hrest⟩
  isplitl [H0]
  · iexists f; iexact H0
  iexact Hrest

/-- Region 1's invariant IS the scoped buffers no window stages, at every point. -/
theorem kin1 (V : KVal F) (c : Dev nD) :
    (Pipeline.scopedRest (Ix := Unit) (Name := ℕ) (U := UR sig nD τ) (Lvl := ℕ) (Val := Elt F) spec1 c : sProp 𝕄) ⊢ (kd1 V c).Φ 0 :=
  BI.Entails.refl _
theorem kout1 (V : KVal F) (c : Dev nD) :
    (kd1 V c).Φ (Fin.last cfg1.N) ⊢ (Pipeline.scopedRest (Ix := Unit) (Name := ℕ) (U := UR sig nD τ) (Lvl := ℕ) (Val := Elt F) spec1 c : sProp 𝕄) :=
  BI.Entails.refl _

/-- The body obligations. -/
theorem kb0 (V : KVal F) (c : Dev nD) : BodyObligationLoose (kd0 V c) (defs₀ (F := F)) Variants.none () Set.univ :=
  body_obligation0 V c
theorem kb1 (V : KVal F) (c : Dev nD) : BodyObligationLoose (kd1 V c) (defs₀ (F := F)) Variants.none () Set.univ :=
  body_obligation1 c (V c)

/-- **The kernel program's run at the two regions' proof data.** From any memory with zero counters, every weakly fair
    execution terminates with the result buffer at what region 1's write-backs leave in its output array (window 2), and
    the three arguments as launched. -/
theorem kernel_run_inst (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v0) = (kd1 (Vin1 kd0 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  kernel_run kd0 kd1 m kA0 kA1 kq0 kq1 ko0 ko1 krec0 krec1 kin0 kout0 kin1 kout1 kb0 kb1 ρ

/-- **The frame**: every weakly fair execution of the program terminates with the three arguments as launched. -/
theorem kernel_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (kernel_run_inst m ρ)

end Cert.KProof
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.LibLogSoftmax.lean ====
/-
  Log-softmax on the extended reals: the unshifted form `x i - log (∑ j, exp (x j))` and the form shifted by
  the row maximum, `(x i - M) - log (∑ j, exp (x j - M))`, are EQUAL for every family `x : ι → EReal` over a
  finite index type whose maximum `M` is attained — infinite entries included — under the conventions of the
  ideal float values (`exp ⊥ = 0`, `exp ⊤ = ⊤`, `log ⊤ = ⊤`, `log 0 = ⊥`, `log` of a negative `⊥`, and
  EReal's `⊤ + ⊥ = ⊥`, so `x - ⊤ = ⊥` and `⊥ - x = ⊥` for every `x`).

  The argument, by the kind of the maximum `M`:
  • `M = ⊥`: every entry is `⊥`, and `⊥ - y = ⊥` for every `y`, on both sides.
  • `M = ⊤`: on the left the sum of the nonnegative terms `exp (x j)` contains `exp ⊤ = ⊤`, so it is `⊤`,
    its logarithm `⊤`, and `x i - ⊤ = ⊥`; on the right `x i - ⊤ = ⊥` already and `⊥ - y = ⊥`.
  • `M = m` real: every entry is `⊥` or real, every `exp (x j)` is a nonnegative real `e j`, the sum
    `S = ∑ e j` is a positive real (it contains `exp m`), `exp (x j - m) = e j / exp m`, so the shifted sum is
    `S / exp m` and its logarithm `log S - m`; and `y - a = (y - m) - (a - m)` for every extended real `y`
    and reals `a`, `m`.

  Also here: a row maximum read as a fold of `max` from `⊥` (or as a `Finset.sup`) bounds every entry and, over
  a nonempty index set, is attained — the two hypotheses of the main theorem.
-/
import Idealize.ShloMosaic.PureOps.Ideal

noncomputable section

namespace Cert.LibLogSoftmax

open Idealize.ShloMosaic
open scoped BigOperators

/-! ## Small facts about `exp`, `log` and sums of extended reals -/

/-- The coercion `ℝ → EReal` commutes with finite sums. -/
theorem coe_finset_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The ideal exponential is nonnegative everywhere (`exp ⊥ = 0`, `exp ⊤ = ⊤`). -/
theorem exp_nonneg (y : EReal) : 0 ≤ Ideal.exp y := by
  induction y using EReal.rec with
  | bot => rw [Ideal.exp_bot]
  | top => rw [Ideal.exp_top]; exact le_top
  | coe r => rw [Ideal.exp_coe]; exact_mod_cast (Real.exp_pos r).le

/-- The ideal logarithm of zero is `⊥` (that is `-∞`, exact). -/
theorem log_zero : Ideal.log 0 = ⊥ := by
  rw [← EReal.coe_zero, Ideal.log_coe, if_pos le_rfl]

/-- The ideal logarithm of a positive real is the real logarithm. -/
theorem log_coe_of_pos {r : ℝ} (hr : 0 < r) : Ideal.log (r : EReal) = (Real.log r : EReal) := by
  rw [Ideal.log_coe, if_neg (not_le.mpr hr)]

/-- Away from `⊤` the ideal exponential is a real: it is the coercion of its own real part. -/
theorem exp_eq_coe_toReal {y : EReal} (hy : y ≠ ⊤) : Ideal.exp y = (((Ideal.exp y).toReal : ℝ) : EReal) := by
  induction y using EReal.rec with
  | bot => rw [Ideal.exp_bot, EReal.toReal_zero, EReal.coe_zero]
  | top => exact absurd rfl hy
  | coe r => rw [Ideal.exp_coe, EReal.toReal_coe]

/-- Away from `⊤`, shifting the argument by a real `m` divides the exponential by `exp m`. -/
theorem exp_sub_coe {y : EReal} (hy : y ≠ ⊤) (m : ℝ) :
    Ideal.exp (y - (m : EReal)) = ((((Ideal.exp y).toReal / Real.exp m : ℝ)) : EReal) := by
  induction y using EReal.rec with
  | bot => rw [EReal.bot_sub, Ideal.exp_bot, EReal.toReal_zero, zero_div, EReal.coe_zero]
  | top => exact absurd rfl hy
  | coe r => rw [← EReal.coe_sub, Ideal.exp_coe, Ideal.exp_coe, EReal.toReal_coe, Real.exp_sub]

/-- Subtracting a real `a` is subtracting `m` and then `a - m`, for every extended real (at `⊥` and `⊤` both
    sides are that infinity). -/
theorem sub_coe_eq_sub_sub (y : EReal) (a m : ℝ) :
    y - (a : EReal) = (y - (m : EReal)) - ((a - m : ℝ) : EReal) := by
  induction y using EReal.rec with
  | bot => rw [EReal.bot_sub, EReal.bot_sub, EReal.bot_sub]
  | top => rw [EReal.top_sub_coe, EReal.top_sub_coe, EReal.top_sub_coe]
  | coe r => rw [← EReal.coe_sub, ← EReal.coe_sub, ← EReal.coe_sub]; congr 1; ring

/-- A finite sum of ideal exponentials one of whose arguments is `⊤` is `⊤`: the terms are nonnegative and
    one of them is `⊤`. -/
theorem sum_exp_eq_top {ι : Type*} [Fintype ι] (x : ι → EReal) {j₀ : ι} (h : x j₀ = ⊤) :
    ∑ j, Ideal.exp (x j) = ⊤ := by
  have hle : Ideal.exp (x j₀) ≤ ∑ j, Ideal.exp (x j) :=
    Finset.single_le_sum (f := fun j => Ideal.exp (x j)) (fun j _ => exp_nonneg (x j)) (Finset.mem_univ j₀)
  rw [h, Ideal.exp_top] at hle
  exact top_le_iff.mp hle

/-! ## The shift by the maximum -/

/-- **Log-softmax is invariant under the shift by the row maximum**, on the extended reals with the ideal
    conventions, for EVERY family over a finite index type — infinite entries included: if `M` bounds every
    entry and is attained, then `x i - log (∑ j, exp (x j)) = (x i - M) - log (∑ j, exp (x j - M))`. -/
theorem logSoftmax_shift {ι : Type*} [Fintype ι] (x : ι → EReal) (M : EReal)
    (hub : ∀ j, x j ≤ M) (hatt : ∃ j, x j = M) (i : ι) :
    x i - Ideal.log (∑ j, Ideal.exp (x j)) = (x i - M) - Ideal.log (∑ j, Ideal.exp (x j - M)) := by
  obtain ⟨j₀, hj₀⟩ := hatt
  induction M using EReal.rec with
  | bot =>
    -- every entry is ⊥, and ⊥ - y = ⊥
    have hi : x i = ⊥ := le_bot_iff.mp (hub i)
    rw [hi, EReal.bot_sub, EReal.bot_sub, EReal.bot_sub]
  | top =>
    -- left: the sum is ⊤, its logarithm ⊤, and y - ⊤ = ⊥; right: x i - ⊤ = ⊥ and ⊥ - y = ⊥
    rw [sum_exp_eq_top x hj₀, Ideal.log_top, EReal.sub_top, EReal.bot_sub]
  | coe m =>
    have hne : ∀ j, x j ≠ ⊤ := fun j hj => by
      have := hub j; rw [hj, top_le_iff] at this; exact EReal.coe_ne_top m this
    -- the real terms and their sum
    have hS₁ : ∑ j, Ideal.exp (x j) = ((∑ j, (Ideal.exp (x j)).toReal : ℝ) : EReal) := by
      rw [coe_finset_sum]; exact Finset.sum_congr rfl fun j _ => exp_eq_coe_toReal (hne j)
    have hS₂ : ∑ j, Ideal.exp (x j - (m : EReal))
        = (((∑ j, (Ideal.exp (x j)).toReal) / Real.exp m : ℝ) : EReal) := by
      rw [Finset.sum_div, coe_finset_sum]; exact Finset.sum_congr rfl fun j _ => exp_sub_coe (hne j) m
    -- the sum is positive: it contains exp m
    have hpos : 0 < ∑ j, (Ideal.exp (x j)).toReal := by
      have hle : (Ideal.exp (x j₀)).toReal ≤ ∑ j, (Ideal.exp (x j)).toReal :=
        Finset.single_le_sum (f := fun j => (Ideal.exp (x j)).toReal)
          (fun j _ => EReal.toReal_nonneg (exp_nonneg (x j))) (Finset.mem_univ j₀)
      rw [hj₀, Ideal.exp_coe, EReal.toReal_coe] at hle
      exact lt_of_lt_of_le (Real.exp_pos m) hle
    rw [hS₁, hS₂, log_coe_of_pos hpos, log_coe_of_pos (div_pos hpos (Real.exp_pos m)),
      Real.log_div hpos.ne' (Real.exp_pos m).ne', Real.log_exp]
    exact sub_coe_eq_sub_sub (x i) _ m

/-- The same statement spelled with the scalar float operations of the ideal instance (`FloatOps.subf`,
    `FloatOps.exp`, `FloatOps.log` at `F := Ideal`): these ARE EReal's subtraction and the ideal `exp` / `log`
    (`Ideal.subf_def`, `Ideal.exp_def`, `Ideal.log_def`), so a caller may use either spelling. -/
theorem logSoftmax_shift_floatOps {φ : FTy} {ι : Type*} [Fintype ι] (x : ι → Ideal φ) (M : Ideal φ)
    (hub : ∀ j, x j ≤ M) (hatt : ∃ j, x j = M) (i : ι) :
    FloatOps.subf (x i) (FloatOps.log (∑ j, FloatOps.exp (x j)))
      = FloatOps.subf (FloatOps.subf (x i) M) (FloatOps.log (∑ j, FloatOps.exp (FloatOps.subf (x j) M))) :=
  logSoftmax_shift x M hub hatt i

/-- The same statement with the host's one-operand operations (`FloatOps.hostUnary .exp`, `.log`) on the
    shifted side and the kernel's on the unshifted side: at the ideal instance all four are the ideal
    `exp` / `log` (`Ideal.hostUnary_exp_def`, `Ideal.hostUnary_log_def`). -/
theorem logSoftmax_shift_host {φ : FTy} {ι : Type*} [Fintype ι] (x : ι → Ideal φ) (M : Ideal φ)
    (hub : ∀ j, x j ≤ M) (hatt : ∃ j, x j = M) (i : ι) :
    FloatOps.subf (x i) (FloatOps.log (∑ j, FloatOps.exp (x j)))
      = FloatOps.subf (FloatOps.subf (x i) M)
          (FloatOps.hostUnary .log (∑ j, FloatOps.hostUnary .exp (FloatOps.subf (x j) M))) :=
  logSoftmax_shift x M hub hatt i

/-! ## The row maximum as a fold of `max` -/

/-- A fold of `max` from `⊥` over a finite set is the supremum over it. -/
theorem fold_max_bot_eq_sup {ι : Type*} (s : Finset ι) (x : ι → EReal) : s.fold max ⊥ x = s.sup x := rfl

/-- The supremum of a family over a finite set bounds every member and, over a nonempty set, is attained. -/
theorem sup_bound_attained {ι : Type*} (s : Finset ι) (x : ι → EReal) (M : EReal) (hM : M = s.sup x) :
    (∀ j ∈ s, x j ≤ M) ∧ (s.Nonempty → ∃ j ∈ s, x j = M) := by
  subst hM
  refine ⟨fun j hj => Finset.le_sup hj, fun hs => ?_⟩
  obtain ⟨j, hj, h⟩ := Finset.exists_mem_eq_sup s hs x
  exact ⟨j, hj, h.symm⟩

/-- **The row maximum as a supremum over the whole index type** bounds every entry and, when the index type
    is nonempty, is attained: the two hypotheses of `logSoftmax_shift`. -/
theorem max_sup {ι : Type*} [Fintype ι] (x : ι → EReal) (M : EReal) (hM : M = Finset.univ.sup x) :
    (∀ j, x j ≤ M) ∧ (Nonempty ι → ∃ j, x j = M) := by
  obtain ⟨h₁, h₂⟩ := sup_bound_attained Finset.univ x M hM
  refine ⟨fun j => h₁ j (Finset.mem_univ j), fun hne => ?_⟩
  obtain ⟨j, _, hj⟩ := h₂ Finset.univ_nonempty
  exact ⟨j, hj⟩

/-- **The row maximum as a fold of `max` from `⊥`** (how a `maximumf` reduction over one axis reads at the
    ideal values, its accumulator's `-∞` being `⊥`) bounds every entry and, when the index type is nonempty,
    is attained: the two hypotheses of `logSoftmax_shift`. -/
theorem max_fold {ι : Type*} [Fintype ι] (x : ι → EReal) (M : EReal) (hM : M = Finset.univ.fold max ⊥ x) :
    (∀ j, x j ≤ M) ∧ (Nonempty ι → ∃ j, x j = M) :=
  max_sup x M hM

/-- The fold from an initial value that IS `⊥` (stated so that a caller need not rewrite the accumulator
    first). -/
theorem max_fold_of_eq_bot {ι : Type*} [Fintype ι] (x : ι → EReal) (b M : EReal) (hb : b = ⊥)
    (hM : M = Finset.univ.fold max b x) : (∀ j, x j ≤ M) ∧ (Nonempty ι → ∃ j, x j = M) := by
  subst hb; exact max_fold x M hM

/-- Log-softmax shifted by the fold-of-`max` row maximum equals the unshifted one, over a nonempty finite index
    type: `logSoftmax_shift` with its two hypotheses discharged by `max_fold`. -/
theorem logSoftmax_shift_fold {ι : Type*} [Fintype ι] [Nonempty ι] (x : ι → EReal) (i : ι) :
    x i - Ideal.log (∑ j, Ideal.exp (x j))
      = (x i - Finset.univ.fold max ⊥ x)
          - Ideal.log (∑ j, Ideal.exp (x j - Finset.univ.fold max ⊥ x)) := by
  obtain ⟨h₁, h₂⟩ := max_fold x _ rfl
  exact logSoftmax_shift x _ h₁ (h₂ inferInstance) i

end Cert.LibLogSoftmax
-- ==== Proof.RefValue.lean ====
/-
  What the reference computes, at the ideal float values, as ONE closed formula of its three argument arrays.

  The reference adds to the logits `x0` a Gumbel term of the uniform row `x2` (the same for every row), divides by
  the literal one, adds the logarithm of the mask `x1` shifted by the least positive subnormal, and takes the
  log-softmax of each row, computed SHIFTED by the row maximum. On the extended reals the quotient by one is the
  identity on every value (infinities included), and the shifted log-softmax is the unshifted one for every row
  (`LibLogSoftmax.logSoftmax_shift`: infinite entries included). So the reference's result is `spec` below, the
  UNSHIFTED log-softmax of `masked`, index by index (`ref_eq_spec`), and every run of the reference ends with its
  result buffer at `spec` of the arguments' launch contents and the arguments unchanged (`ref_run`).
-/
import proofs.«131931_g34385508171941_cont_8to1_b_261_19_alg».proof.Proof.RefRead
import proofs.«131931_g34385508171941_cont_8to1_b_261_19_alg».proof.Proof.LibLogSoftmax
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## The specification -/

/-- The Gumbel term at column `c`: `-log (-log (u + ε) + ε)` of the uniform sample `u = x2 c`, with `ε` the f32
    pattern `0x1E3CE508` (about `1e-20`), kept as a pattern. -/
def gum (x2 : (⟨S1000000, .f32⟩ : BufTy).Contents (Elt Ideal)) (c : Fin 1000000) : EReal :=
  -Ideal.log (-Ideal.log (x2 (ix1 c) + Ideal.ofBits .f32 0x1E3CE508#32) + Ideal.ofBits .f32 0x1E3CE508#32)

/-- The masked, perturbed logit at row `r`, column `c`: the logit plus the column's Gumbel term plus the logarithm
    of the mask entry shifted by the f32 pattern `0x00000001` (the least positive subnormal), kept as a pattern. -/
def masked (x0 x1 : (⟨S32x1000000, .f32⟩ : BufTy).Contents (Elt Ideal))
    (x2 : (⟨S1000000, .f32⟩ : BufTy).Contents (Elt Ideal)) (r : Fin 32) (c : Fin 1000000) : EReal :=
  x0 (ix2 r c) + gum x2 c + Ideal.log (x1 (ix2 r c) + Ideal.ofBits .f32 0x00000001#32)

/-- The specification: the UNSHIFTED log-softmax of each row of `masked`. -/
def spec (x0 x1 : (⟨S32x1000000, .f32⟩ : BufTy).Contents (Elt Ideal))
    (x2 : (⟨S1000000, .f32⟩ : BufTy).Contents (Elt Ideal)) : S32x1000000.Idx → EReal := fun i =>
  masked x0 x1 x2 (i 0) (i 1) - Ideal.log (∑ c' : Fin 1000000, Ideal.exp (masked x0 x1 x2 (i 0) c'))

/-- The specification at an index given by its coordinates. -/
theorem spec_ix2 (x0 x1 : (⟨S32x1000000, .f32⟩ : BufTy).Contents (Elt Ideal))
    (x2 : (⟨S1000000, .f32⟩ : BufTy).Contents (Elt Ideal)) (r : Fin 32) (c : Fin 1000000) :
    spec x0 x1 x2 (ix2 r c)
      = masked x0 x1 x2 r c - Ideal.log (∑ c' : Fin 1000000, Ideal.exp (masked x0 x1 x2 r c')) := rfl

/-! ## Three literals and the quotient by one -/

/-- The f32 pattern `0x3F800000` is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The f32 pattern `0xFF800000` is `⊥`, that is `-∞`. -/
theorem ofBits_neg_inf : Ideal.ofBits .f32 0xFF800000#32 = ⊥ := by simp [Ideal.ofBits, Ideal.ieee]

/-- The ideal quotient by one is the identity on EVERY extended real: one is not zero, its inverse is one, and
    `x * 1 = x` at the infinities too. -/
theorem div_one (x : EReal) : Ideal.div x 1 = x := by
  have h := Ideal.div_coe (one_ne_zero : (1 : ℝ) ≠ 0) x
  rw [one_div, inv_one, EReal.coe_one, mul_one] at h
  exact h

/-! ## The stages at an index -/

section
variable (x0 x1 : (⟨S32x1000000, .f32⟩ : BufTy).Contents (Elt Ideal))
  (x2 : (⟨S1000000, .f32⟩ : BufTy).Contents (Elt Ideal))

/-- The log-softmax's operand at (r, c) is the masked, perturbed logit there. -/
theorem v16_eq (r : Fin 32) (c : Fin 1000000) :
    ReadP.val_main_v16 (F := Ideal) x0 x1 x2 (ix2 r c) = masked x0 x1 x2 r c := by
  have hidx : ReadP.idx_main_v8 (ReadP.idx_main_v9 (ix2 r c)) = ix1 c := by
    funext a; match a with | ⟨0, _⟩ => rfl
  rw [ReadP.val_main_v16_apply, ReadP.val_main_v12_apply, ReadP.val_main_v10_apply, ReadP.val_main_v9_apply,
    ReadP.val_main_v8_apply, ReadP.val_main_v7_apply, ReadP.val_main_v6_apply, ReadP.val_main_v5_apply,
    ReadP.val_main_v4_apply, ReadP.val_main_cst_0_apply, ReadP.val_main_v3_apply, ReadP.val_main_v2_apply,
    ReadP.val_main_v1_apply, ReadP.val_main_v0_apply, ReadP.val_main_cst_apply, ReadP.val_main_v11_apply,
    ReadP.val_main_cst_1_apply, ReadP.val_main_v15_apply, ReadP.val_main_v14_apply, ReadP.val_main_v13_apply,
    ReadP.val_main_cst_2_apply, hidx]
  simp only [Ideal.addf_def, Ideal.hostDivf_def, Ideal.hostUnary_log_def, Ideal.hostNegf_def, Ideal.ofBits_def,
    ofBits_one, div_one]
  rfl

/-- The row maximum of `masked`, as the fold of `max` from `⊥` over the row. -/
def rowMax (r : Fin 32) : EReal := Finset.univ.fold max ⊥ (fun k : Fin 1000000 => masked x0 x1 x2 r k)

/-- The broadcast row maximum at (r, c) is the maximum stage at row `r`. -/
theorem v4_eq (r : Fin 32) (c : Fin 1000000) :
    ReadP.val_main_call0_v4 (F := Ideal) x0 x1 x2 (ix2 r c) = ReadP.val_main_call0_v2 (F := Ideal) x0 x1 x2 (ix1 r) := by
  rw [ReadP.val_main_call0_v4_apply, ReadP.val_main_call0_v3_apply]
  exact congrArg _ (funext fun a => match a with | ⟨0, _⟩ => rfl)

/-- The maximum stage at row `r` — the maximum of `-∞` and the host's reduce with a maximum body from `-∞` over
    the row — is the fold of `max` from `⊥` over the row of `masked`. -/
theorem v2_eq (r : Fin 32) :
    ReadP.val_main_call0_v2 (F := Ideal) x0 x1 x2 (ix1 r) = rowMax x0 x1 x2 r := by
  have h : S32x1000000.Reduces [1] S32 := by decide
  have hinit : ReadP.val_main_call0_cst (F := Ideal) (Shape.Idx.first h_S_) = ⊥ := by
    rw [ReadP.val_main_call0_cst_apply]; exact ofBits_neg_inf
  have hf : (ReadP.val_main_v16 (F := Ideal) x0 x1 x2 ∘ h.lift (ix1 r)) = fun k : Fin 1000000 => masked x0 x1 x2 r k :=
    funext fun (k : Fin 1000000) => by
      have hk : h.lift (ix1 r) k = ix2 r k := by
        funext a; apply Fin.ext; match a with | ⟨0, _⟩ => rfl | ⟨1, _⟩ => rfl
      exact (congrArg (ReadP.val_main_v16 (F := Ideal) x0 x1 x2) hk).trans (v16_eq x0 x1 x2 r k)
  rw [ReadP.val_main_call0_v2_apply, ReadP.val_main_call0_v1_apply, ReadP.val_main_call0_cst_0_apply]
  unfold ReadP.val_main_call0_v0
  rw [Host.reduce_eq_fold_single FloatOps.maximumf _ _ reducesTo_S32x1000000_S32_d1 h h_S_, hinit, hf]
  simp only [Ideal.maximumf_def, Ideal.ofBits_def, ofBits_neg_inf, max_bot_left]
  rfl

/-- The shifted operand at (r, k): `masked` there minus the row maximum. -/
theorem v5_eq (r : Fin 32) (k : Fin 1000000) :
    ReadP.val_main_call0_v5 (F := Ideal) x0 x1 x2 (ix2 r k) = masked x0 x1 x2 r k - rowMax x0 x1 x2 r := by
  rw [ReadP.val_main_call0_v5_apply, v16_eq, v4_eq, v2_eq]; rfl

/-! ## The reference's result is the specification -/

/-- **The reference's result array, at the ideal values, is `spec` of its arguments**: index by index the shifted
    log-softmax of the row of `masked`, which is the unshifted one (`LibLogSoftmax.logSoftmax_shift_fold`). -/
theorem ref_eq_spec : ReadP.val_main_v17 (F := Ideal) x0 x1 x2 = spec x0 x1 x2 := by
  funext i
  obtain ⟨r, c, rfl⟩ : ∃ r c, i = ix2 r c := ⟨i 0, i 1, eq_ix2 i⟩
  have hsum : ∑ k : Fin 1000000, ReadP.val_main_call0_v6 (F := Ideal) x0 x1 x2
        (ReadP.idx_main_call0_v7 (ReadP.idx_main_call0_v8 (ReadP.idx_main_call0_v10 (ix2 r c))) k)
      = ∑ k : Fin 1000000, Ideal.exp (masked x0 x1 x2 r k - rowMax x0 x1 x2 r) :=
    Finset.sum_congr rfl fun k _ => by
      have hidx : ReadP.idx_main_call0_v7 (ReadP.idx_main_call0_v8 (ReadP.idx_main_call0_v10 (ix2 r c))) k = ix2 r k := by
        funext a; match a with | ⟨0, _⟩ => rfl | ⟨1, _⟩ => rfl
      rw [hidx, ReadP.val_main_call0_v6_apply, v5_eq]; rfl
  rw [ReadP.val_main_v17_apply, v5_eq, ReadP.val_main_call0_v10_apply, ReadP.val_main_call0_v9_apply,
    ReadP.val_main_call0_v8_apply, ReadP.val_main_call0_v7_apply, ReadP.val_main_call0_cst_1_apply, hsum]
  simp only [Ideal.subf_def, Ideal.hostUnary_log_def, Ideal.ofBits_def, Ideal.ofBits_zero_f32, zero_add]
  exact (LibLogSoftmax.logSoftmax_shift_fold (fun k : Fin 1000000 => masked x0 x1 x2 r k) c).symm

end

/-! ## The reference's run ends at the specification -/

/-- On every device, from any memory with zero counters: every weakly fair execution of the reference terminates
    with its result buffer at `spec` of the arguments' launch contents, and the three arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = spec (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((ReadP.val_main_v17_eq _ _ _).trans (ref_eq_spec _ _ _)), (h c).2⟩)
    (RunP.run (F := Ideal) m ρ)

end Cert.RefValue
-- ==== Proof.LibBlockSum.lean ====
/-
  A sum over the columns of an array cut into blocks: `N` columns covered by `nb` blocks of `B` columns each,
  the last block possibly overhanging the array's end. The sum over the columns is the sum over the blocks of the
  sum over each block's columns, a column beyond the end contributing zero.

  The argument: extend the summand by zero to all naturals (`extZero`); a sum over `Fin N` is then a sum over
  `range N`, which may be lengthened to `range (nb * B)` since the added terms vanish; and `range (nb * B)` is
  enumerated by pairs (block, column in the block) through `n = j * B + q`.
-/
import Mathlib.Algebra.BigOperators.Fin
import Mathlib.Logic.Equiv.Fin.Basic

namespace Cert.LibBlockSum

open scoped BigOperators

/-- A function on `Fin N` extended by zero to every natural. -/
def extZero {M : Type*} [Zero M] {N : ℕ} (f : Fin N → M) (n : ℕ) : M :=
  if h : n < N then f ⟨n, h⟩ else 0

/-- Inside the range the extension is the function. -/
theorem extZero_of_lt {M : Type*} [Zero M] {N : ℕ} (f : Fin N → M) {n : ℕ} (h : n < N) :
    extZero f n = f ⟨n, h⟩ := dif_pos h

/-- Beyond the range the extension is zero. -/
theorem extZero_of_not_lt {M : Type*} [Zero M] {N : ℕ} (f : Fin N → M) {n : ℕ} (h : ¬ n < N) :
    extZero f n = 0 := dif_neg h

/-- Column `q` of block `j` lies inside the array when the blocks up to `n` do. -/
theorem block_lt {N B n j q : ℕ} (hj : j < n) (hq : q < B) (hlo : n * B ≤ N) : j * B + q < N :=
  calc j * B + q < j * B + B := Nat.add_lt_add_left hq _
    _ = (j + 1) * B := (Nat.succ_mul j B).symm
    _ ≤ n * B := Nat.mul_le_mul_right B hj
    _ ≤ N := hlo

/-- The sum over `Fin N` is the sum of the zero extension over any `range K` with `N ≤ K`. -/
theorem sum_eq_sum_range_extZero {M : Type*} [AddCommMonoid M] {N K : ℕ} (hK : N ≤ K) (f : Fin N → M) :
    ∑ c : Fin N, f c = ∑ n ∈ Finset.range K, extZero f n := by
  have h1 : ∑ c : Fin N, f c = ∑ n ∈ Finset.range N, extZero f n := by
    rw [← Fin.sum_univ_eq_sum_range (extZero f) N]
    exact Finset.sum_congr rfl fun c _ => (extZero_of_lt f c.isLt).symm
  rw [h1]
  exact Finset.sum_subset (Finset.range_subset_range.2 hK) fun n _ hn =>
    extZero_of_not_lt f (fun h => hn (Finset.mem_range.2 h))

/-- **A sum over the columns of an array cut into `nb` blocks of `B` columns** (`N ≤ nb * B`: the blocks cover
    the array, the last one possibly overhanging its end) is the sum over the blocks of the sum over each block's
    columns, a column beyond the array's end contributing zero. -/
theorem sum_blocks {M : Type*} [AddCommMonoid M] (N B nb : ℕ) (hN : N ≤ nb * B) (f : Fin N → M) :
    ∑ c : Fin N, f c
      = ∑ j : Fin nb, ∑ q : Fin B, (if h : j.val * B + q.val < N then f ⟨j.val * B + q.val, h⟩ else 0) := by
  have h3 : ∑ n ∈ Finset.range (nb * B), extZero f n
      = ∑ p : Fin nb × Fin B, extZero f (p.1.val * B + p.2.val) := by
    rw [← Fin.sum_univ_eq_sum_range (extZero f) (nb * B), ← Equiv.sum_comp finProdFinEquiv]
    refine Finset.sum_congr rfl fun p _ => congrArg (extZero f) ?_
    show p.2.val + B * p.1.val = p.1.val * B + p.2.val
    rw [Nat.mul_comm, Nat.add_comm]
  rw [sum_eq_sum_range_extZero hN f, h3, Fintype.sum_prod_type]
  rfl

/-- **The same with the last block split off**: when the first `n` blocks lie inside the array (`n * B ≤ N`) and
    `n + 1` blocks cover it, the sum over the columns is the sum over the full blocks of their columns, every one
    of which is a column of the array, plus the sum over the last block's columns that lie inside the array. -/
theorem sum_blocks_succ {M : Type*} [AddCommMonoid M] (N B n : ℕ) (hlo : n * B ≤ N) (hN : N ≤ (n + 1) * B)
    (f : Fin N → M) :
    ∑ c : Fin N, f c
      = (∑ j : Fin n, ∑ q : Fin B, f ⟨j.val * B + q.val, block_lt j.isLt q.isLt hlo⟩)
        + ∑ q : Fin B, (if h : n * B + q.val < N then f ⟨n * B + q.val, h⟩ else 0) := by
  rw [sum_blocks N B (n + 1) hN f, Fin.sum_univ_castSucc]
  refine congrArg₂ (· + ·) (Finset.sum_congr rfl fun j _ => Finset.sum_congr rfl fun q _ => ?_) rfl
  exact dif_pos (block_lt j.isLt q.isLt hlo)

end Cert.LibBlockSum
-- ==== Proof.Sum0Val.lean ====
/-
  What the first kernel region computes, at the extended reals, in terms of the specification.

  The region walks fourteen blocks of 73728 columns over the 32 rows of the logits, the mask and the one row of
  uniform samples; block 13 overhangs the arrays' 1000000 columns by 73728 - 41536. For a column inside the array
  the body's masked, perturbed logit is the specification's at that row and column; the narrowed scores written back
  are those (narrowing is the identity on the extended reals); the scratch column carries, after block `n`, the sum
  over blocks 0 … `n` of the row sums of the exponentials; and at the last block the kernel adds the row sum over
  the block's columns inside the array only and takes the logarithm — the logarithm of the sum over all the array's
  columns, a sum over the columns of an array being the sum over its blocks of the sums over each block's columns.

  So after the region the scores' array holds the specification's masked logits and the normalisers' column holds,
  in each row, the logarithm of the sum of their exponentials along the row.
-/
import proofs.«131931_g34385508171941_cont_8to1_b_261_19_alg».proof.Proof.Sum0
import proofs.«131931_g34385508171941_cont_8to1_b_261_19_alg».proof.Proof.KPay
import proofs.«131931_g34385508171941_cont_8to1_b_261_19_alg».proof.Proof.LibBlockSum
import proofs.«131931_g34385508171941_cont_8to1_b_261_19_alg».proof.Proof.RefValue
import Idealize.ShloMosaic.Lib.Pipeline.Kit
import Idealize.ShloMosaic.Lib.Pipeline.Value
import Idealize.ShloMosaic.Lib.ValueIdx

noncomputable section

namespace Cert.KProof

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.RefValue (masked gum)
open scoped BigOperators

variable (V : (c : Dev nD) → (b : Ref sig .tc) → Buf (Elt Ideal) ((c : Thread nD τ).loc b)) (c : Dev nD)
variable (x2 : (⟨Cert.ReferenceIdeal.S1000000, .f32⟩ : BufTy).Contents (Elt Ideal))

/-! ## The index maps, decided over the fourteen points -/

/-- Each window over 73728-column blocks is at row block 0 and column block `t`, and its transfer moves every
    row and, of the block's 73728 columns, those inside the array: all but at the last point, where
    1000000 - 13 · 73728 = 41536 are. -/
theorem idx0_0 : ∀ t : Fin cfg0.N, win0_0.index t (0 : Fin 2) = 0 ∧ win0_0.index t (1 : Fin 2) = t.val
    ∧ win0_0.xsize (grid0.coords t) (0 : Fin 2) = 32
    ∧ win0_0.xsize (grid0.coords t) (1 : Fin 2) = (if t.val = 13 then 41536 else 73728) :=
  (by decide +kernel : ∀ t : Fin grid0.N, _)
theorem idx0_1 : ∀ t : Fin cfg0.N, win0_1.index t (0 : Fin 2) = 0 ∧ win0_1.index t (1 : Fin 2) = t.val
    ∧ win0_1.xsize (grid0.coords t) (0 : Fin 2) = 32
    ∧ win0_1.xsize (grid0.coords t) (1 : Fin 2) = (if t.val = 13 then 41536 else 73728) :=
  (by decide +kernel : ∀ t : Fin grid0.N, _)
theorem idx0_2 : ∀ t : Fin cfg0.N, win0_2.index t (0 : Fin 2) = 0 ∧ win0_2.index t (1 : Fin 2) = t.val
    ∧ win0_2.xsize (grid0.coords t) (0 : Fin 2) = 1
    ∧ win0_2.xsize (grid0.coords t) (1 : Fin 2) = (if t.val = 13 then 41536 else 73728) :=
  (by decide +kernel : ∀ t : Fin grid0.N, _)
theorem idx0_4 : ∀ t : Fin cfg0.N, win0_4.index t (0 : Fin 2) = 0 ∧ win0_4.index t (1 : Fin 2) = t.val
    ∧ win0_4.xsize (grid0.coords t) (0 : Fin 2) = 32
    ∧ win0_4.xsize (grid0.coords t) (1 : Fin 2) = (if t.val = 13 then 41536 else 73728) :=
  (by decide +kernel : ∀ t : Fin grid0.N, _)
/-- The normalisers' one block is the whole column. -/
theorem idx0_3 : ∀ t : Fin cfg0.N, win0_3.index t (0 : Fin 2) = 0 ∧ win0_3.index t (1 : Fin 2) = 0 :=
  (by decide +kernel : ∀ t : Fin grid0.N, _)

/-! ## A block's entry inside the array is the array's entry -/

/-- Entry `(r, q)` of the logits' block at point `t`, when column `t · 73728 + q` is inside the array, is the
    array's entry at that column. -/
theorem bl0_at (t : Fin cfg0.N) (r : Fin 32) (q : Fin 73728) (h : t.val * 73728 + q.val < 1000000) :
    bl0 V c t (ix2 r q) = V c main_arg0 (ix2 r (⟨t.val * 73728 + q.val, h⟩ : Fin 1000000)) := by
  obtain ⟨e0, e1, x0, x1⟩ := idx0_0 t
  have hm : win0_0.moved (grid0.coords t) (ix2 r q) = true := (win0_0.moved_iff _ _).mpr fun a => by
    match a with
    | ⟨0, _⟩ => show r.val < win0_0.xsize (grid0.coords t) (0 : Fin 2); rw [x0]; exact r.isLt
    | ⟨1, _⟩ =>
      show q.val < win0_0.xsize (grid0.coords t) (1 : Fin 2); rw [x1]
      have := q.isLt
      split <;> omega
  unfold bl0 Window.fill
  rw [dif_pos hm]
  show V c main_arg0 ((win0_0.blk t).view.emb _) = _
  refine congrArg (V c main_arg0) ?_
  funext a; apply Fin.ext
  match a with
  | ⟨0, _⟩ => show win0_0.index t (0 : Fin 2) * 32 + 1 * r.val = r.val; omega
  | ⟨1, _⟩ => show win0_0.index t (1 : Fin 2) * 73728 + 1 * q.val = t.val * 73728 + q.val; omega

/-- The mask's likewise, -/
theorem bl1_at (t : Fin cfg0.N) (r : Fin 32) (q : Fin 73728) (h : t.val * 73728 + q.val < 1000000) :
    bl1 V c t (ix2 r q) = V c main_arg1 (ix2 r (⟨t.val * 73728 + q.val, h⟩ : Fin 1000000)) := by
  obtain ⟨e0, e1, x0, x1⟩ := idx0_1 t
  have hm : win0_1.moved (grid0.coords t) (ix2 r q) = true := (win0_1.moved_iff _ _).mpr fun a => by
    match a with
    | ⟨0, _⟩ => show r.val < win0_1.xsize (grid0.coords t) (0 : Fin 2); rw [x0]; exact r.isLt
    | ⟨1, _⟩ =>
      show q.val < win0_1.xsize (grid0.coords t) (1 : Fin 2); rw [x1]
      have := q.isLt
      split <;> omega
  unfold bl1 Window.fill
  rw [dif_pos hm]
  show V c main_arg1 ((win0_1.blk t).view.emb _) = _
  refine congrArg (V c main_arg1) ?_
  funext a; apply Fin.ext
  match a with
  | ⟨0, _⟩ => show win0_1.index t (0 : Fin 2) * 32 + 1 * r.val = r.val; omega
  | ⟨1, _⟩ => show win0_1.index t (1 : Fin 2) * 73728 + 1 * q.val = t.val * 73728 + q.val; omega

/-- and the one row of the uniform samples'. -/
theorem bl2_at (t : Fin cfg0.N) (q : Fin 73728) (h : t.val * 73728 + q.val < 1000000) :
    bl2 V c t (ix2 (0 : Fin 1) q) = V c main_call0_v0 (ix2 (0 : Fin 1) (⟨t.val * 73728 + q.val, h⟩ : Fin 1000000)) := by
  obtain ⟨e0, e1, x0, x1⟩ := idx0_2 t
  have hm : win0_2.moved (grid0.coords t) (ix2 (0 : Fin 1) q) = true := (win0_2.moved_iff _ _).mpr fun a => by
    match a with
    | ⟨0, _⟩ => show 0 < win0_2.xsize (grid0.coords t) (0 : Fin 2); rw [x0]; exact Nat.zero_lt_one
    | ⟨1, _⟩ =>
      show q.val < win0_2.xsize (grid0.coords t) (1 : Fin 2); rw [x1]
      have := q.isLt
      split <;> omega
  unfold bl2 Window.fill
  rw [dif_pos hm]
  show V c main_call0_v0 ((win0_2.blk t).view.emb _) = _
  refine congrArg (V c main_call0_v0) ?_
  funext a; apply Fin.ext
  match a with
  | ⟨0, _⟩ => show win0_2.index t (0 : Fin 2) * 1 + 1 * 0 = 0; omega
  | ⟨1, _⟩ => show win0_2.index t (1 : Fin 2) * 73728 + 1 * q.val = t.val * 73728 + q.val; omega

/-! ## The scores of a block -/

/-- The masked, perturbed logit the body computes at entry `(r, q)` of block `t`, for a column inside the array, is
    the specification's at row `r` and column `t · 73728 + q`: the logit there, plus the Gumbel term of the uniform
    sample there, plus the logarithm of the shifted mask entry there. -/
theorem pay4_blk (hres : ∀ k : Fin 1000000, V c main_call0_v0 (ix2 (0 : Fin 1) k) = x2 (ix1 k))
    (t : Fin cfg0.N) (r : Fin 32) (q : Fin 73728) (h : t.val * 73728 + q.val < 1000000) :
    k0_pay4 (F := Ideal) (bl0 V c t) (k0_pay3 (bl2 V c t)) (bl1 V c t) (ix2 r q)
      = masked (V c main_arg0) (V c main_arg1) x2 r ⟨t.val * 73728 + q.val, h⟩ := by
  rw [Cert.KPay.pay4_apply, Cert.KPay.pay3_apply, bl0_at V c t r q h, bl1_at V c t r q h, bl2_at V c t q h, hres]
  rfl

/-- **The narrowed scores of block `t`** at an entry whose column is inside the array: narrowing is the identity
    on the extended reals. -/
theorem sc_apply (hres : ∀ k : Fin 1000000, V c main_call0_v0 (ix2 (0 : Fin 1) k) = x2 (ix1 k))
    (t : Fin cfg0.N) (r : Fin 32) (q : Fin 73728) (h : t.val * 73728 + q.val < 1000000) :
    sc (F := Ideal) V c t (ix2 r q) = masked (V c main_arg0) (V c main_arg1) x2 r ⟨t.val * 73728 + q.val, h⟩ :=
  pay4_blk V c x2 hres t r q h

/-! ## The running row sums -/

/-- The accumulator's reset value is zero. -/
theorem pay2_apply (r : Fin 32) : k0_pay2 (F := Ideal) (ix2 r 0) = 0 := by
  unfold k0_pay2
  simp only [shapeCast_self]
  exact Ideal.ofBits_zero_f32

/-- The first thirteen blocks lie inside the array. -/
theorem blocks_le {n : ℕ} (hn : n < 13) : (n + 1) * 73728 ≤ 1000000 := by omega

/-- **The running row sum after point `n`**, before the last: the sum over blocks 0 … `n` of the sum along row `r`
    of the exponentials of the specification's scores — every column of those blocks is a column of the array. -/
theorem acc_apply (hres : ∀ k : Fin 1000000, V c main_call0_v0 (ix2 (0 : Fin 1) k) = x2 (ix1 k))
    (n : ℕ) (hn : n < 13) (r : Fin 32) :
    accAt (F := Ideal) V c n (ix2 r 0)
      = ∑ j : Fin (n + 1), ∑ q : Fin 73728,
          Ideal.exp (masked (V c main_arg0) (V c main_arg1) x2 r
            ⟨j.val * 73728 + q.val, Cert.LibBlockSum.block_lt j.isLt q.isLt (blocks_le hn)⟩) := by
  induction n with
  | zero =>
    rw [Fin.sum_univ_one]
    unfold accAt
    rw [Cert.KPay.pay7_apply, pay2_apply, zero_add]
    refine Finset.sum_congr rfl fun q _ => congrArg Ideal.exp ?_
    exact pay4_blk V c x2 hres t0_0 r q _
  | succ n ih =>
    have hN : n + 1 < cfg0.N := by rw [show cfg0.N = 14 from N_0]; omega
    rw [Fin.sum_univ_castSucc (n := n + 1)]
    unfold accAt
    rw [dif_pos hN, Cert.KPay.pay7_apply, ih (by omega)]
    refine congrArg₂ (· + ·) rfl (Finset.sum_congr rfl fun q _ => congrArg Ideal.exp ?_)
    exact pay4_blk V c x2 hres ⟨n + 1, hN⟩ r q _

/-! ## The normalisers -/

/-- **The normaliser of row `r`**: the logarithm of the sum, over ALL the array's columns, of the exponentials of
    the specification's scores — the thirteen whole blocks' sums carried by the accumulator, plus the last block's
    sum over its columns inside the array (the kernel's test on column `958464 + q` is "`13 · 73728 + q` is below
    `1000000`"). -/
theorem lse_apply (hres : ∀ k : Fin 1000000, V c main_call0_v0 (ix2 (0 : Fin 1) k) = x2 (ix1 k)) (r : Fin 32) :
    lse (F := Ideal) V c (ix2 r 0)
      = Ideal.log (∑ c' : Fin 1000000, Ideal.exp (masked (V c main_arg0) (V c main_arg1) x2 r c')) := by
  unfold lse
  rw [Cert.KPay.pay1_apply, acc_apply V c x2 hres 12 (by norm_num) r,
    Cert.LibBlockSum.sum_blocks_succ 1000000 73728 13 (by norm_num) (by norm_num)
      (fun c' => Ideal.exp (masked (V c main_arg0) (V c main_arg1) x2 r c'))]
  refine congrArg Ideal.log (congrArg₂ (· + ·) rfl (Finset.sum_congr rfl fun q _ => ?_))
  by_cases h : 958464 + q.val < 1000000
  · rw [if_pos h, dif_pos (show 13 * 73728 + q.val < 1000000 by omega)]
    exact congrArg Ideal.exp (pay4_blk V c x2 hres t0_13 r q (show 13 * 73728 + q.val < 1000000 by omega))
  · rw [if_neg h, dif_neg (show ¬ 13 * 73728 + q.val < 1000000 by omega)]

/-! ## The normalisers' array after the region -/

/-- Every index of the normalisers' column is in the last point's block, the whole column. -/
theorem cover0_3 (i : S32x1.Idx) :
    ∃ t : Fin cfg0.N, (cfg0.win 3).flush t = true ∧ i ∈ ((cfg0.win 3).blk t).view.set := by
  refine ⟨t0_13, (flush0_3 t0_13).mpr rfl, ?_⟩
  show i ∈ ((View.whole main_call0_v1_0).slice (win0_3.rect t0_13)).set
  rw [View.set_slice_whole, Rect.mem_set_unit]
  obtain ⟨e0, e1⟩ := idx0_3 t0_13
  have h0 : (i 0).val < 32 := (i 0).isLt
  have h1 : (i 1).val < 1 := (i 1).isLt
  intro a
  match a with
  | ⟨0, _⟩ =>
    show win0_3.index t0_13 (0 : Fin 2) * 32 ≤ (i 0).val ∧ (i 0).val < win0_3.index t0_13 (0 : Fin 2) * 32 + 32
    omega
  | ⟨1, _⟩ =>
    show win0_3.index t0_13 (1 : Fin 2) * 1 ≤ (i 1).val ∧ (i 1).val < win0_3.index t0_13 (1 : Fin 2) * 1 + 1
    omega

/-- **The normalisers' column after the region** is what the body stored at the last point, the one point that
    writes it back: its block there is the whole column. -/
theorem final0_lse : (dat0 (F := Ideal) V c).arrAt 3 cfg0.N = lse V c := by
  refine (dat0 (F := Ideal) V c).arrAt_eq_of_cover 3 (lse V c) (fun t _ => ?_) cover0_3
  show (cfg0.win 3).cut (grid0.coords t) ((dat0 (F := Ideal) V c).after 3 t) = _
  rw [after0_3]
  obtain ⟨e0, e1⟩ := idx0_3 t
  funext j
  show lse V c (win0_3.xinj (grid0.coords t) j) = lse V c ((win0_3.blk t).view.emb j)
  refine congrArg (lse V c) ?_
  funext a; apply Fin.ext
  match a with
  | ⟨0, _⟩ => show (j 0).val = win0_3.index t (0 : Fin 2) * 32 + 1 * (j 0).val; omega
  | ⟨1, _⟩ => show (j 1).val = win0_3.index t (1 : Fin 2) * 1 + 1 * (j 1).val; omega

/-- The same, row by row, in terms of the specification. -/
theorem final0_lse_apply (hres : ∀ k : Fin 1000000, V c main_call0_v0 (ix2 (0 : Fin 1) k) = x2 (ix1 k)) (r : Fin 32) :
    (dat0 (F := Ideal) V c).arrAt 3 cfg0.N (ix2 r 0)
      = Ideal.log (∑ c' : Fin 1000000, Ideal.exp (masked (V c main_arg0) (V c main_arg1) x2 r c')) := by
  rw [final0_lse]; exact lse_apply V c x2 hres r

/-! ## The scores' array after the region -/

/-- What the scores' array is shown to hold: the specification's masked, perturbed logits. -/
def scoresOf : S32x1000000.Idx → EReal := fun i => masked (V c main_arg0) (V c main_arg1) x2 (i 0) (i 1)

theorem scoresOf_apply (r : Fin 32) (k : Fin 1000000) :
    scoresOf V c x2 (ix2 r k) = masked (V c main_arg0) (V c main_arg1) x2 r k := rfl

/-- What point `t` writes back is block `t`, cut at the array's end, of those. -/
theorem flushed0_4_eq (hres : ∀ k : Fin 1000000, V c main_call0_v0 (ix2 (0 : Fin 1) k) = x2 (ix1 k)) (t : Fin cfg0.N) :
    (dat0 (F := Ideal) V c).flushed 4 t = ((cfg0.win 4).blk t).view.read (Elt Ideal) (scoresOf V c x2) := by
  show (cfg0.win 4).cut (grid0.coords t) ((dat0 (F := Ideal) V c).after 4 t) = _
  rw [after0_4]
  obtain ⟨e0, e1, x0, x1⟩ := idx0_4 t
  funext j
  have hj0 : (j 0).val < 32 := by
    have h : (j 0).val < win0_4.xsize (grid0.coords t) (0 : Fin 2) := (j 0).isLt
    rwa [x0] at h
  have hj1 : (j 1).val < 73728 ∧ t.val * 73728 + (j 1).val < 1000000 := by
    have h : (j 1).val < win0_4.xsize (grid0.coords t) (1 : Fin 2) := (j 1).isLt
    rw [x1] at h
    have ht : t.val < 14 := lt_of_lt_of_eq t.isLt N_0
    split at h <;> omega
  have e : win0_4.xinj (grid0.coords t) j = ix2 (⟨(j 0).val, hj0⟩ : Fin 32) (⟨(j 1).val, hj1.1⟩ : Fin 73728) := by
    funext a; apply Fin.ext
    match a with
    | ⟨0, _⟩ => rfl
    | ⟨1, _⟩ => rfl
  show sc V c t (win0_4.xinj (grid0.coords t) j)
    = masked (V c main_arg0) (V c main_arg1) x2 (((win0_4.blk t).view.emb j) 0) (((win0_4.blk t).view.emb j) 1)
  rw [e, sc_apply V c x2 hres t _ _ hj1.2]
  refine congrArg₂ (masked (V c main_arg0) (V c main_arg1) x2) (Fin.ext ?_) (Fin.ext ?_)
  · show (j 0).val = win0_4.index t (0 : Fin 2) * 32 + 1 * (j 0).val; omega
  · show t.val * 73728 + (j 1).val = win0_4.index t (1 : Fin 2) * 73728 + 1 * (j 1).val; omega

/-- An index of the scores' array is in point `t`'s block, cut at the array's end, iff each coordinate is among
    those the block's transfer moves on its axis. -/
theorem mem_blk0_4 (t : Fin cfg0.N) (i : S32x1000000.Idx) :
    i ∈ ((cfg0.win 4).blk t).view.set ↔ ∀ a : Fin 2, win0_4.index t a * S32x73728.size a ≤ (i a).val
      ∧ (i a).val < win0_4.index t a * S32x73728.size a + win0_4.xsize (grid0.coords t) a := by
  show i ∈ ((View.whole main_call0_v1_1).slice (win0_4.rect t)).set ↔ _
  rw [View.set_slice_whole, Rect.mem_set_unit]
  exact Iff.rfl

/-- Every index of the scores' array is in some point's block: column `k` in that of point `k / 73728`, which is
    below 14 because 1000000 ≤ 14 · 73728, and whose columns inside the array reach the array's end at the last. -/
theorem cover0_4 (i : S32x1000000.Idx) :
    ∃ t : Fin cfg0.N, (cfg0.win 4).flush t = true ∧ i ∈ ((cfg0.win 4).blk t).view.set := by
  have hi0 : (i 0).val < 32 := (i 0).isLt
  have hi1 : (i 1).val < 1000000 := (i 1).isLt
  have hN : (i 1).val / 73728 < cfg0.N := by rw [show cfg0.N = 14 from N_0]; omega
  refine ⟨⟨(i 1).val / 73728, hN⟩, flush0_4 _, ?_⟩
  rw [mem_blk0_4]
  obtain ⟨e0, e1, x0, x1⟩ := idx0_4 ⟨(i 1).val / 73728, hN⟩
  intro a
  match a with
  | ⟨0, _⟩ =>
    show win0_4.index ⟨(i 1).val / 73728, hN⟩ (0 : Fin 2) * 32 ≤ (i 0).val
      ∧ (i 0).val < win0_4.index ⟨(i 1).val / 73728, hN⟩ (0 : Fin 2) * 32 + win0_4.xsize (grid0.coords ⟨(i 1).val / 73728, hN⟩) (0 : Fin 2)
    rw [e0, x0]; omega
  | ⟨1, _⟩ =>
    show win0_4.index ⟨(i 1).val / 73728, hN⟩ (1 : Fin 2) * 73728 ≤ (i 1).val
      ∧ (i 1).val < win0_4.index ⟨(i 1).val / 73728, hN⟩ (1 : Fin 2) * 73728 + win0_4.xsize (grid0.coords ⟨(i 1).val / 73728, hN⟩) (1 : Fin 2)
    rw [e1, x1]
    show (i 1).val / 73728 * 73728 ≤ (i 1).val
      ∧ (i 1).val < (i 1).val / 73728 * 73728 + (if (i 1).val / 73728 = 13 then 41536 else 73728)
    split <;> omega

/-- **The scores' array after the region** holds the specification's masked, perturbed logits: the fourteen
    blocks' columns inside the array are together all of the array's. -/
theorem final0_scores (hres : ∀ k : Fin 1000000, V c main_call0_v0 (ix2 (0 : Fin 1) k) = x2 (ix1 k)) :
    (dat0 (F := Ideal) V c).arrAt 4 cfg0.N = scoresOf V c x2 :=
  (dat0 (F := Ideal) V c).arrAt_eq_of_cover 4 (scoresOf V c x2) (fun t _ => flushed0_4_eq V c x2 hres t) cover0_4

/-- The same, entry by entry. -/
theorem final0_scores_apply (hres : ∀ k : Fin 1000000, V c main_call0_v0 (ix2 (0 : Fin 1) k) = x2 (ix1 k))
    (r : Fin 32) (k : Fin 1000000) :
    (dat0 (F := Ideal) V c).arrAt 4 cfg0.N (ix2 r k) = masked (V c main_arg0) (V c main_arg1) x2 r k := by
  rw [final0_scores V c x2 hres]; rfl

end Cert.KProof

end
-- ==== Proof.KAlg.lean ====
/-
  What the kernel program computes, at the ideal float values: its result buffer ends at the specification the reference
  is shown to compute (`Cert.RefValue.spec`, the unshifted log-softmax of each row of the masked, perturbed logits).

  Region 1 leaves in its output array each stored score less its row's normaliser. Region 0 leaves in the scores'
  array the masked, perturbed logits of the launch arrays (the Gumbel row read off the reshaped uniform row, which is the
  uniform row entry by entry) and in the normalisers' column the logarithm of each row's sum of exponentials of those.
  Their difference at (r, k) is the specification there.
-/
import proofs.«131931_g34385508171941_cont_8to1_b_261_19_alg».proof.Proof.KInst
import proofs.«131931_g34385508171941_cont_8to1_b_261_19_alg».proof.Proof.RefValue
import proofs.«131931_g34385508171941_cont_8to1_b_261_19_alg».proof.Proof.Sum0Val

noncomputable section

namespace Cert.KProof

open Cert.KernelIdeal Cert.KernelIdeal.Gen
open Idealize.ShloMosaic Idealize.ShloMosaic.TcCoe Idealize.ShloMosaic.ValueIdx
open Idealize.SL.Sem
open scoped BigOperators

/-- **The result array after both regions is the specification of the launch arrays**: at (r, k) the stored score
    `masked r k` less the row's normaliser `log (∑ c', exp (masked r c'))`. -/
theorem kernel_value (m : (ℓ : Loc nD τ sig) → Buf (Elt Ideal) ℓ) (c : Dev nD) :
    (kd1 (F := Ideal) (Vin1 kd0 m) c).arrAt 2 cfg1.N
      = Cert.RefValue.spec (m ((c.tc : Thread nD τ).loc main_arg0)) (m ((c.tc : Thread nD τ).loc main_arg1))
          (m ((c.tc : Thread nD τ).loc main_arg2)) := by
  have hres := Vin0_main_call0_v0_apply m c
  have key : ∀ (r : Fin 32) (k : Fin 1000000),
      (kd1 (F := Ideal) (Vin1 kd0 m) c).arrAt 2 cfg1.N (ix2 r k)
        = Cert.RefValue.spec (m ((c.tc : Thread nD τ).loc main_arg0)) (m ((c.tc : Thread nD τ).loc main_arg1))
            (m ((c.tc : Thread nD τ).loc main_arg2)) (ix2 r k) := fun r k => by
    rw [Cert.RefValue.spec_ix2]
    refine (final1 c (Vin1 kd0 m c) r k).trans ?_
    rw [Vin1_v1_1, Vin1_v1_0,
      final0_scores_apply (Vin0 m) c (m ((c.tc : Thread nD τ).loc main_arg2)) hres r k,
      final0_lse_apply (Vin0 m) c (m ((c.tc : Thread nD τ).loc main_arg2)) hres r,
      Vin0_main_arg0, Vin0_main_arg1]
  funext i
  have e : i = ix2 (i 0) (i 1) := eq_ix2 (n0 := 32) (n1 := 1000000) i
  exact (congrArg ((kd1 (F := Ideal) (Vin1 kd0 m) c).arrAt 2 cfg1.N) e).trans
    ((key (i 0) (i 1)).trans (congrArg (Cert.RefValue.spec (m ((c.tc : Thread nD τ).loc main_arg0))
      (m ((c.tc : Thread nD τ).loc main_arg1)) (m ((c.tc : Thread nD τ).loc main_arg2))) e).symm)

/-- **The kernel program's run, with its value.** From any memory with zero counters, every weakly fair execution
    terminates with the result buffer at the specification of the launch arrays, and the three arguments as launched. -/
theorem kernel_run_spec (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
        = Cert.RefValue.spec (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_value m c), (h c).2⟩) (kernel_run_inst (F := Ideal) m ρ)

end Cert.KProof
-- ==== Proof.lean ====
/-
  The kernel computes, for logits x, a mask k and uniform samples u, the log-softmax along each of the 32 rows of
      masked = x + g + log (k + ε₄₅),   g = -log (-log (u + ε₂₀) + ε₂₀)   (g one value per column),
  in two passes over column blocks. The first pass (14 blocks of 73728 columns, the last overhanging the 1000000 columns)
  writes the masked scores, narrowed, and keeps a running sum of their exponentials per row, from which the last block's
  step — its columns past the array's end masked out — writes lse = log (∑ exp masked), UNSHIFTED. The second pass (8 blocks of
  131072 columns) writes masked - lse. The reference is jnp's log_softmax, which subtracts the row maximum M first:
  (masked - M) - log (∑ exp (masked - M)).

  On the extended reals the two agree for EVERY row, infinite entries included (a masked score is -∞ where the mask plus ε₄₅
  vanishes, and may be +∞ where the Gumbel term is): with a real maximum, ∑ exp (masked - M) = (∑ exp masked) / exp M; with M = +∞
  or M = -∞ both sides are -∞ by the conventions exp (-∞) = 0, log 0 = -∞, ∞ - ∞ = -∞ (LibLogSoftmax.lean). Sums are
  re-associated freely (an additive commutative monoid): the kernel's 14 block sums are the reference's one row sum
  (LibBlockSum.lean). The division by the temperature 1.0 is the identity on every extended real; a change of float format is
  the identity. The precondition (finite inputs) is not needed by any step.

  The modules: RefValue.lean reads the reference's run as the specification `spec` (the unshifted form); OutBody.lean / Out1.lean
  are the second pass (its body, its proof data, the result array in closed form); SumConds … Sum0Body.lean the first pass (its
  three cases by grid point, the proof data with the running sums as the scratch buffer's invariant, the body obligation),
  Sum0Val.lean its two result arrays in closed form; KMain.lean runs the host reshape and the two regions one after the other,
  KInst.lean at these proof data, KAlg.lean reads the run's result as `spec`. The files named B… are the same development for
  the program as printed at words (its frame needs no value).
-/
import proofs.«131931_g34385508171941_cont_8to1_b_261_19_alg».proof.Defs
import proofs.«131931_g34385508171941_cont_8to1_b_261_19_alg».proof.Proof.Gen.Kernel
import proofs.«131931_g34385508171941_cont_8to1_b_261_19_alg».proof.Proof.Gen.KernelIdeal
import proofs.«131931_g34385508171941_cont_8to1_b_261_19_alg».proof.Proof.Gen.ReferenceIdeal
import proofs.«131931_g34385508171941_cont_8to1_b_261_19_alg».proof.Proof.Gen.Pre_finite_inputs
import proofs.«131931_g34385508171941_cont_8to1_b_261_19_alg».proof.Proof.BKInst
import proofs.«131931_g34385508171941_cont_8to1_b_261_19_alg».proof.Proof.KAlg
import proofs.«131931_g34385508171941_cont_8to1_b_261_19_alg».proof.Proof.RefValue
import Idealize.ShloMosaic.Adequacy
import Idealize.ShloMosaic.Init

noncomputable section

namespace Cert.Proof

open Idealize.ShloMosaic Idealize.ShloMosaic.TcCoe Idealize.SL.Sem

/-- The program as printed runs and leaves its arguments as launched. -/
theorem frame_k : Cert.frame_Kernel := fun m ρ _ => Cert.KBProof.kernel_frame (F := Bits) m ρ

/-- So does its reading at the extended reals. -/
theorem frame_ki : Cert.frame_KernelIdeal := fun m ρ _ => Cert.KProof.kernel_frame (F := Ideal) m ρ

/-- The reference runs and leaves its arguments as launched: its run, the result dropped. -/
theorem frame_ri : Cert.frame_ReferenceIdeal := fun m ρ _ =>
  (θ_run Cert.ReferenceIdeal.defs _ _).mono (fun _ h c => (h c).2) (Cert.RefValue.ref_run m ρ)

/-- The idealization rewrote nothing. -/
theorem preserves : Cert.preserves_Kernel_KernelIdeal := trivial

/-- Both programs end with the unshifted log-softmax of the masked scores of their (equal) arguments. -/
theorem algebraic : Cert.algebraic_KernelIdeal_ReferenceIdeal := by
  intro m ρ m' ρ' _ hagree
  refine ⟨_, Cert.KProof.kernel_run_spec m ρ, ?_⟩
  refine (θ_run Cert.ReferenceIdeal.defs _ _).mono (fun _ h c => ⟨(h c).1.trans ?_, (h c).2⟩) (Cert.RefValue.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
